-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8x1x1 : Shape := ⟨3, ![8, 1, 1]⟩
abbrev S1024x128 : Shape := ⟨2, ![1024, 128]⟩
abbrev S1024x1 : Shape := ⟨2, ![1024, 1]⟩
abbrev S1x1024 : Shape := ⟨2, ![1, 1024]⟩
abbrev S1x1x1 : Shape := ⟨3, ![1, 1, 1]⟩
abbrev S1024x1024 : Shape := ⟨2, ![1024, 1024]⟩
abbrev S1024 : Shape := ⟨1, ![1024]⟩
abbrev S1x1024x1 : Shape := ⟨3, ![1, 1024, 1]⟩
abbrev S1 : Shape := ⟨1, ![1]⟩

abbrev nBuf : Space → Nat
  | .hbm => 15
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x1, .i32⟩
  | .hbm, ⟨8, _⟩ => ⟨S1x8192, .i32⟩
  | .hbm, ⟨9, _⟩ => ⟨S8x1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1x1x1, .f32⟩
  | .local _ .vmem, ⟨13, _⟩ => ⟨S1x1x1, .f32⟩
  | .local _ .vmem, ⟨14, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  natLt_1_32 : 1 < 32
  reduces_S1024x1024_S1024 : S1024x1024.Reduces [1] S1024
  shapeCasts_S1024_S1024x1 : S1024.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  shapeCasts_S_S1 : S_.ShapeCasts S1
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S8x1x1.size a
  hwx0_6 : ∀ i : grid0.Coords, EltTy.bits .f32 = 32 ∨ (Rect.block (s := S8x1x1) S1x1x1.size (cc0_transform_6 i) (hinb0_6 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S1 : Shape := ⟨1, ![1]⟩

abbrev nBuf : Space → Nat
  | .hbm => 61
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .i1⟩
  | .hbm, ⟨20, _⟩ => ⟨S8192x8192, .i1⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .i1⟩
  | .hbm, ⟨28, _⟩ => ⟨S8192x8192, .i1⟩
  | .hbm, ⟨29, _⟩ => ⟨S8192x8192, .i1⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .i1⟩
  | .hbm, ⟨39, _⟩ => ⟨S8192x8192, .i1⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  shapeCasts_S_S1 : S_.ShapeCasts S1
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBSetup.lean ====
/-
  What the per-case runs of the kernel body share: the arrays as the region finds them (after the seven host
  operations that square the rows, sum them and reshape the sums and the labels into a column and a row), the four
  branch conditions of the body as propositions over the grid point (i, j) — j = 0 (reset the row accumulator),
  i = j (a diagonal tile, masked to its strict upper triangle), i < j (a tile wholly above the diagonal), j = 7
  (the row tile's accumulator summed into the output) — with their closed forms over the point number t = 8·i + j,
  where the output window is idle, and the staging memrefs the body is called with.
-/
import proofs.«129345_j9990093931268_2_alg».proof.Proof.Gen.Kernel.Launch
import proofs.«129345_j9990093931268_2_alg».proof.Proof.Gen.Kernel.Skeleton
import proofs.«129345_j9990093931268_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffers when the region is entered: the launch contents after the host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions over the grid point -/

/-- j = 0: the row accumulator is reset. -/
abbrev cond1 (i : grid0.Coords) : Prop := (Scalar.cmpi .ne (Scalar.extui (Scalar.cmpi .eq (BitVec.ofNat 32 (i 1).val) 0#32)) 0#32) = 1#1
/-- i = j: a diagonal tile. -/
abbrev cond2 (i : grid0.Coords) : Prop := (Scalar.cmpi .ne (Scalar.extui (Scalar.cmpi .eq (BitVec.ofNat 32 (i 0).val) (BitVec.ofNat 32 (i 1).val))) 0#32) = 1#1
/-- i < j: a tile above the diagonal. -/
abbrev cond3 (i : grid0.Coords) : Prop := (Scalar.cmpi .ne (Scalar.extui (Scalar.cmpi .slt (BitVec.ofNat 32 (i 0).val) (BitVec.ofNat 32 (i 1).val))) 0#32) = 1#1
/-- j = 7: the last tile of the row of tiles. -/
abbrev cond4 (i : grid0.Coords) : Prop := k0_cond4 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val / 8 = t.val % 8 :=
  (by decide +kernel : ∀ t : Fin grid0.N, cond2 (grid0.coords t) ↔ t.val / 8 = t.val % 8)
theorem hcond3 : ∀ t : Fin cfg0.N, cond3 (grid0.coords t) ↔ t.val / 8 < t.val % 8 :=
  (by decide +kernel : ∀ t : Fin grid0.N, cond3 (grid0.coords t) ↔ t.val / 8 < t.val % 8)
theorem hcond4 : ∀ t : Fin cfg0.N, cond4 (grid0.coords t) ↔ t.val % 8 = 7 :=
  (by decide +kernel : ∀ t : Fin grid0.N, cond4 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Where j ≠ 7 the output window is idle: nothing is stored into it and it is not written back. -/
theorem idleAt6 : ∀ t : Fin cfg0.N, ¬cond4 (grid0.coords t) → cfg0.idle 6 (grid0.coords t) = true := by decide +kernel
theorem noFlush6 : ∀ t : Fin cfg0.N, ¬cond4 (grid0.coords t) → (cfg0.win 6).flush t = false := by decide +kernel
theorem liveAt6 : ∀ t : Fin cfg0.N, cond4 (grid0.coords t) → cfg0.idle 6 (grid0.coords t) = false := by decide +kernel

/-! ## The staging memrefs the body is called with -/

abbrev VO6 : View sig .tc .vmem S1x1x1 .f32 := (Memref.whole cc0_stg6_0 : Memref sig .tc .vmem S1x1x1 .f32).view
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1 .f32 := win0_6.stage (cfg0.slots t 6)
abbrev hs6 (t : Fin cfg0.N) : (ms6 t).IsWhole := hstage0_6 ((cfg0.slots t 6).cast nbuf0_6)
/-- The row accumulator: a whole scoped buffer of the kernel's own. -/
abbrev scM : Memref sig .tc .vmem S1024x1 .f32 := Memref.whole cc0_scratch0
abbrev VS : View sig .tc .vmem S1024x1 .f32 := scM.view

/-- The region's invariant before the first point: the accumulator at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.KBRunA.lean ====
/-
  The kernel body run once in the control case A of its four conditions (reset taken, diagonal tile taken,
  upper tile skipped, final row sum skipped): from the six input blocks in their staging memrefs, the
  output's memref and the row accumulator, the body runs to the continuation holding the inputs as they were and each
  buffer it stored into at the pieces its stores wrote (the pieces are found by the run itself).
-/
import proofs.«129345_j9990093931268_2_alg».proof.Proof.KBSetup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) :
    Σ' (L6 : List (View.Piece (Elt F) S1x1x1 .f32)), { LS0 : List (View.Piece (Elt F) S1024x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, fun xi6 E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Fr

end
-- ==== Proof.KBRunB.lean ====
/-
  The kernel body run once in the control case B of its four conditions (reset skipped, diagonal tile skipped,
  upper tile taken, final row sum skipped): from the six input blocks in their staging memrefs, the
  output's memref and the row accumulator, the body runs to the continuation holding the inputs as they were and each
  buffer it stored into at the pieces its stores wrote (the pieces are found by the run itself).
-/
import proofs.«129345_j9990093931268_2_alg».proof.Proof.KBRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    Σ' (L6 : List (View.Piece (Elt F) S1x1x1 .f32)), { LS0 : List (View.Piece (Elt F) S1024x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, fun xi6 E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Fr

end
-- ==== Proof.KBRunC.lean ====
/-
  The kernel body run once in the control case C of its four conditions (reset skipped, diagonal tile skipped,
  upper tile taken, final row sum taken): from the six input blocks in their staging memrefs, the
  output's memref and the row accumulator, the body runs to the continuation holding the inputs as they were and each
  buffer it stored into at the pieces its stores wrote (the pieces are found by the run itself).
-/
import proofs.«129345_j9990093931268_2_alg».proof.Proof.KBRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    Σ' (L6 : List (View.Piece (Elt F) S1x1x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Fr

end
-- ==== Proof.KBRunD.lean ====
/-
  The kernel body run once in the control case D of its four conditions (reset taken, diagonal tile skipped,
  upper tile skipped, final row sum skipped): from the six input blocks in their staging memrefs, the
  output's memref and the row accumulator, the body runs to the continuation holding the inputs as they were and each
  buffer it stored into at the pieces its stores wrote (the pieces are found by the run itself).
-/
import proofs.«129345_j9990093931268_2_alg».proof.Proof.KBRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_D (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) :
    Σ' (L6 : List (View.Piece (Elt F) S1x1x1 .f32)), { LS0 : List (View.Piece (Elt F) S1024x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, fun xi6 E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Fr

end
-- ==== Proof.KBRunE.lean ====
/-
  The kernel body run once in the control case E of its four conditions (reset skipped, diagonal tile taken,
  upper tile skipped, final row sum skipped): from the six input blocks in their staging memrefs, the
  output's memref and the row accumulator, the body runs to the continuation holding the inputs as they were and each
  buffer it stored into at the pieces its stores wrote (the pieces are found by the run itself).
-/
import proofs.«129345_j9990093931268_2_alg».proof.Proof.KBRunD

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_E (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    Σ' (L6 : List (View.Piece (Elt F) S1x1x1 .f32)), { LS0 : List (View.Piece (Elt F) S1024x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, fun xi6 E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Fr

end
-- ==== Proof.KBRunG.lean ====
/-
  The kernel body run once in the control case G of its four conditions (reset skipped, diagonal tile taken,
  upper tile skipped, final row sum taken): from the six input blocks in their staging memrefs, the
  output's memref and the row accumulator, the body runs to the continuation holding the inputs as they were and each
  buffer it stored into at the pieces its stores wrote (the pieces are found by the run itself).
-/
import proofs.«129345_j9990093931268_2_alg».proof.Proof.KBRunE

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_G (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    Σ' (L6 : List (View.Piece (Elt F) S1x1x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Fr

end
-- ==== Proof.KBRunH.lean ====
/-
  The kernel body run once in the control case H of its four conditions (reset skipped, diagonal tile skipped,
  upper tile skipped, final row sum skipped): from the six input blocks in their staging memrefs, the
  output's memref and the row accumulator, the body runs to the continuation holding the inputs as they were and each
  buffer it stored into at the pieces its stores wrote (the pieces are found by the run itself).
-/
import proofs.«129345_j9990093931268_2_alg».proof.Proof.KBRunG

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_H (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) :
    Σ' (L6 : List (View.Piece (Elt F) S1x1x1 .f32)), { LS0 : List (View.Piece (Elt F) S1024x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], [], fun xi6 E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6

end Cert.Kernel.Fr

end
-- ==== Proof.KBFrame.lean ====
/-
  The accumulation and the body obligation. After each grid point the row accumulator holds what the point's case of the
  body left in it — zeros after a reset, the previous contents plus the tile's row sums after a diagonal or an upper
  tile, the previous contents unchanged after a tile below the diagonal — and at the last point of a row of tiles the
  output's staging buffer holds the accumulator's total. The proof data names these contents point by point; the body
  obligation is one leaf per control case, each that case's run.
-/
import proofs.«129345_j9990093931268_2_alg».proof.Proof.KBRunH

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output's staging buffer: its pieces read back (none: a placeholder nothing consults, the window being idle there). -/
def out_A_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) : Vec F S1x1x1 .f32 :=
  VO6.read (Elt F) (VO6.writes (Elt F) VO6.junk (kernelRun_A c i arg2 harg2 arg3 harg3 arg4 harg4 arg5 harg5 arg6 harg6 arg7 harg7 arg8 harg8 arg9 harg9 hc1 hc2 hc3 hc4 x0 x1 x2 x3 x4 x5).1)

/-- Case A's stores into the row accumulator cover it. -/
theorem scover_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (y : S1024x1.Idx) :
    ∃ pc ∈ (kernelRun_A c i arg2 harg2 arg3 harg3 arg4 harg4 arg5 harg5 arg6 harg6 arg7 harg7 arg8 harg8 arg9 harg9 hc1 hc2 hc3 hc4 x0 x1 x2 x3 x4 x5).2.1, y ∈ pc.1.set :=
  View.cover_of_tiledL (kernelRun_A c i arg2 harg2 arg3 harg3 arg4 harg4 arg5 harg5 arg6 harg6 arg7 harg7 arg8 harg8 arg9 harg9 hc1 hc2 hc3 hc4 x0 x1 x2 x3 x4 x5).2.1 S1024x1.size (by sl_kernel_rfl) y

/-- What case A leaves in the row accumulator: its pieces read back. -/
def sout_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) : Vec F S1024x1 .f32 :=
  VS.read (Elt F) (VS.writes (Elt F) VS.junk (kernelRun_A c i arg2 harg2 arg3 harg3 arg4 harg4 arg5 harg5 arg6 harg6 arg7 harg7 arg8 harg8 arg9 harg9 hc1 hc2 hc3 hc4 x0 x1 x2 x3 x4 x5).2.1)

/-- What case B leaves in the output's staging buffer: its pieces read back (none: a placeholder nothing consults, the window being idle there). -/
def out_B_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1x1x1 .f32 :=
  VO6.read (Elt F) (VO6.writes (Elt F) VO6.junk (kernelRun_B c i arg2 harg2 arg3 harg3 arg4 harg4 arg5 harg5 arg6 harg6 arg7 harg7 arg8 harg8 arg9 harg9 hc1 hc2 hc3 hc4 x0 x1 x2 x3 x4 x5 xs0).1)

/-- Case B's stores into the row accumulator cover it. -/
theorem scover_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1024x1.Idx) :
    ∃ pc ∈ (kernelRun_B c i arg2 harg2 arg3 harg3 arg4 harg4 arg5 harg5 arg6 harg6 arg7 harg7 arg8 harg8 arg9 harg9 hc1 hc2 hc3 hc4 x0 x1 x2 x3 x4 x5 xs0).2.1, y ∈ pc.1.set :=
  View.cover_of_tiledL (kernelRun_B c i arg2 harg2 arg3 harg3 arg4 harg4 arg5 harg5 arg6 harg6 arg7 harg7 arg8 harg8 arg9 harg9 hc1 hc2 hc3 hc4 x0 x1 x2 x3 x4 x5 xs0).2.1 S1024x1.size (by sl_kernel_rfl) y

/-- What case B leaves in the row accumulator: its pieces read back. -/
def sout_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1024x1 .f32 :=
  VS.read (Elt F) (VS.writes (Elt F) VS.junk (kernelRun_B c i arg2 harg2 arg3 harg3 arg4 harg4 arg5 harg5 arg6 harg6 arg7 harg7 arg8 harg8 arg9 harg9 hc1 hc2 hc3 hc4 x0 x1 x2 x3 x4 x5 xs0).2.1)

/-- Case C's one store into the output's buffer covers it. -/
theorem cover_C_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1x1x1.Idx) :
    ∃ pc ∈ (kernelRun_C c i arg2 harg2 arg3 harg3 arg4 harg4 arg5 harg5 arg6 harg6 arg7 harg7 arg8 harg8 arg9 harg9 hc1 hc2 hc3 hc4 x0 x1 x2 x3 x4 x5 xs0).1, y ∈ pc.1.set :=
  View.cover_of_tiledL (kernelRun_C c i arg2 harg2 arg3 harg3 arg4 harg4 arg5 harg5 arg6 harg6 arg7 harg7 arg8 harg8 arg9 harg9 hc1 hc2 hc3 hc4 x0 x1 x2 x3 x4 x5 xs0).1 S1x1x1.size (by sl_kernel_rfl) y

/-- What case C leaves in the output's staging buffer: its pieces read back. -/
def out_C_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1x1x1 .f32 :=
  VO6.read (Elt F) (VO6.writes (Elt F) VO6.junk (kernelRun_C c i arg2 harg2 arg3 harg3 arg4 harg4 arg5 harg5 arg6 harg6 arg7 harg7 arg8 harg8 arg9 harg9 hc1 hc2 hc3 hc4 x0 x1 x2 x3 x4 x5 xs0).1)

/-- Case C's stores into the row accumulator cover it. -/
theorem scover_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1024x1.Idx) :
    ∃ pc ∈ (kernelRun_C c i arg2 harg2 arg3 harg3 arg4 harg4 arg5 harg5 arg6 harg6 arg7 harg7 arg8 harg8 arg9 harg9 hc1 hc2 hc3 hc4 x0 x1 x2 x3 x4 x5 xs0).2.1, y ∈ pc.1.set :=
  View.cover_of_tiledL (kernelRun_C c i arg2 harg2 arg3 harg3 arg4 harg4 arg5 harg5 arg6 harg6 arg7 harg7 arg8 harg8 arg9 harg9 hc1 hc2 hc3 hc4 x0 x1 x2 x3 x4 x5 xs0).2.1 S1024x1.size (by sl_kernel_rfl) y

/-- What case C leaves in the row accumulator: its pieces read back. -/
def sout_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1024x1 .f32 :=
  VS.read (Elt F) (VS.writes (Elt F) VS.junk (kernelRun_C c i arg2 harg2 arg3 harg3 arg4 harg4 arg5 harg5 arg6 harg6 arg7 harg7 arg8 harg8 arg9 harg9 hc1 hc2 hc3 hc4 x0 x1 x2 x3 x4 x5 xs0).2.1)

/-- What case D leaves in the output's staging buffer: its pieces read back (none: a placeholder nothing consults, the window being idle there). -/
def out_D_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) : Vec F S1x1x1 .f32 :=
  VO6.read (Elt F) (VO6.writes (Elt F) VO6.junk (kernelRun_D c i arg2 harg2 arg3 harg3 arg4 harg4 arg5 harg5 arg6 harg6 arg7 harg7 arg8 harg8 arg9 harg9 hc1 hc2 hc3 hc4 x0 x1 x2 x3 x4 x5).1)

/-- Case D's stores into the row accumulator cover it. -/
theorem scover_D (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (y : S1024x1.Idx) :
    ∃ pc ∈ (kernelRun_D c i arg2 harg2 arg3 harg3 arg4 harg4 arg5 harg5 arg6 harg6 arg7 harg7 arg8 harg8 arg9 harg9 hc1 hc2 hc3 hc4 x0 x1 x2 x3 x4 x5).2.1, y ∈ pc.1.set :=
  View.cover_of_tiledL (kernelRun_D c i arg2 harg2 arg3 harg3 arg4 harg4 arg5 harg5 arg6 harg6 arg7 harg7 arg8 harg8 arg9 harg9 hc1 hc2 hc3 hc4 x0 x1 x2 x3 x4 x5).2.1 S1024x1.size (by sl_kernel_rfl) y

/-- What case D leaves in the row accumulator: its pieces read back. -/
def sout_D (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) : Vec F S1024x1 .f32 :=
  VS.read (Elt F) (VS.writes (Elt F) VS.junk (kernelRun_D c i arg2 harg2 arg3 harg3 arg4 harg4 arg5 harg5 arg6 harg6 arg7 harg7 arg8 harg8 arg9 harg9 hc1 hc2 hc3 hc4 x0 x1 x2 x3 x4 x5).2.1)

/-- What case E leaves in the output's staging buffer: its pieces read back (none: a placeholder nothing consults, the window being idle there). -/
def out_E_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1x1x1 .f32 :=
  VO6.read (Elt F) (VO6.writes (Elt F) VO6.junk (kernelRun_E c i arg2 harg2 arg3 harg3 arg4 harg4 arg5 harg5 arg6 harg6 arg7 harg7 arg8 harg8 arg9 harg9 hc1 hc2 hc3 hc4 x0 x1 x2 x3 x4 x5 xs0).1)

/-- Case E's stores into the row accumulator cover it. -/
theorem scover_E (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1024x1.Idx) :
    ∃ pc ∈ (kernelRun_E c i arg2 harg2 arg3 harg3 arg4 harg4 arg5 harg5 arg6 harg6 arg7 harg7 arg8 harg8 arg9 harg9 hc1 hc2 hc3 hc4 x0 x1 x2 x3 x4 x5 xs0).2.1, y ∈ pc.1.set :=
  View.cover_of_tiledL (kernelRun_E c i arg2 harg2 arg3 harg3 arg4 harg4 arg5 harg5 arg6 harg6 arg7 harg7 arg8 harg8 arg9 harg9 hc1 hc2 hc3 hc4 x0 x1 x2 x3 x4 x5 xs0).2.1 S1024x1.size (by sl_kernel_rfl) y

/-- What case E leaves in the row accumulator: its pieces read back. -/
def sout_E (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1024x1 .f32 :=
  VS.read (Elt F) (VS.writes (Elt F) VS.junk (kernelRun_E c i arg2 harg2 arg3 harg3 arg4 harg4 arg5 harg5 arg6 harg6 arg7 harg7 arg8 harg8 arg9 harg9 hc1 hc2 hc3 hc4 x0 x1 x2 x3 x4 x5 xs0).2.1)

/-- Case G's one store into the output's buffer covers it. -/
theorem cover_G_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1x1x1.Idx) :
    ∃ pc ∈ (kernelRun_G c i arg2 harg2 arg3 harg3 arg4 harg4 arg5 harg5 arg6 harg6 arg7 harg7 arg8 harg8 arg9 harg9 hc1 hc2 hc3 hc4 x0 x1 x2 x3 x4 x5 xs0).1, y ∈ pc.1.set :=
  View.cover_of_tiledL (kernelRun_G c i arg2 harg2 arg3 harg3 arg4 harg4 arg5 harg5 arg6 harg6 arg7 harg7 arg8 harg8 arg9 harg9 hc1 hc2 hc3 hc4 x0 x1 x2 x3 x4 x5 xs0).1 S1x1x1.size (by sl_kernel_rfl) y

/-- What case G leaves in the output's staging buffer: its pieces read back. -/
def out_G_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1x1x1 .f32 :=
  VO6.read (Elt F) (VO6.writes (Elt F) VO6.junk (kernelRun_G c i arg2 harg2 arg3 harg3 arg4 harg4 arg5 harg5 arg6 harg6 arg7 harg7 arg8 harg8 arg9 harg9 hc1 hc2 hc3 hc4 x0 x1 x2 x3 x4 x5 xs0).1)

/-- Case G's stores into the row accumulator cover it. -/
theorem scover_G (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1024x1.Idx) :
    ∃ pc ∈ (kernelRun_G c i arg2 harg2 arg3 harg3 arg4 harg4 arg5 harg5 arg6 harg6 arg7 harg7 arg8 harg8 arg9 harg9 hc1 hc2 hc3 hc4 x0 x1 x2 x3 x4 x5 xs0).2.1, y ∈ pc.1.set :=
  View.cover_of_tiledL (kernelRun_G c i arg2 harg2 arg3 harg3 arg4 harg4 arg5 harg5 arg6 harg6 arg7 harg7 arg8 harg8 arg9 harg9 hc1 hc2 hc3 hc4 x0 x1 x2 x3 x4 x5 xs0).2.1 S1024x1.size (by sl_kernel_rfl) y

/-- What case G leaves in the row accumulator: its pieces read back. -/
def sout_G (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1024x1 .f32 :=
  VS.read (Elt F) (VS.writes (Elt F) VS.junk (kernelRun_G c i arg2 harg2 arg3 harg3 arg4 harg4 arg5 harg5 arg6 harg6 arg7 harg7 arg8 harg8 arg9 harg9 hc1 hc2 hc3 hc4 x0 x1 x2 x3 x4 x5 xs0).2.1)

/-- What case H leaves in the output's staging buffer: its pieces read back (none: a placeholder nothing consults, the window being idle there). -/
def out_H_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) : Vec F S1x1x1 .f32 :=
  VO6.read (Elt F) (VO6.writes (Elt F) VO6.junk (kernelRun_H c i arg2 harg2 arg3 harg3 arg4 harg4 arg5 harg5 arg6 harg6 arg7 harg7 arg8 harg8 arg9 harg9 hc1 hc2 hc3 hc4 x0 x1 x2 x3 x4 x5).1)

/-! ## What the buffers hold after each point -/

/-- THE ACCUMULATION: what the output's staging buffer and the row accumulator hold after the body at point `n`, by
    recursion on the point: the case the point is in, run on the point's blocks and on what the point before left in the
    accumulator. -/
def outsAt (c : Dev nD) : (n : ℕ) → n < cfg0.N → Vec F S1x1x1 .f32 × Vec F S1024x1 .f32
  | 0, hn =>
    (have g1 : 0 % 8 = 0 := by omega
     have g2 : 0 / 8 = 0 % 8 := by omega
     have g3 : ¬0 / 8 < 0 % 8 := by omega
     have g4 : ¬0 % 8 = 7 := by omega
     (out_A_6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond1 ⟨0, hn⟩).mpr g1) ((hcond2 ⟨0, hn⟩).mpr g2) (fun h => g3 ((hcond3 ⟨0, hn⟩).mp h)) (fun h => g4 ((hcond4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond1 ⟨0, hn⟩).mpr g1) ((hcond2 ⟨0, hn⟩).mpr g2) (fun h => g3 ((hcond3 ⟨0, hn⟩).mp h)) (fun h => g4 ((hcond4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)))
  | n + 1, hn =>
    if h1 : (n + 1) % 8 = 0 then
      (have hN : n + 1 < 64 := lt_of_lt_of_eq hn (show cfg0.N = 64 from N_0)
          have g1 : (n + 1) % 8 = 0 := by omega
          have g2 : ¬(n + 1) / 8 = (n + 1) % 8 := by omega
          have g3 : ¬(n + 1) / 8 < (n + 1) % 8 := by omega
          have g4 : ¬(n + 1) % 8 = 7 := by omega
          (out_D_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond1 ⟨n + 1, hn⟩).mpr g1) (fun h => g2 ((hcond2 ⟨n + 1, hn⟩).mp h)) (fun h => g3 ((hcond3 ⟨n + 1, hn⟩).mp h)) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond1 ⟨n + 1, hn⟩).mpr g1) (fun h => g2 ((hcond2 ⟨n + 1, hn⟩).mp h)) (fun h => g3 ((hcond3 ⟨n + 1, hn⟩).mp h)) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)))
    else if h2 : (n + 1) / 8 = (n + 1) % 8 then
      if h4 : (n + 1) % 8 = 7 then
        (have hN : n + 1 < 64 := lt_of_lt_of_eq hn (show cfg0.N = 64 from N_0)
          have g1 : ¬(n + 1) % 8 = 0 := by omega
          have g2 : (n + 1) / 8 = (n + 1) % 8 := by omega
          have g3 : ¬(n + 1) / 8 < (n + 1) % 8 := by omega
          have g4 : (n + 1) % 8 = 7 := by omega
          (out_G_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) ((hcond2 ⟨n + 1, hn⟩).mpr g2) (fun h => g3 ((hcond3 ⟨n + 1, hn⟩).mp h)) ((hcond4 ⟨n + 1, hn⟩).mpr g4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2, sout_G c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) ((hcond2 ⟨n + 1, hn⟩).mpr g2) (fun h => g3 ((hcond3 ⟨n + 1, hn⟩).mp h)) ((hcond4 ⟨n + 1, hn⟩).mpr g4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2))
      else
        (have hN : n + 1 < 64 := lt_of_lt_of_eq hn (show cfg0.N = 64 from N_0)
          have g1 : ¬(n + 1) % 8 = 0 := by omega
          have g2 : (n + 1) / 8 = (n + 1) % 8 := by omega
          have g3 : ¬(n + 1) / 8 < (n + 1) % 8 := by omega
          have g4 : ¬(n + 1) % 8 = 7 := by omega
          (out_E_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) ((hcond2 ⟨n + 1, hn⟩).mpr g2) (fun h => g3 ((hcond3 ⟨n + 1, hn⟩).mp h)) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2, sout_E c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) ((hcond2 ⟨n + 1, hn⟩).mpr g2) (fun h => g3 ((hcond3 ⟨n + 1, hn⟩).mp h)) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2))
    else if h3 : (n + 1) / 8 < (n + 1) % 8 then
      if h4 : (n + 1) % 8 = 7 then
        (have hN : n + 1 < 64 := lt_of_lt_of_eq hn (show cfg0.N = 64 from N_0)
          have g1 : ¬(n + 1) % 8 = 0 := by omega
          have g2 : ¬(n + 1) / 8 = (n + 1) % 8 := by omega
          have g3 : (n + 1) / 8 < (n + 1) % 8 := by omega
          have g4 : (n + 1) % 8 = 7 := by omega
          (out_C_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) (fun h => g2 ((hcond2 ⟨n + 1, hn⟩).mp h)) ((hcond3 ⟨n + 1, hn⟩).mpr g3) ((hcond4 ⟨n + 1, hn⟩).mpr g4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) (fun h => g2 ((hcond2 ⟨n + 1, hn⟩).mp h)) ((hcond3 ⟨n + 1, hn⟩).mpr g3) ((hcond4 ⟨n + 1, hn⟩).mpr g4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2))
      else
        (have hN : n + 1 < 64 := lt_of_lt_of_eq hn (show cfg0.N = 64 from N_0)
          have g1 : ¬(n + 1) % 8 = 0 := by omega
          have g2 : ¬(n + 1) / 8 = (n + 1) % 8 := by omega
          have g3 : (n + 1) / 8 < (n + 1) % 8 := by omega
          have g4 : ¬(n + 1) % 8 = 7 := by omega
          (out_B_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) (fun h => g2 ((hcond2 ⟨n + 1, hn⟩).mp h)) ((hcond3 ⟨n + 1, hn⟩).mpr g3) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2, sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) (fun h => g2 ((hcond2 ⟨n + 1, hn⟩).mp h)) ((hcond3 ⟨n + 1, hn⟩).mpr g3) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2))
    else
      (have hN : n + 1 < 64 := lt_of_lt_of_eq hn (show cfg0.N = 64 from N_0)
          have g1 : ¬(n + 1) % 8 = 0 := by omega
          have g2 : ¬(n + 1) / 8 = (n + 1) % 8 := by omega
          have g3 : ¬(n + 1) / 8 < (n + 1) % 8 := by omega
          have g4 : ¬(n + 1) % 8 = 7 := by omega
          (out_H_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) (fun h => g2 ((hcond2 ⟨n + 1, hn⟩).mp h)) (fun h => g3 ((hcond3 ⟨n + 1, hn⟩).mp h)) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), (outsAt c n (Nat.lt_of_succ_lt hn)).2))

theorem outsAt_A (c : Dev nD) (t : Fin cfg0.N) (hz : t.val = 0) (g1 : t.val % 8 = 0) (g2 : t.val / 8 = t.val % 8) (g3 : ¬t.val / 8 < t.val % 8) (g4 : ¬t.val % 8 = 7) :
    outsAt m c t.val t.isLt = (out_A_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr g1) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t), sout_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr g1) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t)) := by
  obtain ⟨n, hn⟩ := t
  cases n with
  | zero => exact rfl
  | succ n => exact absurd hz (Nat.succ_ne_zero n)

theorem outsAt_B (c : Dev nD) (t : Fin cfg0.N) (hz : t.val ≠ 0) (g1 : ¬t.val % 8 = 0) (g2 : ¬t.val / 8 = t.val % 8) (g3 : t.val / 8 < t.val % 8) (g4 : ¬t.val % 8 = 7) :
    outsAt m c t.val t.isLt = (out_B_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) (fun h => g2 ((hcond2 t).mp h)) ((hcond3 t).mpr g3) (fun h => g4 ((hcond4 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2, sout_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) (fun h => g2 ((hcond2 t).mp h)) ((hcond3 t).mpr g3) (fun h => g4 ((hcond4 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2) := by
  obtain ⟨n, hn⟩ := t
  cases n with
  | zero => exact absurd rfl hz
  | succ n => exact ((dif_neg g1).trans ((dif_neg g2).trans ((dif_pos g3).trans (dif_neg g4)))).trans rfl

theorem outsAt_C (c : Dev nD) (t : Fin cfg0.N) (hz : t.val ≠ 0) (g1 : ¬t.val % 8 = 0) (g2 : ¬t.val / 8 = t.val % 8) (g3 : t.val / 8 < t.val % 8) (g4 : t.val % 8 = 7) :
    outsAt m c t.val t.isLt = (out_C_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) (fun h => g2 ((hcond2 t).mp h)) ((hcond3 t).mpr g3) ((hcond4 t).mpr g4) (iblk m c 0 t) (iblk m c 1 t) (iblk m c 2 t) (iblk m c 3 t) (iblk m c 4 t) (iblk m c 5 t) (outsAt m c (t.val - 1) (Nat.lt_of_le_of_lt (Nat.sub_le _ _) t.isLt)).2, sout_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) (fun h => g2 ((hcond2 t).mp h)) ((hcond3 t).mpr g3) ((hcond4 t).mpr g4) (iblk m c 0 t) (iblk m c 1 t) (iblk m c 2 t) (iblk m c 3 t) (iblk m c 4 t) (iblk m c 5 t) (outsAt m c (t.val - 1) (Nat.lt_of_le_of_lt (Nat.sub_le _ _) t.isLt)).2) := by
  obtain ⟨n, hn⟩ := t
  cases n with
  | zero => exact absurd rfl hz
  | succ n => exact ((dif_neg g1).trans ((dif_neg g2).trans ((dif_pos g3).trans (dif_pos g4)))).trans rfl

theorem outsAt_D (c : Dev nD) (t : Fin cfg0.N) (hz : t.val ≠ 0) (g1 : t.val % 8 = 0) (g2 : ¬t.val / 8 = t.val % 8) (g3 : ¬t.val / 8 < t.val % 8) (g4 : ¬t.val % 8 = 7) :
    outsAt m c t.val t.isLt = (out_D_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr g1) (fun h => g2 ((hcond2 t).mp h)) (fun h => g3 ((hcond3 t).mp h)) (fun h => g4 ((hcond4 t).mp h)) (iblk m c 0 t) (iblk m c 1 t) (iblk m c 2 t) (iblk m c 3 t) (iblk m c 4 t) (iblk m c 5 t), sout_D c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr g1) (fun h => g2 ((hcond2 t).mp h)) (fun h => g3 ((hcond3 t).mp h)) (fun h => g4 ((hcond4 t).mp h)) (iblk m c 0 t) (iblk m c 1 t) (iblk m c 2 t) (iblk m c 3 t) (iblk m c 4 t) (iblk m c 5 t)) := by
  obtain ⟨n, hn⟩ := t
  cases n with
  | zero => exact absurd rfl hz
  | succ n => exact ((dif_pos g1)).trans rfl

theorem outsAt_E (c : Dev nD) (t : Fin cfg0.N) (hz : t.val ≠ 0) (g1 : ¬t.val % 8 = 0) (g2 : t.val / 8 = t.val % 8) (g3 : ¬t.val / 8 < t.val % 8) (g4 : ¬t.val % 8 = 7) :
    outsAt m c t.val t.isLt = (out_E_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2, sout_E c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2) := by
  obtain ⟨n, hn⟩ := t
  cases n with
  | zero => exact absurd rfl hz
  | succ n => exact ((dif_neg g1).trans ((dif_pos g2).trans (dif_neg g4))).trans rfl

theorem outsAt_G (c : Dev nD) (t : Fin cfg0.N) (hz : t.val ≠ 0) (g1 : ¬t.val % 8 = 0) (g2 : t.val / 8 = t.val % 8) (g3 : ¬t.val / 8 < t.val % 8) (g4 : t.val % 8 = 7) :
    outsAt m c t.val t.isLt = (out_G_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) ((hcond2 t).mpr g2) (fun h => g3 ((hcond3 t).mp h)) ((hcond4 t).mpr g4) (iblk m c 0 t) (iblk m c 1 t) (iblk m c 2 t) (iblk m c 3 t) (iblk m c 4 t) (iblk m c 5 t) (outsAt m c (t.val - 1) (Nat.lt_of_le_of_lt (Nat.sub_le _ _) t.isLt)).2, sout_G c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) ((hcond2 t).mpr g2) (fun h => g3 ((hcond3 t).mp h)) ((hcond4 t).mpr g4) (iblk m c 0 t) (iblk m c 1 t) (iblk m c 2 t) (iblk m c 3 t) (iblk m c 4 t) (iblk m c 5 t) (outsAt m c (t.val - 1) (Nat.lt_of_le_of_lt (Nat.sub_le _ _) t.isLt)).2) := by
  obtain ⟨n, hn⟩ := t
  cases n with
  | zero => exact absurd rfl hz
  | succ n => exact ((dif_neg g1).trans ((dif_pos g2).trans (dif_pos g4))).trans rfl

theorem outsAt_H (c : Dev nD) (t : Fin cfg0.N) (hz : t.val ≠ 0) (g1 : ¬t.val % 8 = 0) (g2 : ¬t.val / 8 = t.val % 8) (g3 : ¬t.val / 8 < t.val % 8) (g4 : ¬t.val % 8 = 7) :
    outsAt m c t.val t.isLt = (out_H_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) (fun h => g2 ((hcond2 t).mp h)) (fun h => g3 ((hcond3 t).mp h)) (fun h => g4 ((hcond4 t).mp h)) (iblk m c 0 t) (iblk m c 1 t) (iblk m c 2 t) (iblk m c 3 t) (iblk m c 4 t) (iblk m c 5 t), (outsAt m c (t.val - 1) (Nat.lt_of_le_of_lt (Nat.sub_le _ _) t.isLt)).2) := by
  obtain ⟨n, hn⟩ := t
  cases n with
  | zero => exact absurd rfl hz
  | succ n => exact ((dif_neg g1).trans ((dif_neg g2).trans (dif_neg g3))).trans rfl

/-- The region invariant before point `n`: before the first point the accumulator at anything; afterwards at what the
    point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The proof data on core `c`: the arrays as the region finds them; after the body each input's buffer at its block and
    the output's at the accumulation's first component; the invariant `PhiS`; the embeddings' array, read through two
    windows, held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

/-- Input window 0's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's current staging buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's current staging buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's current staging buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's current staging buffer holds its block at every point, fetched there or not. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's current staging buffer holds its block at every point, fetched there or not. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' memrefs hold their blocks; the closed forms say which case the point is in; that
    case's run applies, handed the accumulator at what the point before left and giving it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h1 : t.val % 8 = 0
  · by_cases hz : t.val = 0
    ·
      have g1 : t.val % 8 = 0 := by omega
      have g2 : t.val / 8 = t.val % 8 := by omega
      have g3 : ¬t.val / 8 < t.val % 8 := by omega
      have g4 : ¬t.val % 8 = 7 := by omega
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [show (dats m 0 c).leavesExact 4 t = owns (c : Thread nD τ) (ms4 t) fullShare ((dats m 0 c).after 4 t) from by
        unfold Dat.leavesExact; rw [liveAt4 t], after4]
      rw [show (dats m 0 c).leavesExact 5 t = owns (c : Thread nD τ) (ms5 t) fullShare ((dats m 0 c).after 5 t) from by
        unfold Dat.leavesExact; rw [liveAt5 t], after5]
      rw [Dat.leavesExact_idle (dats m 0 c) 6 t (idleAt6 t (fun h => g4 ((hcond4 t).mp h))) (noFlush6 t (fun h => g4 ((hcond4 t).mp h)))]
      rw [outsAt_A m c t hz g1 g2 g3 g4]
      unfold sout_A; (try dsimp only)
      rw [PhiS_castSucc m c t, PhiS_zero m c _ _ hz, PhiA_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_A c (grid0.coords t) _ _ _ _ _ _ _ _ _ _ _ _ _ _ _ _ ((hcond1 t).mpr g1) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    ·
      have g1 : t.val % 8 = 0 := by omega
      have g2 : ¬t.val / 8 = t.val % 8 := by omega
      have g3 : ¬t.val / 8 < t.val % 8 := by omega
      have g4 : ¬t.val % 8 = 7 := by omega
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [show (dats m 0 c).leavesExact 4 t = owns (c : Thread nD τ) (ms4 t) fullShare ((dats m 0 c).after 4 t) from by
        unfold Dat.leavesExact; rw [liveAt4 t], after4]
      rw [show (dats m 0 c).leavesExact 5 t = owns (c : Thread nD τ) (ms5 t) fullShare ((dats m 0 c).after 5 t) from by
        unfold Dat.leavesExact; rw [liveAt5 t], after5]
      rw [Dat.leavesExact_idle (dats m 0 c) 6 t (idleAt6 t (fun h => g4 ((hcond4 t).mp h))) (noFlush6 t (fun h => g4 ((hcond4 t).mp h)))]
      rw [outsAt_D m c t hz g1 g2 g3 g4]
      unfold sout_D; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_D c (grid0.coords t) _ _ _ _ _ _ _ _ _ _ _ _ _ _ _ _ ((hcond1 t).mpr g1) (fun h => g2 ((hcond2 t).mp h)) (fun h => g3 ((hcond3 t).mp h)) (fun h => g4 ((hcond4 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover_D c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    by_cases h2 : t.val / 8 = t.val % 8
    · by_cases h4 : t.val % 8 = 7
      ·
        have g1 : ¬t.val % 8 = 0 := by omega
        have g2 : t.val / 8 = t.val % 8 := by omega
        have g3 : ¬t.val / 8 < t.val % 8 := by omega
        have g4 : t.val % 8 = 7 := by omega
        rw [show (dats m 0 c).leavesExact 0 t = owns (c : Thread nD τ) (ms0 t) fullShare ((dats m 0 c).after 0 t) from by
          unfold Dat.leavesExact; rw [liveAt0 t], after0]
        rw [show (dats m 0 c).leavesExact 1 t = owns (c : Thread nD τ) (ms1 t) fullShare ((dats m 0 c).after 1 t) from by
          unfold Dat.leavesExact; rw [liveAt1 t], after1]
        rw [show (dats m 0 c).leavesExact 2 t = owns (c : Thread nD τ) (ms2 t) fullShare ((dats m 0 c).after 2 t) from by
          unfold Dat.leavesExact; rw [liveAt2 t], after2]
        rw [show (dats m 0 c).leavesExact 3 t = owns (c : Thread nD τ) (ms3 t) fullShare ((dats m 0 c).after 3 t) from by
          unfold Dat.leavesExact; rw [liveAt3 t], after3]
        rw [show (dats m 0 c).leavesExact 4 t = owns (c : Thread nD τ) (ms4 t) fullShare ((dats m 0 c).after 4 t) from by
          unfold Dat.leavesExact; rw [liveAt4 t], after4]
        rw [show (dats m 0 c).leavesExact 5 t = owns (c : Thread nD τ) (ms5 t) fullShare ((dats m 0 c).after 5 t) from by
          unfold Dat.leavesExact; rw [liveAt5 t], after5]
        rw [show (dats m 0 c).leavesExact 6 t = owns (c : Thread nD τ) (ms6 t) fullShare ((dats m 0 c).after 6 t) from by
          unfold Dat.leavesExact; rw [liveAt6 t ((hcond4 t).mpr g4)], after6]
        rw [outsAt_G m c t hz g1 g2 g3 g4]
        unfold out_G_6 sout_G; (try dsimp only)
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun_G c (grid0.coords t) _ _ _ _ _ _ _ _ _ _ _ _ _ _ _ _ (fun h => g1 ((hcond1 t).mp h)) ((hcond2 t).mpr g2) (fun h => g3 ((hcond3 t).mp h)) ((hcond4 t).mpr g4) (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hg]
        · isplitl [HS0]
          · unfold owns; iexists _; isplitr
            swap; · iexact HS0
            ipureintro; exact View.read_writes_of_cover _ _ _ _ _ (scover_G c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover_G_6 c _ _ _ _ _ _ _ _ _ _ _ _ _ _ _ _ _ _ _ _ _ _ _ _ _ _ _ _)
      ·
        have g1 : ¬t.val % 8 = 0 := by omega
        have g2 : t.val / 8 = t.val % 8 := by omega
        have g3 : ¬t.val / 8 < t.val % 8 := by omega
        have g4 : ¬t.val % 8 = 7 := by omega
        rw [show (dats m 0 c).leavesExact 0 t = owns (c : Thread nD τ) (ms0 t) fullShare ((dats m 0 c).after 0 t) from by
          unfold Dat.leavesExact; rw [liveAt0 t], after0]
        rw [show (dats m 0 c).leavesExact 1 t = owns (c : Thread nD τ) (ms1 t) fullShare ((dats m 0 c).after 1 t) from by
          unfold Dat.leavesExact; rw [liveAt1 t], after1]
        rw [show (dats m 0 c).leavesExact 2 t = owns (c : Thread nD τ) (ms2 t) fullShare ((dats m 0 c).after 2 t) from by
          unfold Dat.leavesExact; rw [liveAt2 t], after2]
        rw [show (dats m 0 c).leavesExact 3 t = owns (c : Thread nD τ) (ms3 t) fullShare ((dats m 0 c).after 3 t) from by
          unfold Dat.leavesExact; rw [liveAt3 t], after3]
        rw [show (dats m 0 c).leavesExact 4 t = owns (c : Thread nD τ) (ms4 t) fullShare ((dats m 0 c).after 4 t) from by
          unfold Dat.leavesExact; rw [liveAt4 t], after4]
        rw [show (dats m 0 c).leavesExact 5 t = owns (c : Thread nD τ) (ms5 t) fullShare ((dats m 0 c).after 5 t) from by
          unfold Dat.leavesExact; rw [liveAt5 t], after5]
        rw [Dat.leavesExact_idle (dats m 0 c) 6 t (idleAt6 t (fun h => g4 ((hcond4 t).mp h))) (noFlush6 t (fun h => g4 ((hcond4 t).mp h)))]
        rw [outsAt_E m c t hz g1 g2 g3 g4]
        unfold sout_E; (try dsimp only)
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun_E c (grid0.coords t) _ _ _ _ _ _ _ _ _ _ _ _ _ _ _ _ (fun h => g1 ((hcond1 t).mp h)) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover_E c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · by_cases h3 : t.val / 8 < t.val % 8
      · by_cases h4 : t.val % 8 = 7
        ·
          have g1 : ¬t.val % 8 = 0 := by omega
          have g2 : ¬t.val / 8 = t.val % 8 := by omega
          have g3 : t.val / 8 < t.val % 8 := by omega
          have g4 : t.val % 8 = 7 := by omega
          rw [show (dats m 0 c).leavesExact 0 t = owns (c : Thread nD τ) (ms0 t) fullShare ((dats m 0 c).after 0 t) from by
            unfold Dat.leavesExact; rw [liveAt0 t], after0]
          rw [show (dats m 0 c).leavesExact 1 t = owns (c : Thread nD τ) (ms1 t) fullShare ((dats m 0 c).after 1 t) from by
            unfold Dat.leavesExact; rw [liveAt1 t], after1]
          rw [show (dats m 0 c).leavesExact 2 t = owns (c : Thread nD τ) (ms2 t) fullShare ((dats m 0 c).after 2 t) from by
            unfold Dat.leavesExact; rw [liveAt2 t], after2]
          rw [show (dats m 0 c).leavesExact 3 t = owns (c : Thread nD τ) (ms3 t) fullShare ((dats m 0 c).after 3 t) from by
            unfold Dat.leavesExact; rw [liveAt3 t], after3]
          rw [show (dats m 0 c).leavesExact 4 t = owns (c : Thread nD τ) (ms4 t) fullShare ((dats m 0 c).after 4 t) from by
            unfold Dat.leavesExact; rw [liveAt4 t], after4]
          rw [show (dats m 0 c).leavesExact 5 t = owns (c : Thread nD τ) (ms5 t) fullShare ((dats m 0 c).after 5 t) from by
            unfold Dat.leavesExact; rw [liveAt5 t], after5]
          rw [show (dats m 0 c).leavesExact 6 t = owns (c : Thread nD τ) (ms6 t) fullShare ((dats m 0 c).after 6 t) from by
            unfold Dat.leavesExact; rw [liveAt6 t ((hcond4 t).mpr g4)], after6]
          rw [outsAt_C m c t hz g1 g2 g3 g4]
          unfold out_C_6 sout_C; (try dsimp only)
          rw [PhiS_castSucc m c t, PhiS_pos m c _ _ hz]
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((kernelRun_C c (grid0.coords t) _ _ _ _ _ _ _ _ _ _ _ _ _ _ _ _ (fun h => g1 ((hcond1 t).mp h)) (fun h => g2 ((hcond2 t).mp h)) ((hcond3 t).mpr g3) ((hcond4 t).mpr g4) (iblk m c 0 t) (iblk m c 1 t) (iblk m c 2 t) (iblk m c 3 t) (iblk m c 4 t) (iblk m c 5 t) _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          iintro ⟨H0, H1, H2, H3, H4, H5, ⟨%e6, H6⟩, ⟨%es0, HS0⟩⟩
          isplitl [HS0 Hg]
          · isplitl [HS0]
            · unfold owns; iexists _; isplitr
              swap; · iexact HS0
              ipureintro; exact View.read_writes_of_cover _ _ _ _ _ (scover_C c _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover_C_6 c _ _ _ _ _ _ _ _ _ _ _ _ _ _ _ _ _ _ _ _ _ _ _ _ _ _ _ _)
        ·
          have g1 : ¬t.val % 8 = 0 := by omega
          have g2 : ¬t.val / 8 = t.val % 8 := by omega
          have g3 : t.val / 8 < t.val % 8 := by omega
          have g4 : ¬t.val % 8 = 7 := by omega
          rw [show (dats m 0 c).leavesExact 0 t = owns (c : Thread nD τ) (ms0 t) fullShare ((dats m 0 c).after 0 t) from by
            unfold Dat.leavesExact; rw [liveAt0 t], after0]
          rw [show (dats m 0 c).leavesExact 1 t = owns (c : Thread nD τ) (ms1 t) fullShare ((dats m 0 c).after 1 t) from by
            unfold Dat.leavesExact; rw [liveAt1 t], after1]
          rw [show (dats m 0 c).leavesExact 2 t = owns (c : Thread nD τ) (ms2 t) fullShare ((dats m 0 c).after 2 t) from by
            unfold Dat.leavesExact; rw [liveAt2 t], after2]
          rw [show (dats m 0 c).leavesExact 3 t = owns (c : Thread nD τ) (ms3 t) fullShare ((dats m 0 c).after 3 t) from by
            unfold Dat.leavesExact; rw [liveAt3 t], after3]
          rw [show (dats m 0 c).leavesExact 4 t = owns (c : Thread nD τ) (ms4 t) fullShare ((dats m 0 c).after 4 t) from by
            unfold Dat.leavesExact; rw [liveAt4 t], after4]
          rw [show (dats m 0 c).leavesExact 5 t = owns (c : Thread nD τ) (ms5 t) fullShare ((dats m 0 c).after 5 t) from by
            unfold Dat.leavesExact; rw [liveAt5 t], after5]
          rw [Dat.leavesExact_idle (dats m 0 c) 6 t (idleAt6 t (fun h => g4 ((hcond4 t).mp h))) (noFlush6 t (fun h => g4 ((hcond4 t).mp h)))]
          rw [outsAt_B m c t hz g1 g2 g3 g4]
          unfold sout_B; (try dsimp only)
          rw [PhiS_castSucc m c t, PhiS_pos m c _ _ hz]
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((kernelRun_B c (grid0.coords t) _ _ _ _ _ _ _ _ _ _ _ _ _ _ _ _ (fun h => g1 ((hcond1 t).mp h)) (fun h => g2 ((hcond2 t).mp h)) ((hcond3 t).mpr g3) (fun h => g4 ((hcond4 t).mp h)) (iblk m c 0 t) (iblk m c 1 t) (iblk m c 2 t) (iblk m c 3 t) (iblk m c 4 t) (iblk m c 5 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          iintro ⟨H0, H1, H2, H3, H4, H5, H6, ⟨%es0, HS0⟩⟩
          isplitl [HS0 Hg]
          · isplitl [HS0]
            · unfold owns; iexists _; isplitr
              swap; · iexact HS0
              ipureintro; exact View.read_writes_of_cover _ _ _ _ _ (scover_B c _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
      ·
        have g1 : ¬t.val % 8 = 0 := by omega
        have g2 : ¬t.val / 8 = t.val % 8 := by omega
        have g3 : ¬t.val / 8 < t.val % 8 := by omega
        have g4 : ¬t.val % 8 = 7 := by omega
        rw [show (dats m 0 c).leavesExact 0 t = owns (c : Thread nD τ) (ms0 t) fullShare ((dats m 0 c).after 0 t) from by
          unfold Dat.leavesExact; rw [liveAt0 t], after0]
        rw [show (dats m 0 c).leavesExact 1 t = owns (c : Thread nD τ) (ms1 t) fullShare ((dats m 0 c).after 1 t) from by
          unfold Dat.leavesExact; rw [liveAt1 t], after1]
        rw [show (dats m 0 c).leavesExact 2 t = owns (c : Thread nD τ) (ms2 t) fullShare ((dats m 0 c).after 2 t) from by
          unfold Dat.leavesExact; rw [liveAt2 t], after2]
        rw [show (dats m 0 c).leavesExact 3 t = owns (c : Thread nD τ) (ms3 t) fullShare ((dats m 0 c).after 3 t) from by
          unfold Dat.leavesExact; rw [liveAt3 t], after3]
        rw [show (dats m 0 c).leavesExact 4 t = owns (c : Thread nD τ) (ms4 t) fullShare ((dats m 0 c).after 4 t) from by
          unfold Dat.leavesExact; rw [liveAt4 t], after4]
        rw [show (dats m 0 c).leavesExact 5 t = owns (c : Thread nD τ) (ms5 t) fullShare ((dats m 0 c).after 5 t) from by
          unfold Dat.leavesExact; rw [liveAt5 t], after5]
        rw [Dat.leavesExact_idle (dats m 0 c) 6 t (idleAt6 t (fun h => g4 ((hcond4 t).mp h))) (noFlush6 t (fun h => g4 ((hcond4 t).mp h)))]
        rw [outsAt_H m c t hz g1 g2 g3 g4]
        (try dsimp only)
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun_H c (grid0.coords t) _ _ _ _ _ _ _ _ _ _ _ _ _ _ _ _ (fun h => g1 ((hcond1 t).mp h)) (fun h => g2 ((hcond2 t).mp h)) (fun h => g3 ((hcond3 t).mp h)) (fun h => g4 ((hcond4 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, H6⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Fr

end
-- ==== Proof.KBLaunch.lean ====
/-
  The launch: @main is seven host operations, the kernel region, five host operations. The embeddings' array is read
  through two windows of the region (the row tile and the column tile), so the region holds it in two half shares, one per
  window; every other array is held whole. After the region the host sums the eight per-row-tile totals, divides by the
  number of pairs and reshapes: the run ends with the one result at that value and both arguments as they were.
-/
import proofs.«129345_j9990093931268_2_alg».proof.Proof.KBFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host operations, at the contents after the earlier ones. -/
theorem hmainK : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] hostOps0_sub hostOps0_fresh main_chain

/-- No host operation before the region writes an argument. -/
theorem V_arg0 (c : Dev nD) : V m c main_arg0 = m ((c : Thread nD τ).loc main_arg0) :=
  StableHlo.after_of_writes_sub (W := [main_v0, main_cst, main_v1, main_v2, main_v3, main_v4, main_v5]) hostOps0 _
    (by simp only [List.Forall, StableHlo.binary_writes, StableHlo.nullary_writes, StableHlo.reshape_writes]; decide) (by decide)
theorem V_arg1 (c : Dev nD) : V m c main_arg1 = m ((c : Thread nD τ).loc main_arg1) :=
  StableHlo.after_of_writes_sub (W := [main_v0, main_cst, main_v1, main_v2, main_v3, main_v4, main_v5]) hostOps0 _
    (by simp only [List.Forall, StableHlo.binary_writes, StableHlo.nullary_writes, StableHlo.reshape_writes]; decide) (by decide)

/-! ## The arrays at the region's entry: the embeddings' array split between its two windows -/

theorem arrImage_eq : (Finset.univ.image (Pipeline.arrRef spec0)) = ([main_arg0, main_v2, main_v3, main_v4, main_v5, main_v6] : List (Ref sig .tc)).toFinset := by decide

theorem arr_pt (c : Dev nD) (w : Fin cfg0.W) (n : ℕ) :
    ((cfg0.win w).arr.view.loc (c.tc : Thread nD τ) ↦[(cfg0.win w).arr.view.set]{(dats m 0 c).share w} (dats m 0 c).arrAt w n : sProp 𝕄)
      = (((c : Thread nD τ).loc (Pipeline.arrRef spec0 w)) ↦{(dats m 0 c).share w} (dats m 0 c).arrAt w n) := by
  rw [(arr_whole0 w).set_eq_univ]

theorem arrBufs_eq (c : Dev nD) :
    (Pipeline.arrBufs spec0 c (V m c) : sProp 𝕄)
      = iprop((((c : Thread nD τ).loc main_arg0) ↦{fullShare} V m c main_arg0) ∗ (((c : Thread nD τ).loc main_v2) ↦{fullShare} V m c main_v2)
        ∗ (((c : Thread nD τ).loc main_v3) ↦{fullShare} V m c main_v3) ∗ (((c : Thread nD τ).loc main_v4) ↦{fullShare} V m c main_v4)
        ∗ (((c : Thread nD τ).loc main_v5) ↦{fullShare} V m c main_v5) ∗ (((c : Thread nD τ).loc main_v6) ↦{fullShare} V m c main_v6)) := by
  unfold Pipeline.arrBufs
  rw [bigSep_eq_bigSepL_of_eq _ arrImage_eq (by decide)]
  rfl

theorem arrAt_zero (c : Dev nD) (w : Fin cfg0.W) : (dats m 0 c).arrAt w 0 = V m c (Pipeline.arrRef spec0 w) := by
  show (dats m 0 c).A w = _
  exact A_eq m c w

theorem share0 (c : Dev nD) : (dats m 0 c).share 0 = fullShare.left := by unfold Dat.share; dsimp only [dats]; rfl
theorem share1 (c : Dev nD) : (dats m 0 c).share 1 = fullShare.right := by unfold Dat.share; dsimp only [dats]; rfl
theorem share2 (c : Dev nD) : (dats m 0 c).share 2 = fullShare := by unfold Dat.share; dsimp only [dats]; rfl
theorem share3 (c : Dev nD) : (dats m 0 c).share 3 = fullShare := by unfold Dat.share; dsimp only [dats]; rfl
theorem share4 (c : Dev nD) : (dats m 0 c).share 4 = fullShare := by unfold Dat.share; dsimp only [dats]; rfl
theorem share5 (c : Dev nD) : (dats m 0 c).share 5 = fullShare := by unfold Dat.share; dsimp only [dats]; rfl
theorem share6 (c : Dev nD) : (dats m 0 c).share 6 = fullShare := by unfold Dat.share; dsimp only [dats]; rfl

theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  simp only [Memref.view_whole, View.set_whole, arrAt_zero, share0, share1, share2, share3, share4, share5, share6]
  iintro ⟨H0, H2, H3, H4, H5, H6⟩
  ihave H01 := (pointsTo_share (PosShare.mem_left_op_right fullShare)).1 $$ H0
  icases H01 with ⟨H0l, H0r⟩
  isplitl [H0l]; · iexact H0l
  isplitl [H0r]; · iexact H0r
  isplitl [H2]; · iexact H2
  isplitl [H3]; · iexact H3
  isplitl [H4]; · iexact H4
  isplitl [H5]; · iexact H5
  iexact H6

/-! ## The host operations after the region -/

/-- The buffers the later host operations touch. -/
abbrev tailL : List (Ref sig .tc) := [main_cst_0, main_v6, main_v7, main_cst_1, main_v8, main_v9]
abbrev tailS : Finset (DevRef τ sig) := (tailL.map (Proc.devRef (τ := τ) .tc)).toFinset

theorem tailL_nodup : (tailL.map (Proc.devRef (τ := τ) .tc)).Nodup :=
  List.Nodup.map (Proc.devRef_injective _) (by decide)

theorem tail_sub : ∀ op ∈ (hostOps1 : List (HloOp τ sig (Elt F))), op.bufs ⊆ tailS := by
  intro op hop
  simp only [hostOps1, List.mem_cons, List.mem_nil_iff, or_false] at hop
  rcases hop with rfl | rfl | rfl | rfl | rfl
  all_goals
    intro b hb
    simp only [StableHlo.nullary_bufs, StableHlo.binary_bufs, StableHlo.reshape_bufs, Finset.mem_insert, Finset.mem_singleton] at hb
    simp only [tailS, tailL, List.map_cons, List.map_nil, List.toFinset_cons, List.toFinset_nil, Finset.mem_insert, Finset.mem_singleton, insert_empty_eq]
    rcases hb with rfl | rfl | rfl <;> simp

/-- The buffers as the later host operations find them: the kernel's output array at what the region left in it. -/
def V1 (c : Dev nD) : Valuation τ sig (Elt F) :=
  Function.update (V0 m c) (Proc.devRef .tc main_v6) ((dats m 0 c).arrAt 6 cfg0.N)

/-- What the program's one result ends at. -/
def result (c : Dev nD) : Buf (Elt F) ((c : Thread nD τ).loc main_v9) := StableHlo.after hostOps1 (V1 m c) (Proc.devRef .tc main_v9)

theorem V1_v6 (c : Dev nD) : V1 m c (Proc.devRef .tc main_v6) = (dats m 0 c).arrAt 6 cfg0.N := by
  unfold V1; exact Function.update_self ..
theorem V1_ne (c : Dev nD) (b : Ref sig .tc) (h : b ≠ main_v6) : V1 m c (Proc.devRef .tc b) = V m c b := by
  unfold V1; exact Function.update_of_ne (StableHlo.devRef_ne_of_ne h) ..

theorem after_v6 (c : Dev nD) : StableHlo.after hostOps1 (V1 m c) (Proc.devRef .tc main_v6) = (dats m 0 c).arrAt 6 cfg0.N :=
  (StableHlo.after_of_writes_sub (W := [main_cst_0, main_v7, main_cst_1, main_v8, main_v9]) hostOps1 _
    (by simp only [List.Forall, StableHlo.binary_writes, StableHlo.nullary_writes, StableHlo.reshape_writes]; decide) (by decide)).trans (V1_v6 m c)

theorem held_tail (c : Dev nD) (W : Valuation τ sig (Elt F)) :
    (StableHlo.held (c.tc : Thread nD τ) tailS W : sProp 𝕄)
      = iprop((((c : Thread nD τ).loc main_cst_0) ↦{fullShare} W (Proc.devRef .tc main_cst_0)) ∗ (((c : Thread nD τ).loc main_v6) ↦{fullShare} W (Proc.devRef .tc main_v6))
        ∗ (((c : Thread nD τ).loc main_v7) ↦{fullShare} W (Proc.devRef .tc main_v7)) ∗ (((c : Thread nD τ).loc main_cst_1) ↦{fullShare} W (Proc.devRef .tc main_cst_1))
        ∗ (((c : Thread nD τ).loc main_v8) ↦{fullShare} W (Proc.devRef .tc main_v8)) ∗ (((c : Thread nD τ).loc main_v9) ↦{fullShare} W (Proc.devRef .tc main_v9))) := by
  unfold StableHlo.held
  rw [bigSep_eq_bigSepL_of_eq _ rfl tailL_nodup]
  rfl

/-- What bypasses the region, and what the end reads: the labels' array and the result. -/
abbrev Zc (c : Dev nD) : sProp 𝕄 := Pipeline.unscopedRestP (Ix := Unit) (Name := ℕ) (U := UR sig nD τ) (Lvl := ℕ) Pipeline.Prefetch.none spec0 c (V m c)
abbrev Zc' (c : Dev nD) : sProp 𝕄 :=
  iprop((((c : Thread nD τ).loc main_arg1) ↦{fullShare} V m c main_arg1) ∗ (((c : Thread nD τ).loc main_v9) ↦{fullShare} result m c))

set_option backward.isDefEq.respectTransparency.types false in
theorem htail (c : Dev nD) (Q' : PUnit → sProp 𝕄) :
    iprop((iprop((dats m 0 c).arrays ((dats m 0 c).arrAt · cfg0.N) ∗ Zc' m c) -∗ Q' ⟨⟩)
        ∗ boundary (c.tc : Thread nD τ) ∗ (dats m 0 c).arrays ((dats m 0 c).arrAt · cfg0.N) ∗ Zc m c)
      ⊢ wp frame (wpE (defs (F := F)) (Variants.lift Variants.none) (c.tc : Thread nD τ) none) Set.univ (Pipeline.chain [StableHlo.seq hostOps1]) Q' := by
  unfold Zc Zc'
  rw [Pipeline.unscopedRestP_none, unscopedRest0_eq]
  unfold Dat.arrays
  rw [bigSep_W0]
  simp only [Memref.view_whole, View.set_whole, share0, share1, share2, share3, share4, share5, share6]
  rw [Pipeline.chain_cons, Pipeline.chain_nil]
  iintro ⟨Hk, Hbd, ⟨A0, A1, A2, A3, A4, A5, A6⟩, ⟨R1, -, -, -, Rc0, Rv7, Rc1, Rv8, Rv9⟩⟩
  have hseq := StableHlo.wp_seq (defs := defs (F := F)) (Variants.lift Variants.none) none Set.univ c tailS (fun _ => Prog.ret ⟨⟩) (K := Q') hostOps1 tail_sub
    (fun op h => (List.forall_iff_forall_mem.mp hostOps1_fresh) op h) (V1 m c)
  iapply hseq $$ [Hbd Rc0 A6 Rv7 Rc1 Rv8 Rv9]
  · rw [held_tail, V1_v6, V1_ne m c main_cst_0 (by decide), V1_ne m c main_v7 (by decide), V1_ne m c main_cst_1 (by decide), V1_ne m c main_v8 (by decide), V1_ne m c main_v9 (by decide)]
    isplitl [Hbd]; · iexact Hbd
    isplitl [Rc0]; · iexact Rc0
    isplitl [A6]; · iexact A6
    isplitl [Rv7]; · iexact Rv7
    isplitl [Rc1]; · iexact Rc1
    isplitl [Rv8]; · iexact Rv8
    iexact Rv9
  rw [held_tail, after_v6]
  iintro ⟨Hbd, -, A6, -, -, -, Rv9⟩
  rw [wp_ret]; imodintro
  iapply Hk
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [R1]; · iexact R1
  iexact Rv9

/-! ## The run -/

/-- What every final state satisfies: the result at its value, both arguments as launched. -/
def QC : PUnit × MemSt nD τ sig (Elt F) → Prop := fun r =>
  ∀ c : Dev nD, r.2.mem ((c : Thread nD τ).loc main_v9) = result m c
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
set_option maxHeartbeats 1600000 in
/-- At the compiled mesh, from any memory with zero counters: every weakly fair execution of @main terminates, nothing
    faulting, with the result buffer at `result` and the two arguments unchanged. -/
theorem run_main : θ_run defs (onTc (τ := τ) (main (F := F))) ⟨m, fun _ => 0, ρ⟩ (QC m) := by
  classical
  exact Pipeline.θ_run_region_pf_tail (pcfgs (F := F)) (fun p => (cfgs p).toPCfg_adm) (dats m) () cellOf_inj 0 winFacts₀0
    (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmainK m) (hsplit := hsplit m) (hpf := fun _ k => k.elim0)
    (X := fun c => iprop(∃ r, prngReg c r)) (Y := fun c => iprop(∃ r, prngReg c r)) (Z := Zc m) (Z' := Zc' m)
    (hX := fun c => by
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin m c))
    (hout := fun c => (hout m c).trans (by
        rw [Pipeline.ownSems0_none]; unfold Pipeline.ΦA
        iintro ⟨Hr, Hp⟩
        isplitl [Hp]; · iexact Hp
        isplitr; · iempintro
        iexact Hr))
    (htail := htail m)
    (QY := fun c s => s.mem ((c : Thread nD τ).loc main_arg1) = m ((c : Thread nD τ).loc main_arg1) ∧ s.mem ((c : Thread nD τ).loc main_v9) = result m c)
    (hY := fun c s' => by
      unfold Zc'; rw [V_arg1]
      iintro ⟨-, ⟨H1, H9⟩, HSI⟩
      icombine HSI H1 gives %h1
      icombine HSI H9 gives %h9
      imodintro
      isplitr; · ipureintro; exact ⟨Buf.eq_of_forall_mem_univ h1, Buf.eq_of_forall_mem_univ h9⟩
      iexact HSI)
    (hQ := fun s h c => ⟨(h c).2.2.2, ((h c).1 0).trans (((dats m 0 c).arrAt_in 0 rfl _).trans ((A_eq m c 0).trans (V_arg0 m c))), (h c).2.2.1⟩)

/-- THE FRAME: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Fr

end
-- ==== Proof.KISetup.lean ====
/-
  What the per-case runs of the kernel body share: the arrays as the region finds them (after the seven host
  operations that square the rows, sum them and reshape the sums and the labels into a column and a row), the four
  branch conditions of the body as propositions over the grid point (i, j) — j = 0 (reset the row accumulator),
  i = j (a diagonal tile, masked to its strict upper triangle), i < j (a tile wholly above the diagonal), j = 7
  (the row tile's accumulator summed into the output) — with their closed forms over the point number t = 8·i + j,
  where the output window is idle, and the staging memrefs the body is called with.
-/
import proofs.«129345_j9990093931268_2_alg».proof.Proof.Gen.KernelIdeal.Launch
import proofs.«129345_j9990093931268_2_alg».proof.Proof.Gen.KernelIdeal.Skeleton
import proofs.«129345_j9990093931268_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffers when the region is entered: the launch contents after the host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions over the grid point -/

/-- j = 0: the row accumulator is reset. -/
abbrev cond1 (i : grid0.Coords) : Prop := (Scalar.cmpi .ne (Scalar.extui (Scalar.cmpi .eq (BitVec.ofNat 32 (i 1).val) 0#32)) 0#32) = 1#1
/-- i = j: a diagonal tile. -/
abbrev cond2 (i : grid0.Coords) : Prop := (Scalar.cmpi .ne (Scalar.extui (Scalar.cmpi .eq (BitVec.ofNat 32 (i 0).val) (BitVec.ofNat 32 (i 1).val))) 0#32) = 1#1
/-- i < j: a tile above the diagonal. -/
abbrev cond3 (i : grid0.Coords) : Prop := (Scalar.cmpi .ne (Scalar.extui (Scalar.cmpi .slt (BitVec.ofNat 32 (i 0).val) (BitVec.ofNat 32 (i 1).val))) 0#32) = 1#1
/-- j = 7: the last tile of the row of tiles. -/
abbrev cond4 (i : grid0.Coords) : Prop := k0_cond4 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val / 8 = t.val % 8 :=
  (by decide +kernel : ∀ t : Fin grid0.N, cond2 (grid0.coords t) ↔ t.val / 8 = t.val % 8)
theorem hcond3 : ∀ t : Fin cfg0.N, cond3 (grid0.coords t) ↔ t.val / 8 < t.val % 8 :=
  (by decide +kernel : ∀ t : Fin grid0.N, cond3 (grid0.coords t) ↔ t.val / 8 < t.val % 8)
theorem hcond4 : ∀ t : Fin cfg0.N, cond4 (grid0.coords t) ↔ t.val % 8 = 7 :=
  (by decide +kernel : ∀ t : Fin grid0.N, cond4 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Where j ≠ 7 the output window is idle: nothing is stored into it and it is not written back. -/
theorem idleAt6 : ∀ t : Fin cfg0.N, ¬cond4 (grid0.coords t) → cfg0.idle 6 (grid0.coords t) = true := by decide +kernel
theorem noFlush6 : ∀ t : Fin cfg0.N, ¬cond4 (grid0.coords t) → (cfg0.win 6).flush t = false := by decide +kernel
theorem liveAt6 : ∀ t : Fin cfg0.N, cond4 (grid0.coords t) → cfg0.idle 6 (grid0.coords t) = false := by decide +kernel

/-! ## The staging memrefs the body is called with -/

abbrev VO6 : View sig .tc .vmem S1x1x1 .f32 := (Memref.whole cc0_stg6_0 : Memref sig .tc .vmem S1x1x1 .f32).view
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1 .f32 := win0_6.stage (cfg0.slots t 6)
abbrev hs6 (t : Fin cfg0.N) : (ms6 t).IsWhole := hstage0_6 ((cfg0.slots t 6).cast nbuf0_6)
/-- The row accumulator: a whole scoped buffer of the kernel's own. -/
abbrev scM : Memref sig .tc .vmem S1024x1 .f32 := Memref.whole cc0_scratch0
abbrev VS : View sig .tc .vmem S1024x1 .f32 := scM.view

/-- The region's invariant before the first point: the accumulator at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.KIRunA.lean ====
/-
  The kernel body run once in the control case A of its four conditions (reset taken, diagonal tile taken,
  upper tile skipped, final row sum skipped): from the six input blocks in their staging memrefs, the
  output's memref and the row accumulator, the body runs to the continuation holding the inputs as they were and each
  buffer it stored into at the pieces its stores wrote (the pieces are found by the run itself).
-/
import proofs.«129345_j9990093931268_2_alg».proof.Proof.KISetup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) :
    Σ' (L6 : List (View.Piece (Elt F) S1x1x1 .f32)), { LS0 : List (View.Piece (Elt F) S1024x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, fun xi6 E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Fr

end
-- ==== Proof.KIRunB.lean ====
/-
  The kernel body run once in the control case B of its four conditions (reset skipped, diagonal tile skipped,
  upper tile taken, final row sum skipped): from the six input blocks in their staging memrefs, the
  output's memref and the row accumulator, the body runs to the continuation holding the inputs as they were and each
  buffer it stored into at the pieces its stores wrote (the pieces are found by the run itself).
-/
import proofs.«129345_j9990093931268_2_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    Σ' (L6 : List (View.Piece (Elt F) S1x1x1 .f32)), { LS0 : List (View.Piece (Elt F) S1024x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, fun xi6 E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Fr

end
-- ==== Proof.KIRunC.lean ====
/-
  The kernel body run once in the control case C of its four conditions (reset skipped, diagonal tile skipped,
  upper tile taken, final row sum taken): from the six input blocks in their staging memrefs, the
  output's memref and the row accumulator, the body runs to the continuation holding the inputs as they were and each
  buffer it stored into at the pieces its stores wrote (the pieces are found by the run itself).
-/
import proofs.«129345_j9990093931268_2_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    Σ' (L6 : List (View.Piece (Elt F) S1x1x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Fr

end
-- ==== Proof.KIRunD.lean ====
/-
  The kernel body run once in the control case D of its four conditions (reset taken, diagonal tile skipped,
  upper tile skipped, final row sum skipped): from the six input blocks in their staging memrefs, the
  output's memref and the row accumulator, the body runs to the continuation holding the inputs as they were and each
  buffer it stored into at the pieces its stores wrote (the pieces are found by the run itself).
-/
import proofs.«129345_j9990093931268_2_alg».proof.Proof.KIRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_D (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) :
    Σ' (L6 : List (View.Piece (Elt F) S1x1x1 .f32)), { LS0 : List (View.Piece (Elt F) S1024x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, fun xi6 E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Fr

end
-- ==== Proof.KIRunE.lean ====
/-
  The kernel body run once in the control case E of its four conditions (reset skipped, diagonal tile taken,
  upper tile skipped, final row sum skipped): from the six input blocks in their staging memrefs, the
  output's memref and the row accumulator, the body runs to the continuation holding the inputs as they were and each
  buffer it stored into at the pieces its stores wrote (the pieces are found by the run itself).
-/
import proofs.«129345_j9990093931268_2_alg».proof.Proof.KIRunD

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_E (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    Σ' (L6 : List (View.Piece (Elt F) S1x1x1 .f32)), { LS0 : List (View.Piece (Elt F) S1024x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, fun xi6 E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Fr

end
-- ==== Proof.KIRunG.lean ====
/-
  The kernel body run once in the control case G of its four conditions (reset skipped, diagonal tile taken,
  upper tile skipped, final row sum taken): from the six input blocks in their staging memrefs, the
  output's memref and the row accumulator, the body runs to the continuation holding the inputs as they were and each
  buffer it stored into at the pieces its stores wrote (the pieces are found by the run itself).
-/
import proofs.«129345_j9990093931268_2_alg».proof.Proof.KIRunE

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_G (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    Σ' (L6 : List (View.Piece (Elt F) S1x1x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, fun E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Fr

end
-- ==== Proof.KIRunH.lean ====
/-
  The kernel body run once in the control case H of its four conditions (reset skipped, diagonal tile skipped,
  upper tile skipped, final row sum skipped): from the six input blocks in their staging memrefs, the
  output's memref and the row accumulator, the body runs to the continuation holding the inputs as they were and each
  buffer it stored into at the pieces its stores wrote (the pieces are found by the run itself).
-/
import proofs.«129345_j9990093931268_2_alg».proof.Proof.KIRunG

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_H (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) :
    Σ' (L6 : List (View.Piece (Elt F) S1x1x1 .f32)), { LS0 : List (View.Piece (Elt F) S1024x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], [], fun xi6 E K => ?run⟩
  case run =>
    simp only [cc0__contrastive_kernel_eq_skeleton]; unfold cc0__contrastive_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6

end Cert.KernelIdeal.Fr

end
-- ==== Proof.KIFrame.lean ====
/-
  The accumulation and the body obligation. After each grid point the row accumulator holds what the point's case of the
  body left in it — zeros after a reset, the previous contents plus the tile's row sums after a diagonal or an upper
  tile, the previous contents unchanged after a tile below the diagonal — and at the last point of a row of tiles the
  output's staging buffer holds the accumulator's total. The proof data names these contents point by point; the body
  obligation is one leaf per control case, each that case's run.
-/
import proofs.«129345_j9990093931268_2_alg».proof.Proof.KIRunH

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output's staging buffer: its pieces read back (none: a placeholder nothing consults, the window being idle there). -/
def out_A_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) : Vec F S1x1x1 .f32 :=
  VO6.read (Elt F) (VO6.writes (Elt F) VO6.junk (kernelRun_A c i arg2 harg2 arg3 harg3 arg4 harg4 arg5 harg5 arg6 harg6 arg7 harg7 arg8 harg8 arg9 harg9 hc1 hc2 hc3 hc4 x0 x1 x2 x3 x4 x5).1)

/-- Case A's stores into the row accumulator cover it. -/
theorem scover_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (y : S1024x1.Idx) :
    ∃ pc ∈ (kernelRun_A c i arg2 harg2 arg3 harg3 arg4 harg4 arg5 harg5 arg6 harg6 arg7 harg7 arg8 harg8 arg9 harg9 hc1 hc2 hc3 hc4 x0 x1 x2 x3 x4 x5).2.1, y ∈ pc.1.set :=
  View.cover_of_tiledL (kernelRun_A c i arg2 harg2 arg3 harg3 arg4 harg4 arg5 harg5 arg6 harg6 arg7 harg7 arg8 harg8 arg9 harg9 hc1 hc2 hc3 hc4 x0 x1 x2 x3 x4 x5).2.1 S1024x1.size (by sl_kernel_rfl) y

/-- What case A leaves in the row accumulator: its pieces read back. -/
def sout_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) : Vec F S1024x1 .f32 :=
  VS.read (Elt F) (VS.writes (Elt F) VS.junk (kernelRun_A c i arg2 harg2 arg3 harg3 arg4 harg4 arg5 harg5 arg6 harg6 arg7 harg7 arg8 harg8 arg9 harg9 hc1 hc2 hc3 hc4 x0 x1 x2 x3 x4 x5).2.1)

/-- What case B leaves in the output's staging buffer: its pieces read back (none: a placeholder nothing consults, the window being idle there). -/
def out_B_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1x1x1 .f32 :=
  VO6.read (Elt F) (VO6.writes (Elt F) VO6.junk (kernelRun_B c i arg2 harg2 arg3 harg3 arg4 harg4 arg5 harg5 arg6 harg6 arg7 harg7 arg8 harg8 arg9 harg9 hc1 hc2 hc3 hc4 x0 x1 x2 x3 x4 x5 xs0).1)

/-- Case B's stores into the row accumulator cover it. -/
theorem scover_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1024x1.Idx) :
    ∃ pc ∈ (kernelRun_B c i arg2 harg2 arg3 harg3 arg4 harg4 arg5 harg5 arg6 harg6 arg7 harg7 arg8 harg8 arg9 harg9 hc1 hc2 hc3 hc4 x0 x1 x2 x3 x4 x5 xs0).2.1, y ∈ pc.1.set :=
  View.cover_of_tiledL (kernelRun_B c i arg2 harg2 arg3 harg3 arg4 harg4 arg5 harg5 arg6 harg6 arg7 harg7 arg8 harg8 arg9 harg9 hc1 hc2 hc3 hc4 x0 x1 x2 x3 x4 x5 xs0).2.1 S1024x1.size (by sl_kernel_rfl) y

/-- What case B leaves in the row accumulator: its pieces read back. -/
def sout_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1024x1 .f32 :=
  VS.read (Elt F) (VS.writes (Elt F) VS.junk (kernelRun_B c i arg2 harg2 arg3 harg3 arg4 harg4 arg5 harg5 arg6 harg6 arg7 harg7 arg8 harg8 arg9 harg9 hc1 hc2 hc3 hc4 x0 x1 x2 x3 x4 x5 xs0).2.1)

/-- Case C's one store into the output's buffer covers it. -/
theorem cover_C_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1x1x1.Idx) :
    ∃ pc ∈ (kernelRun_C c i arg2 harg2 arg3 harg3 arg4 harg4 arg5 harg5 arg6 harg6 arg7 harg7 arg8 harg8 arg9 harg9 hc1 hc2 hc3 hc4 x0 x1 x2 x3 x4 x5 xs0).1, y ∈ pc.1.set :=
  View.cover_of_tiledL (kernelRun_C c i arg2 harg2 arg3 harg3 arg4 harg4 arg5 harg5 arg6 harg6 arg7 harg7 arg8 harg8 arg9 harg9 hc1 hc2 hc3 hc4 x0 x1 x2 x3 x4 x5 xs0).1 S1x1x1.size (by sl_kernel_rfl) y

/-- What case C leaves in the output's staging buffer: its pieces read back. -/
def out_C_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1x1x1 .f32 :=
  VO6.read (Elt F) (VO6.writes (Elt F) VO6.junk (kernelRun_C c i arg2 harg2 arg3 harg3 arg4 harg4 arg5 harg5 arg6 harg6 arg7 harg7 arg8 harg8 arg9 harg9 hc1 hc2 hc3 hc4 x0 x1 x2 x3 x4 x5 xs0).1)

/-- Case C's stores into the row accumulator cover it. -/
theorem scover_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1024x1.Idx) :
    ∃ pc ∈ (kernelRun_C c i arg2 harg2 arg3 harg3 arg4 harg4 arg5 harg5 arg6 harg6 arg7 harg7 arg8 harg8 arg9 harg9 hc1 hc2 hc3 hc4 x0 x1 x2 x3 x4 x5 xs0).2.1, y ∈ pc.1.set :=
  View.cover_of_tiledL (kernelRun_C c i arg2 harg2 arg3 harg3 arg4 harg4 arg5 harg5 arg6 harg6 arg7 harg7 arg8 harg8 arg9 harg9 hc1 hc2 hc3 hc4 x0 x1 x2 x3 x4 x5 xs0).2.1 S1024x1.size (by sl_kernel_rfl) y

/-- What case C leaves in the row accumulator: its pieces read back. -/
def sout_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1024x1 .f32 :=
  VS.read (Elt F) (VS.writes (Elt F) VS.junk (kernelRun_C c i arg2 harg2 arg3 harg3 arg4 harg4 arg5 harg5 arg6 harg6 arg7 harg7 arg8 harg8 arg9 harg9 hc1 hc2 hc3 hc4 x0 x1 x2 x3 x4 x5 xs0).2.1)

/-- What case D leaves in the output's staging buffer: its pieces read back (none: a placeholder nothing consults, the window being idle there). -/
def out_D_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) : Vec F S1x1x1 .f32 :=
  VO6.read (Elt F) (VO6.writes (Elt F) VO6.junk (kernelRun_D c i arg2 harg2 arg3 harg3 arg4 harg4 arg5 harg5 arg6 harg6 arg7 harg7 arg8 harg8 arg9 harg9 hc1 hc2 hc3 hc4 x0 x1 x2 x3 x4 x5).1)

/-- Case D's stores into the row accumulator cover it. -/
theorem scover_D (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (y : S1024x1.Idx) :
    ∃ pc ∈ (kernelRun_D c i arg2 harg2 arg3 harg3 arg4 harg4 arg5 harg5 arg6 harg6 arg7 harg7 arg8 harg8 arg9 harg9 hc1 hc2 hc3 hc4 x0 x1 x2 x3 x4 x5).2.1, y ∈ pc.1.set :=
  View.cover_of_tiledL (kernelRun_D c i arg2 harg2 arg3 harg3 arg4 harg4 arg5 harg5 arg6 harg6 arg7 harg7 arg8 harg8 arg9 harg9 hc1 hc2 hc3 hc4 x0 x1 x2 x3 x4 x5).2.1 S1024x1.size (by sl_kernel_rfl) y

/-- What case D leaves in the row accumulator: its pieces read back. -/
def sout_D (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) : Vec F S1024x1 .f32 :=
  VS.read (Elt F) (VS.writes (Elt F) VS.junk (kernelRun_D c i arg2 harg2 arg3 harg3 arg4 harg4 arg5 harg5 arg6 harg6 arg7 harg7 arg8 harg8 arg9 harg9 hc1 hc2 hc3 hc4 x0 x1 x2 x3 x4 x5).2.1)

/-- What case E leaves in the output's staging buffer: its pieces read back (none: a placeholder nothing consults, the window being idle there). -/
def out_E_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1x1x1 .f32 :=
  VO6.read (Elt F) (VO6.writes (Elt F) VO6.junk (kernelRun_E c i arg2 harg2 arg3 harg3 arg4 harg4 arg5 harg5 arg6 harg6 arg7 harg7 arg8 harg8 arg9 harg9 hc1 hc2 hc3 hc4 x0 x1 x2 x3 x4 x5 xs0).1)

/-- Case E's stores into the row accumulator cover it. -/
theorem scover_E (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1024x1.Idx) :
    ∃ pc ∈ (kernelRun_E c i arg2 harg2 arg3 harg3 arg4 harg4 arg5 harg5 arg6 harg6 arg7 harg7 arg8 harg8 arg9 harg9 hc1 hc2 hc3 hc4 x0 x1 x2 x3 x4 x5 xs0).2.1, y ∈ pc.1.set :=
  View.cover_of_tiledL (kernelRun_E c i arg2 harg2 arg3 harg3 arg4 harg4 arg5 harg5 arg6 harg6 arg7 harg7 arg8 harg8 arg9 harg9 hc1 hc2 hc3 hc4 x0 x1 x2 x3 x4 x5 xs0).2.1 S1024x1.size (by sl_kernel_rfl) y

/-- What case E leaves in the row accumulator: its pieces read back. -/
def sout_E (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1024x1 .f32 :=
  VS.read (Elt F) (VS.writes (Elt F) VS.junk (kernelRun_E c i arg2 harg2 arg3 harg3 arg4 harg4 arg5 harg5 arg6 harg6 arg7 harg7 arg8 harg8 arg9 harg9 hc1 hc2 hc3 hc4 x0 x1 x2 x3 x4 x5 xs0).2.1)

/-- Case G's one store into the output's buffer covers it. -/
theorem cover_G_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1x1x1.Idx) :
    ∃ pc ∈ (kernelRun_G c i arg2 harg2 arg3 harg3 arg4 harg4 arg5 harg5 arg6 harg6 arg7 harg7 arg8 harg8 arg9 harg9 hc1 hc2 hc3 hc4 x0 x1 x2 x3 x4 x5 xs0).1, y ∈ pc.1.set :=
  View.cover_of_tiledL (kernelRun_G c i arg2 harg2 arg3 harg3 arg4 harg4 arg5 harg5 arg6 harg6 arg7 harg7 arg8 harg8 arg9 harg9 hc1 hc2 hc3 hc4 x0 x1 x2 x3 x4 x5 xs0).1 S1x1x1.size (by sl_kernel_rfl) y

/-- What case G leaves in the output's staging buffer: its pieces read back. -/
def out_G_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1x1x1 .f32 :=
  VO6.read (Elt F) (VO6.writes (Elt F) VO6.junk (kernelRun_G c i arg2 harg2 arg3 harg3 arg4 harg4 arg5 harg5 arg6 harg6 arg7 harg7 arg8 harg8 arg9 harg9 hc1 hc2 hc3 hc4 x0 x1 x2 x3 x4 x5 xs0).1)

/-- Case G's stores into the row accumulator cover it. -/
theorem scover_G (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) (y : S1024x1.Idx) :
    ∃ pc ∈ (kernelRun_G c i arg2 harg2 arg3 harg3 arg4 harg4 arg5 harg5 arg6 harg6 arg7 harg7 arg8 harg8 arg9 harg9 hc1 hc2 hc3 hc4 x0 x1 x2 x3 x4 x5 xs0).2.1, y ∈ pc.1.set :=
  View.cover_of_tiledL (kernelRun_G c i arg2 harg2 arg3 harg3 arg4 harg4 arg5 harg5 arg6 harg6 arg7 harg7 arg8 harg8 arg9 harg9 hc1 hc2 hc3 hc4 x0 x1 x2 x3 x4 x5 xs0).2.1 S1024x1.size (by sl_kernel_rfl) y

/-- What case G leaves in the row accumulator: its pieces read back. -/
def sout_G (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) : Vec F S1024x1 .f32 :=
  VS.read (Elt F) (VS.writes (Elt F) VS.junk (kernelRun_G c i arg2 harg2 arg3 harg3 arg4 harg4 arg5 harg5 arg6 harg6 arg7 harg7 arg8 harg8 arg9 harg9 hc1 hc2 hc3 hc4 x0 x1 x2 x3 x4 x5 xs0).2.1)

/-- What case H leaves in the output's staging buffer: its pieces read back (none: a placeholder nothing consults, the window being idle there). -/
def out_H_6 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) : Vec F S1x1x1 .f32 :=
  VO6.read (Elt F) (VO6.writes (Elt F) VO6.junk (kernelRun_H c i arg2 harg2 arg3 harg3 arg4 harg4 arg5 harg5 arg6 harg6 arg7 harg7 arg8 harg8 arg9 harg9 hc1 hc2 hc3 hc4 x0 x1 x2 x3 x4 x5).1)

/-! ## What the buffers hold after each point -/

/-- THE ACCUMULATION: what the output's staging buffer and the row accumulator hold after the body at point `n`, by
    recursion on the point: the case the point is in, run on the point's blocks and on what the point before left in the
    accumulator. -/
def outsAt (c : Dev nD) : (n : ℕ) → n < cfg0.N → Vec F S1x1x1 .f32 × Vec F S1024x1 .f32
  | 0, hn =>
    (have g1 : 0 % 8 = 0 := by omega
     have g2 : 0 / 8 = 0 % 8 := by omega
     have g3 : ¬0 / 8 < 0 % 8 := by omega
     have g4 : ¬0 % 8 = 7 := by omega
     (out_A_6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond1 ⟨0, hn⟩).mpr g1) ((hcond2 ⟨0, hn⟩).mpr g2) (fun h => g3 ((hcond3 ⟨0, hn⟩).mp h)) (fun h => g4 ((hcond4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond1 ⟨0, hn⟩).mpr g1) ((hcond2 ⟨0, hn⟩).mpr g2) (fun h => g3 ((hcond3 ⟨0, hn⟩).mp h)) (fun h => g4 ((hcond4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)))
  | n + 1, hn =>
    if h1 : (n + 1) % 8 = 0 then
      (have hN : n + 1 < 64 := lt_of_lt_of_eq hn (show cfg0.N = 64 from N_0)
          have g1 : (n + 1) % 8 = 0 := by omega
          have g2 : ¬(n + 1) / 8 = (n + 1) % 8 := by omega
          have g3 : ¬(n + 1) / 8 < (n + 1) % 8 := by omega
          have g4 : ¬(n + 1) % 8 = 7 := by omega
          (out_D_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond1 ⟨n + 1, hn⟩).mpr g1) (fun h => g2 ((hcond2 ⟨n + 1, hn⟩).mp h)) (fun h => g3 ((hcond3 ⟨n + 1, hn⟩).mp h)) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond1 ⟨n + 1, hn⟩).mpr g1) (fun h => g2 ((hcond2 ⟨n + 1, hn⟩).mp h)) (fun h => g3 ((hcond3 ⟨n + 1, hn⟩).mp h)) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)))
    else if h2 : (n + 1) / 8 = (n + 1) % 8 then
      if h4 : (n + 1) % 8 = 7 then
        (have hN : n + 1 < 64 := lt_of_lt_of_eq hn (show cfg0.N = 64 from N_0)
          have g1 : ¬(n + 1) % 8 = 0 := by omega
          have g2 : (n + 1) / 8 = (n + 1) % 8 := by omega
          have g3 : ¬(n + 1) / 8 < (n + 1) % 8 := by omega
          have g4 : (n + 1) % 8 = 7 := by omega
          (out_G_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) ((hcond2 ⟨n + 1, hn⟩).mpr g2) (fun h => g3 ((hcond3 ⟨n + 1, hn⟩).mp h)) ((hcond4 ⟨n + 1, hn⟩).mpr g4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2, sout_G c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) ((hcond2 ⟨n + 1, hn⟩).mpr g2) (fun h => g3 ((hcond3 ⟨n + 1, hn⟩).mp h)) ((hcond4 ⟨n + 1, hn⟩).mpr g4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2))
      else
        (have hN : n + 1 < 64 := lt_of_lt_of_eq hn (show cfg0.N = 64 from N_0)
          have g1 : ¬(n + 1) % 8 = 0 := by omega
          have g2 : (n + 1) / 8 = (n + 1) % 8 := by omega
          have g3 : ¬(n + 1) / 8 < (n + 1) % 8 := by omega
          have g4 : ¬(n + 1) % 8 = 7 := by omega
          (out_E_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) ((hcond2 ⟨n + 1, hn⟩).mpr g2) (fun h => g3 ((hcond3 ⟨n + 1, hn⟩).mp h)) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2, sout_E c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) ((hcond2 ⟨n + 1, hn⟩).mpr g2) (fun h => g3 ((hcond3 ⟨n + 1, hn⟩).mp h)) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2))
    else if h3 : (n + 1) / 8 < (n + 1) % 8 then
      if h4 : (n + 1) % 8 = 7 then
        (have hN : n + 1 < 64 := lt_of_lt_of_eq hn (show cfg0.N = 64 from N_0)
          have g1 : ¬(n + 1) % 8 = 0 := by omega
          have g2 : ¬(n + 1) / 8 = (n + 1) % 8 := by omega
          have g3 : (n + 1) / 8 < (n + 1) % 8 := by omega
          have g4 : (n + 1) % 8 = 7 := by omega
          (out_C_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) (fun h => g2 ((hcond2 ⟨n + 1, hn⟩).mp h)) ((hcond3 ⟨n + 1, hn⟩).mpr g3) ((hcond4 ⟨n + 1, hn⟩).mpr g4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) (fun h => g2 ((hcond2 ⟨n + 1, hn⟩).mp h)) ((hcond3 ⟨n + 1, hn⟩).mpr g3) ((hcond4 ⟨n + 1, hn⟩).mpr g4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2))
      else
        (have hN : n + 1 < 64 := lt_of_lt_of_eq hn (show cfg0.N = 64 from N_0)
          have g1 : ¬(n + 1) % 8 = 0 := by omega
          have g2 : ¬(n + 1) / 8 = (n + 1) % 8 := by omega
          have g3 : (n + 1) / 8 < (n + 1) % 8 := by omega
          have g4 : ¬(n + 1) % 8 = 7 := by omega
          (out_B_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) (fun h => g2 ((hcond2 ⟨n + 1, hn⟩).mp h)) ((hcond3 ⟨n + 1, hn⟩).mpr g3) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2, sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) (fun h => g2 ((hcond2 ⟨n + 1, hn⟩).mp h)) ((hcond3 ⟨n + 1, hn⟩).mpr g3) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2))
    else
      (have hN : n + 1 < 64 := lt_of_lt_of_eq hn (show cfg0.N = 64 from N_0)
          have g1 : ¬(n + 1) % 8 = 0 := by omega
          have g2 : ¬(n + 1) / 8 = (n + 1) % 8 := by omega
          have g3 : ¬(n + 1) / 8 < (n + 1) % 8 := by omega
          have g4 : ¬(n + 1) % 8 = 7 := by omega
          (out_H_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => g1 ((hcond1 ⟨n + 1, hn⟩).mp h)) (fun h => g2 ((hcond2 ⟨n + 1, hn⟩).mp h)) (fun h => g3 ((hcond3 ⟨n + 1, hn⟩).mp h)) (fun h => g4 ((hcond4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), (outsAt c n (Nat.lt_of_succ_lt hn)).2))

theorem outsAt_A (c : Dev nD) (t : Fin cfg0.N) (hz : t.val = 0) (g1 : t.val % 8 = 0) (g2 : t.val / 8 = t.val % 8) (g3 : ¬t.val / 8 < t.val % 8) (g4 : ¬t.val % 8 = 7) :
    outsAt m c t.val t.isLt = (out_A_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr g1) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t), sout_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr g1) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t)) := by
  obtain ⟨n, hn⟩ := t
  cases n with
  | zero => exact rfl
  | succ n => exact absurd hz (Nat.succ_ne_zero n)

theorem outsAt_B (c : Dev nD) (t : Fin cfg0.N) (hz : t.val ≠ 0) (g1 : ¬t.val % 8 = 0) (g2 : ¬t.val / 8 = t.val % 8) (g3 : t.val / 8 < t.val % 8) (g4 : ¬t.val % 8 = 7) :
    outsAt m c t.val t.isLt = (out_B_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) (fun h => g2 ((hcond2 t).mp h)) ((hcond3 t).mpr g3) (fun h => g4 ((hcond4 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2, sout_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) (fun h => g2 ((hcond2 t).mp h)) ((hcond3 t).mpr g3) (fun h => g4 ((hcond4 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2) := by
  obtain ⟨n, hn⟩ := t
  cases n with
  | zero => exact absurd rfl hz
  | succ n => exact ((dif_neg g1).trans ((dif_neg g2).trans ((dif_pos g3).trans (dif_neg g4)))).trans rfl

theorem outsAt_C (c : Dev nD) (t : Fin cfg0.N) (hz : t.val ≠ 0) (g1 : ¬t.val % 8 = 0) (g2 : ¬t.val / 8 = t.val % 8) (g3 : t.val / 8 < t.val % 8) (g4 : t.val % 8 = 7) :
    outsAt m c t.val t.isLt = (out_C_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) (fun h => g2 ((hcond2 t).mp h)) ((hcond3 t).mpr g3) ((hcond4 t).mpr g4) (iblk m c 0 t) (iblk m c 1 t) (iblk m c 2 t) (iblk m c 3 t) (iblk m c 4 t) (iblk m c 5 t) (outsAt m c (t.val - 1) (Nat.lt_of_le_of_lt (Nat.sub_le _ _) t.isLt)).2, sout_C c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) (fun h => g2 ((hcond2 t).mp h)) ((hcond3 t).mpr g3) ((hcond4 t).mpr g4) (iblk m c 0 t) (iblk m c 1 t) (iblk m c 2 t) (iblk m c 3 t) (iblk m c 4 t) (iblk m c 5 t) (outsAt m c (t.val - 1) (Nat.lt_of_le_of_lt (Nat.sub_le _ _) t.isLt)).2) := by
  obtain ⟨n, hn⟩ := t
  cases n with
  | zero => exact absurd rfl hz
  | succ n => exact ((dif_neg g1).trans ((dif_neg g2).trans ((dif_pos g3).trans (dif_pos g4)))).trans rfl

theorem outsAt_D (c : Dev nD) (t : Fin cfg0.N) (hz : t.val ≠ 0) (g1 : t.val % 8 = 0) (g2 : ¬t.val / 8 = t.val % 8) (g3 : ¬t.val / 8 < t.val % 8) (g4 : ¬t.val % 8 = 7) :
    outsAt m c t.val t.isLt = (out_D_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr g1) (fun h => g2 ((hcond2 t).mp h)) (fun h => g3 ((hcond3 t).mp h)) (fun h => g4 ((hcond4 t).mp h)) (iblk m c 0 t) (iblk m c 1 t) (iblk m c 2 t) (iblk m c 3 t) (iblk m c 4 t) (iblk m c 5 t), sout_D c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond1 t).mpr g1) (fun h => g2 ((hcond2 t).mp h)) (fun h => g3 ((hcond3 t).mp h)) (fun h => g4 ((hcond4 t).mp h)) (iblk m c 0 t) (iblk m c 1 t) (iblk m c 2 t) (iblk m c 3 t) (iblk m c 4 t) (iblk m c 5 t)) := by
  obtain ⟨n, hn⟩ := t
  cases n with
  | zero => exact absurd rfl hz
  | succ n => exact ((dif_pos g1)).trans rfl

theorem outsAt_E (c : Dev nD) (t : Fin cfg0.N) (hz : t.val ≠ 0) (g1 : ¬t.val % 8 = 0) (g2 : t.val / 8 = t.val % 8) (g3 : ¬t.val / 8 < t.val % 8) (g4 : ¬t.val % 8 = 7) :
    outsAt m c t.val t.isLt = (out_E_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2, sout_E c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2) := by
  obtain ⟨n, hn⟩ := t
  cases n with
  | zero => exact absurd rfl hz
  | succ n => exact ((dif_neg g1).trans ((dif_pos g2).trans (dif_neg g4))).trans rfl

theorem outsAt_G (c : Dev nD) (t : Fin cfg0.N) (hz : t.val ≠ 0) (g1 : ¬t.val % 8 = 0) (g2 : t.val / 8 = t.val % 8) (g3 : ¬t.val / 8 < t.val % 8) (g4 : t.val % 8 = 7) :
    outsAt m c t.val t.isLt = (out_G_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) ((hcond2 t).mpr g2) (fun h => g3 ((hcond3 t).mp h)) ((hcond4 t).mpr g4) (iblk m c 0 t) (iblk m c 1 t) (iblk m c 2 t) (iblk m c 3 t) (iblk m c 4 t) (iblk m c 5 t) (outsAt m c (t.val - 1) (Nat.lt_of_le_of_lt (Nat.sub_le _ _) t.isLt)).2, sout_G c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) ((hcond2 t).mpr g2) (fun h => g3 ((hcond3 t).mp h)) ((hcond4 t).mpr g4) (iblk m c 0 t) (iblk m c 1 t) (iblk m c 2 t) (iblk m c 3 t) (iblk m c 4 t) (iblk m c 5 t) (outsAt m c (t.val - 1) (Nat.lt_of_le_of_lt (Nat.sub_le _ _) t.isLt)).2) := by
  obtain ⟨n, hn⟩ := t
  cases n with
  | zero => exact absurd rfl hz
  | succ n => exact ((dif_neg g1).trans ((dif_pos g2).trans (dif_pos g4))).trans rfl

theorem outsAt_H (c : Dev nD) (t : Fin cfg0.N) (hz : t.val ≠ 0) (g1 : ¬t.val % 8 = 0) (g2 : ¬t.val / 8 = t.val % 8) (g3 : ¬t.val / 8 < t.val % 8) (g4 : ¬t.val % 8 = 7) :
    outsAt m c t.val t.isLt = (out_H_6 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => g1 ((hcond1 t).mp h)) (fun h => g2 ((hcond2 t).mp h)) (fun h => g3 ((hcond3 t).mp h)) (fun h => g4 ((hcond4 t).mp h)) (iblk m c 0 t) (iblk m c 1 t) (iblk m c 2 t) (iblk m c 3 t) (iblk m c 4 t) (iblk m c 5 t), (outsAt m c (t.val - 1) (Nat.lt_of_le_of_lt (Nat.sub_le _ _) t.isLt)).2) := by
  obtain ⟨n, hn⟩ := t
  cases n with
  | zero => exact absurd rfl hz
  | succ n => exact ((dif_neg g1).trans ((dif_neg g2).trans (dif_neg g3))).trans rfl

/-- The region invariant before point `n`: before the first point the accumulator at anything; afterwards at what the
    point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The proof data on core `c`: the arrays as the region finds them; after the body each input's buffer at its block and
    the output's at the accumulation's first component; the invariant `PhiS`; the embeddings' array, read through two
    windows, held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

/-- Input window 0's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's current staging buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's current staging buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's current staging buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's current staging buffer holds its block at every point, fetched there or not. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's current staging buffer holds its block at every point, fetched there or not. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' memrefs hold their blocks; the closed forms say which case the point is in; that
    case's run applies, handed the accumulator at what the point before left and giving it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h1 : t.val % 8 = 0
  · by_cases hz : t.val = 0
    ·
      have g1 : t.val % 8 = 0 := by omega
      have g2 : t.val / 8 = t.val % 8 := by omega
      have g3 : ¬t.val / 8 < t.val % 8 := by omega
      have g4 : ¬t.val % 8 = 7 := by omega
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [show (dats m 0 c).leavesExact 4 t = owns (c : Thread nD τ) (ms4 t) fullShare ((dats m 0 c).after 4 t) from by
        unfold Dat.leavesExact; rw [liveAt4 t], after4]
      rw [show (dats m 0 c).leavesExact 5 t = owns (c : Thread nD τ) (ms5 t) fullShare ((dats m 0 c).after 5 t) from by
        unfold Dat.leavesExact; rw [liveAt5 t], after5]
      rw [Dat.leavesExact_idle (dats m 0 c) 6 t (idleAt6 t (fun h => g4 ((hcond4 t).mp h))) (noFlush6 t (fun h => g4 ((hcond4 t).mp h)))]
      rw [outsAt_A m c t hz g1 g2 g3 g4]
      unfold sout_A; (try dsimp only)
      rw [PhiS_castSucc m c t, PhiS_zero m c _ _ hz, PhiA_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_A c (grid0.coords t) _ _ _ _ _ _ _ _ _ _ _ _ _ _ _ _ ((hcond1 t).mpr g1) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    ·
      have g1 : t.val % 8 = 0 := by omega
      have g2 : ¬t.val / 8 = t.val % 8 := by omega
      have g3 : ¬t.val / 8 < t.val % 8 := by omega
      have g4 : ¬t.val % 8 = 7 := by omega
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [show (dats m 0 c).leavesExact 4 t = owns (c : Thread nD τ) (ms4 t) fullShare ((dats m 0 c).after 4 t) from by
        unfold Dat.leavesExact; rw [liveAt4 t], after4]
      rw [show (dats m 0 c).leavesExact 5 t = owns (c : Thread nD τ) (ms5 t) fullShare ((dats m 0 c).after 5 t) from by
        unfold Dat.leavesExact; rw [liveAt5 t], after5]
      rw [Dat.leavesExact_idle (dats m 0 c) 6 t (idleAt6 t (fun h => g4 ((hcond4 t).mp h))) (noFlush6 t (fun h => g4 ((hcond4 t).mp h)))]
      rw [outsAt_D m c t hz g1 g2 g3 g4]
      unfold sout_D; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_D c (grid0.coords t) _ _ _ _ _ _ _ _ _ _ _ _ _ _ _ _ ((hcond1 t).mpr g1) (fun h => g2 ((hcond2 t).mp h)) (fun h => g3 ((hcond3 t).mp h)) (fun h => g4 ((hcond4 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover_D c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    by_cases h2 : t.val / 8 = t.val % 8
    · by_cases h4 : t.val % 8 = 7
      ·
        have g1 : ¬t.val % 8 = 0 := by omega
        have g2 : t.val / 8 = t.val % 8 := by omega
        have g3 : ¬t.val / 8 < t.val % 8 := by omega
        have g4 : t.val % 8 = 7 := by omega
        rw [show (dats m 0 c).leavesExact 0 t = owns (c : Thread nD τ) (ms0 t) fullShare ((dats m 0 c).after 0 t) from by
          unfold Dat.leavesExact; rw [liveAt0 t], after0]
        rw [show (dats m 0 c).leavesExact 1 t = owns (c : Thread nD τ) (ms1 t) fullShare ((dats m 0 c).after 1 t) from by
          unfold Dat.leavesExact; rw [liveAt1 t], after1]
        rw [show (dats m 0 c).leavesExact 2 t = owns (c : Thread nD τ) (ms2 t) fullShare ((dats m 0 c).after 2 t) from by
          unfold Dat.leavesExact; rw [liveAt2 t], after2]
        rw [show (dats m 0 c).leavesExact 3 t = owns (c : Thread nD τ) (ms3 t) fullShare ((dats m 0 c).after 3 t) from by
          unfold Dat.leavesExact; rw [liveAt3 t], after3]
        rw [show (dats m 0 c).leavesExact 4 t = owns (c : Thread nD τ) (ms4 t) fullShare ((dats m 0 c).after 4 t) from by
          unfold Dat.leavesExact; rw [liveAt4 t], after4]
        rw [show (dats m 0 c).leavesExact 5 t = owns (c : Thread nD τ) (ms5 t) fullShare ((dats m 0 c).after 5 t) from by
          unfold Dat.leavesExact; rw [liveAt5 t], after5]
        rw [show (dats m 0 c).leavesExact 6 t = owns (c : Thread nD τ) (ms6 t) fullShare ((dats m 0 c).after 6 t) from by
          unfold Dat.leavesExact; rw [liveAt6 t ((hcond4 t).mpr g4)], after6]
        rw [outsAt_G m c t hz g1 g2 g3 g4]
        unfold out_G_6 sout_G; (try dsimp only)
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun_G c (grid0.coords t) _ _ _ _ _ _ _ _ _ _ _ _ _ _ _ _ (fun h => g1 ((hcond1 t).mp h)) ((hcond2 t).mpr g2) (fun h => g3 ((hcond3 t).mp h)) ((hcond4 t).mpr g4) (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hg]
        · isplitl [HS0]
          · unfold owns; iexists _; isplitr
            swap; · iexact HS0
            ipureintro; exact View.read_writes_of_cover _ _ _ _ _ (scover_G c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover_G_6 c _ _ _ _ _ _ _ _ _ _ _ _ _ _ _ _ _ _ _ _ _ _ _ _ _ _ _ _)
      ·
        have g1 : ¬t.val % 8 = 0 := by omega
        have g2 : t.val / 8 = t.val % 8 := by omega
        have g3 : ¬t.val / 8 < t.val % 8 := by omega
        have g4 : ¬t.val % 8 = 7 := by omega
        rw [show (dats m 0 c).leavesExact 0 t = owns (c : Thread nD τ) (ms0 t) fullShare ((dats m 0 c).after 0 t) from by
          unfold Dat.leavesExact; rw [liveAt0 t], after0]
        rw [show (dats m 0 c).leavesExact 1 t = owns (c : Thread nD τ) (ms1 t) fullShare ((dats m 0 c).after 1 t) from by
          unfold Dat.leavesExact; rw [liveAt1 t], after1]
        rw [show (dats m 0 c).leavesExact 2 t = owns (c : Thread nD τ) (ms2 t) fullShare ((dats m 0 c).after 2 t) from by
          unfold Dat.leavesExact; rw [liveAt2 t], after2]
        rw [show (dats m 0 c).leavesExact 3 t = owns (c : Thread nD τ) (ms3 t) fullShare ((dats m 0 c).after 3 t) from by
          unfold Dat.leavesExact; rw [liveAt3 t], after3]
        rw [show (dats m 0 c).leavesExact 4 t = owns (c : Thread nD τ) (ms4 t) fullShare ((dats m 0 c).after 4 t) from by
          unfold Dat.leavesExact; rw [liveAt4 t], after4]
        rw [show (dats m 0 c).leavesExact 5 t = owns (c : Thread nD τ) (ms5 t) fullShare ((dats m 0 c).after 5 t) from by
          unfold Dat.leavesExact; rw [liveAt5 t], after5]
        rw [Dat.leavesExact_idle (dats m 0 c) 6 t (idleAt6 t (fun h => g4 ((hcond4 t).mp h))) (noFlush6 t (fun h => g4 ((hcond4 t).mp h)))]
        rw [outsAt_E m c t hz g1 g2 g3 g4]
        unfold sout_E; (try dsimp only)
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun_E c (grid0.coords t) _ _ _ _ _ _ _ _ _ _ _ _ _ _ _ _ (fun h => g1 ((hcond1 t).mp h)) ((hcond2 t).mpr g2) (fun h => g3 ((hcond3 t).mp h)) (fun h => g4 ((hcond4 t).mp h)) (iblk m c 0 t) (iblk m c 1 t) (iblk m c 2 t) (iblk m c 3 t) (iblk m c 4 t) (iblk m c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover_E c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · by_cases h3 : t.val / 8 < t.val % 8
      · by_cases h4 : t.val % 8 = 7
        ·
          have g1 : ¬t.val % 8 = 0 := by omega
          have g2 : ¬t.val / 8 = t.val % 8 := by omega
          have g3 : t.val / 8 < t.val % 8 := by omega
          have g4 : t.val % 8 = 7 := by omega
          rw [show (dats m 0 c).leavesExact 0 t = owns (c : Thread nD τ) (ms0 t) fullShare ((dats m 0 c).after 0 t) from by
            unfold Dat.leavesExact; rw [liveAt0 t], after0]
          rw [show (dats m 0 c).leavesExact 1 t = owns (c : Thread nD τ) (ms1 t) fullShare ((dats m 0 c).after 1 t) from by
            unfold Dat.leavesExact; rw [liveAt1 t], after1]
          rw [show (dats m 0 c).leavesExact 2 t = owns (c : Thread nD τ) (ms2 t) fullShare ((dats m 0 c).after 2 t) from by
            unfold Dat.leavesExact; rw [liveAt2 t], after2]
          rw [show (dats m 0 c).leavesExact 3 t = owns (c : Thread nD τ) (ms3 t) fullShare ((dats m 0 c).after 3 t) from by
            unfold Dat.leavesExact; rw [liveAt3 t], after3]
          rw [show (dats m 0 c).leavesExact 4 t = owns (c : Thread nD τ) (ms4 t) fullShare ((dats m 0 c).after 4 t) from by
            unfold Dat.leavesExact; rw [liveAt4 t], after4]
          rw [show (dats m 0 c).leavesExact 5 t = owns (c : Thread nD τ) (ms5 t) fullShare ((dats m 0 c).after 5 t) from by
            unfold Dat.leavesExact; rw [liveAt5 t], after5]
          rw [show (dats m 0 c).leavesExact 6 t = owns (c : Thread nD τ) (ms6 t) fullShare ((dats m 0 c).after 6 t) from by
            unfold Dat.leavesExact; rw [liveAt6 t ((hcond4 t).mpr g4)], after6]
          rw [outsAt_C m c t hz g1 g2 g3 g4]
          unfold out_C_6 sout_C; (try dsimp only)
          rw [PhiS_castSucc m c t, PhiS_pos m c _ _ hz]
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((kernelRun_C c (grid0.coords t) _ _ _ _ _ _ _ _ _ _ _ _ _ _ _ _ (fun h => g1 ((hcond1 t).mp h)) (fun h => g2 ((hcond2 t).mp h)) ((hcond3 t).mpr g3) ((hcond4 t).mpr g4) (iblk m c 0 t) (iblk m c 1 t) (iblk m c 2 t) (iblk m c 3 t) (iblk m c 4 t) (iblk m c 5 t) _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          iintro ⟨H0, H1, H2, H3, H4, H5, ⟨%e6, H6⟩, ⟨%es0, HS0⟩⟩
          isplitl [HS0 Hg]
          · isplitl [HS0]
            · unfold owns; iexists _; isplitr
              swap; · iexact HS0
              ipureintro; exact View.read_writes_of_cover _ _ _ _ _ (scover_C c _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover_C_6 c _ _ _ _ _ _ _ _ _ _ _ _ _ _ _ _ _ _ _ _ _ _ _ _ _ _ _ _)
        ·
          have g1 : ¬t.val % 8 = 0 := by omega
          have g2 : ¬t.val / 8 = t.val % 8 := by omega
          have g3 : t.val / 8 < t.val % 8 := by omega
          have g4 : ¬t.val % 8 = 7 := by omega
          rw [show (dats m 0 c).leavesExact 0 t = owns (c : Thread nD τ) (ms0 t) fullShare ((dats m 0 c).after 0 t) from by
            unfold Dat.leavesExact; rw [liveAt0 t], after0]
          rw [show (dats m 0 c).leavesExact 1 t = owns (c : Thread nD τ) (ms1 t) fullShare ((dats m 0 c).after 1 t) from by
            unfold Dat.leavesExact; rw [liveAt1 t], after1]
          rw [show (dats m 0 c).leavesExact 2 t = owns (c : Thread nD τ) (ms2 t) fullShare ((dats m 0 c).after 2 t) from by
            unfold Dat.leavesExact; rw [liveAt2 t], after2]
          rw [show (dats m 0 c).leavesExact 3 t = owns (c : Thread nD τ) (ms3 t) fullShare ((dats m 0 c).after 3 t) from by
            unfold Dat.leavesExact; rw [liveAt3 t], after3]
          rw [show (dats m 0 c).leavesExact 4 t = owns (c : Thread nD τ) (ms4 t) fullShare ((dats m 0 c).after 4 t) from by
            unfold Dat.leavesExact; rw [liveAt4 t], after4]
          rw [show (dats m 0 c).leavesExact 5 t = owns (c : Thread nD τ) (ms5 t) fullShare ((dats m 0 c).after 5 t) from by
            unfold Dat.leavesExact; rw [liveAt5 t], after5]
          rw [Dat.leavesExact_idle (dats m 0 c) 6 t (idleAt6 t (fun h => g4 ((hcond4 t).mp h))) (noFlush6 t (fun h => g4 ((hcond4 t).mp h)))]
          rw [outsAt_B m c t hz g1 g2 g3 g4]
          unfold sout_B; (try dsimp only)
          rw [PhiS_castSucc m c t, PhiS_pos m c _ _ hz]
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((kernelRun_B c (grid0.coords t) _ _ _ _ _ _ _ _ _ _ _ _ _ _ _ _ (fun h => g1 ((hcond1 t).mp h)) (fun h => g2 ((hcond2 t).mp h)) ((hcond3 t).mpr g3) (fun h => g4 ((hcond4 t).mp h)) (iblk m c 0 t) (iblk m c 1 t) (iblk m c 2 t) (iblk m c 3 t) (iblk m c 4 t) (iblk m c 5 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          iintro ⟨H0, H1, H2, H3, H4, H5, H6, ⟨%es0, HS0⟩⟩
          isplitl [HS0 Hg]
          · isplitl [HS0]
            · unfold owns; iexists _; isplitr
              swap; · iexact HS0
              ipureintro; exact View.read_writes_of_cover _ _ _ _ _ (scover_B c _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
      ·
        have g1 : ¬t.val % 8 = 0 := by omega
        have g2 : ¬t.val / 8 = t.val % 8 := by omega
        have g3 : ¬t.val / 8 < t.val % 8 := by omega
        have g4 : ¬t.val % 8 = 7 := by omega
        rw [show (dats m 0 c).leavesExact 0 t = owns (c : Thread nD τ) (ms0 t) fullShare ((dats m 0 c).after 0 t) from by
          unfold Dat.leavesExact; rw [liveAt0 t], after0]
        rw [show (dats m 0 c).leavesExact 1 t = owns (c : Thread nD τ) (ms1 t) fullShare ((dats m 0 c).after 1 t) from by
          unfold Dat.leavesExact; rw [liveAt1 t], after1]
        rw [show (dats m 0 c).leavesExact 2 t = owns (c : Thread nD τ) (ms2 t) fullShare ((dats m 0 c).after 2 t) from by
          unfold Dat.leavesExact; rw [liveAt2 t], after2]
        rw [show (dats m 0 c).leavesExact 3 t = owns (c : Thread nD τ) (ms3 t) fullShare ((dats m 0 c).after 3 t) from by
          unfold Dat.leavesExact; rw [liveAt3 t], after3]
        rw [show (dats m 0 c).leavesExact 4 t = owns (c : Thread nD τ) (ms4 t) fullShare ((dats m 0 c).after 4 t) from by
          unfold Dat.leavesExact; rw [liveAt4 t], after4]
        rw [show (dats m 0 c).leavesExact 5 t = owns (c : Thread nD τ) (ms5 t) fullShare ((dats m 0 c).after 5 t) from by
          unfold Dat.leavesExact; rw [liveAt5 t], after5]
        rw [Dat.leavesExact_idle (dats m 0 c) 6 t (idleAt6 t (fun h => g4 ((hcond4 t).mp h))) (noFlush6 t (fun h => g4 ((hcond4 t).mp h)))]
        rw [outsAt_H m c t hz g1 g2 g3 g4]
        (try dsimp only)
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun_H c (grid0.coords t) _ _ _ _ _ _ _ _ _ _ _ _ _ _ _ _ (fun h => g1 ((hcond1 t).mp h)) (fun h => g2 ((hcond2 t).mp h)) (fun h => g3 ((hcond3 t).mp h)) (fun h => g4 ((hcond4 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, H6⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Fr

end
-- ==== Proof.KIPieces.lean ====
/-
  What each control case of the body leaves, as values: the row accumulator after a reset is the zero column; after a
  diagonal tile it is the previous accumulator plus the row sums of the tile's masked terms; after an upper tile the
  previous accumulator plus the row sums of the tile's terms; and at the last tile of a row of tiles the output's
  buffer holds the sum of the accumulator's entries. Each is the payload of the case's last covering store, its loads
  reading the whole buffers.
-/
import proofs.«129345_j9990093931268_2_alg».proof.Proof.KIFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

theorem sout_D_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : ¬cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) :
    sout_D c i arg2 harg2 arg3 harg3 arg4 harg4 arg5 harg5 arg6 harg6 arg7 harg7 arg8 harg8 arg9 harg9 hc1 hc2 hc3 hc4 x0 x1 x2 x3 x4 x5 = k0_pay1 (F := F) := by
  unfold sout_D
  rw [View.read_writes_eq_canon _ _ _ (scover_D c i arg2 harg2 arg3 harg3 arg4 harg4 arg5 harg5 arg6 harg6 arg7 harg7 arg8 harg8 arg9 harg9 hc1 hc2 hc3 hc4 x0 x1 x2 x3 x4 x5)]
  unfold kernelRun_D
  dsimp only
  sl_unfold_words
  rw [View.canon_unit_zero (S := S1024x1) hz]
  try simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.ld_unit_zero (S := S1x1x1) hz3]

theorem sout_B_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    sout_B c i arg2 harg2 arg3 harg3 arg4 harg4 arg5 harg5 arg6 harg6 arg7 harg7 arg8 harg8 arg9 harg9 hc1 hc2 hc3 hc4 x0 x1 x2 x3 x4 x5 xs0 = k0_pay3 xs0 (k0_pay8 x0 x1 x2 x3 x4 x5) := by
  unfold sout_B
  rw [View.read_writes_eq_canon _ _ _ (scover_B c i arg2 harg2 arg3 harg3 arg4 harg4 arg5 harg5 arg6 harg6 arg7 harg7 arg8 harg8 arg9 harg9 hc1 hc2 hc3 hc4 x0 x1 x2 x3 x4 x5 xs0)]
  unfold kernelRun_B
  dsimp only
  sl_unfold_words
  rw [View.canon_unit_zero (S := S1024x1) hz]
  try simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.ld_unit_zero (S := S1x1x1) hz3]

theorem sout_C_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    sout_C c i arg2 harg2 arg3 harg3 arg4 harg4 arg5 harg5 arg6 harg6 arg7 harg7 arg8 harg8 arg9 harg9 hc1 hc2 hc3 hc4 x0 x1 x2 x3 x4 x5 xs0 = k0_pay3 xs0 (k0_pay8 x0 x1 x2 x3 x4 x5) := by
  unfold sout_C
  rw [View.read_writes_eq_canon _ _ _ (scover_C c i arg2 harg2 arg3 harg3 arg4 harg4 arg5 harg5 arg6 harg6 arg7 harg7 arg8 harg8 arg9 harg9 hc1 hc2 hc3 hc4 x0 x1 x2 x3 x4 x5 xs0)]
  unfold kernelRun_C
  dsimp only
  sl_unfold_words
  rw [View.canon_unit_zero (S := S1024x1) hz]
  try simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.ld_unit_zero (S := S1x1x1) hz3]

theorem sout_E_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    sout_E c i arg2 harg2 arg3 harg3 arg4 harg4 arg5 harg5 arg6 harg6 arg7 harg7 arg8 harg8 arg9 harg9 hc1 hc2 hc3 hc4 x0 x1 x2 x3 x4 x5 xs0 = k0_pay2 (k0_pay6 x0 x1 x2 x3 x4 x5) (k0_pay7 (F := F)) xs0 := by
  unfold sout_E
  rw [View.read_writes_eq_canon _ _ _ (scover_E c i arg2 harg2 arg3 harg3 arg4 harg4 arg5 harg5 arg6 harg6 arg7 harg7 arg8 harg8 arg9 harg9 hc1 hc2 hc3 hc4 x0 x1 x2 x3 x4 x5 xs0)]
  unfold kernelRun_E
  dsimp only
  sl_unfold_words
  rw [View.canon_unit_zero (S := S1024x1) hz]
  try simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.ld_unit_zero (S := S1x1x1) hz3]

theorem sout_G_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    sout_G c i arg2 harg2 arg3 harg3 arg4 harg4 arg5 harg5 arg6 harg6 arg7 harg7 arg8 harg8 arg9 harg9 hc1 hc2 hc3 hc4 x0 x1 x2 x3 x4 x5 xs0 = k0_pay2 (k0_pay6 x0 x1 x2 x3 x4 x5) (k0_pay7 (F := F)) xs0 := by
  unfold sout_G
  rw [View.read_writes_eq_canon _ _ _ (scover_G c i arg2 harg2 arg3 harg3 arg4 harg4 arg5 harg5 arg6 harg6 arg7 harg7 arg8 harg8 arg9 harg9 hc1 hc2 hc3 hc4 x0 x1 x2 x3 x4 x5 xs0)]
  unfold kernelRun_G
  dsimp only
  sl_unfold_words
  rw [View.canon_unit_zero (S := S1024x1) hz]
  try simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.ld_unit_zero (S := S1x1x1) hz3]

theorem sout_A_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : cond1 i) (hc2 : cond2 i) (hc3 : ¬cond3 i) (hc4 : ¬cond4 i)
    (x0 : Vec F S1024x128 .f32) (x1 : Vec F S1024x128 .f32) (x2 : Vec F S1024x1 .f32) (x3 : Vec F S1x1024 .f32) (x4 : Vec F S1024x1 .i32) (x5 : Vec F S1x1024 .i32) :
    sout_A c i arg2 harg2 arg3 harg3 arg4 harg4 arg5 harg5 arg6 harg6 arg7 harg7 arg8 harg8 arg9 harg9 hc1 hc2 hc3 hc4 x0 x1 x2 x3 x4 x5 = k0_pay2 (k0_pay6 x0 x1 x2 x3 x4 x5) (k0_pay7 (F := F)) (k0_pay1 (F := F)) := by
  unfold sout_A
  rw [View.read_writes_eq_canon _ _ _ (scover_A c i arg2 harg2 arg3 harg3 arg4 harg4 arg5 harg5 arg6 harg6 arg7 harg7 arg8 harg8 arg9 harg9 hc1 hc2 hc3 hc4 x0 x1 x2 x3 x4 x5)]
  unfold kernelRun_A
  dsimp only
  sl_unfold_words
  rw [View.canon_cons_unit_zero (S := S1024x1) hz]
  simp only [View.readCov_unit_zero (S := S1024x1) _ hz]
  try simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.ld_unit_zero (S := S1x1x1) hz3]

theorem out_C_6_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : ¬cond2 i) (hc3 : cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    out_C_6 c i arg2 harg2 arg3 harg3 arg4 harg4 arg5 harg5 arg6 harg6 arg7 harg7 arg8 harg8 arg9 harg9 hc1 hc2 hc3 hc4 x0 x1 x2 x3 x4 x5 xs0 = k0_pay4 (k0_pay3 xs0 (k0_pay8 x0 x1 x2 x3 x4 x5)) := by
  unfold out_C_6
  rw [View.read_writes_eq_canon _ _ _ (cover_C_6 c i arg2 harg2 arg3 harg3 arg4 harg4 arg5 harg5 arg6 harg6 arg7 harg7 arg8 harg8 arg9 harg9 hc1 hc2 hc3 hc4 x0 x1 x2 x3 x4 x5 xs0)]
  unfold kernelRun_C
  dsimp only
  sl_unfold_words
  rw [View.canon_unit_zero (S := S1x1x1) hz3]
  simp only [View.readCov_unit_zero (S := S1024x1) _ hz]
  try simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.ld_unit_zero (S := S1x1x1) hz3]

theorem out_G_6_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1x1 .f32) (harg8 : arg8.IsWhole) (arg9 : Memref sig .tc .vmem S1024x1 .f32) (harg9 : arg9.IsWhole) (hc1 : ¬cond1 i) (hc2 : cond2 i) (hc3 : ¬cond3 i) (hc4 : cond4 i)
    (x0 : Vec F S1024x128 .f32) (x1 : Vec F S1024x128 .f32) (x2 : Vec F S1024x1 .f32) (x3 : Vec F S1x1024 .f32) (x4 : Vec F S1024x1 .i32) (x5 : Vec F S1x1024 .i32) (xs0 : Vec F S1024x1 .f32) :
    out_G_6 c i arg2 harg2 arg3 harg3 arg4 harg4 arg5 harg5 arg6 harg6 arg7 harg7 arg8 harg8 arg9 harg9 hc1 hc2 hc3 hc4 x0 x1 x2 x3 x4 x5 xs0 = k0_pay4 (k0_pay2 (k0_pay6 x0 x1 x2 x3 x4 x5) (k0_pay7 (F := F)) xs0) := by
  unfold out_G_6
  rw [View.read_writes_eq_canon _ _ _ (cover_G_6 c i arg2 harg2 arg3 harg3 arg4 harg4 arg5 harg5 arg6 harg6 arg7 harg7 arg8 harg8 arg9 harg9 hc1 hc2 hc3 hc4 x0 x1 x2 x3 x4 x5 xs0)]
  unfold kernelRun_G
  dsimp only
  sl_unfold_words
  rw [View.canon_unit_zero (S := S1x1x1) hz3]
  simp only [View.readCov_unit_zero (S := S1024x1) _ hz]
  try simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.ld_unit_zero (S := S1x1x1) hz3]

end Cert.KernelIdeal.Fr

end
-- ==== Proof.KILaunch.lean ====
/-
  The launch: @main is seven host operations, the kernel region, five host operations. The embeddings' array is read
  through two windows of the region (the row tile and the column tile), so the region holds it in two half shares, one per
  window; every other array is held whole. After the region the host sums the eight per-row-tile totals, divides by the
  number of pairs and reshapes: the run ends with the one result at that value and both arguments as they were.
-/
import proofs.«129345_j9990093931268_2_alg».proof.Proof.KIFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host operations, at the contents after the earlier ones. -/
theorem hmainK : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] hostOps0_sub hostOps0_fresh main_chain

/-- No host operation before the region writes an argument. -/
theorem V_arg0 (c : Dev nD) : V m c main_arg0 = m ((c : Thread nD τ).loc main_arg0) :=
  StableHlo.after_of_writes_sub (W := [main_v0, main_cst, main_v1, main_v2, main_v3, main_v4, main_v5]) hostOps0 _
    (by simp only [List.Forall, StableHlo.binary_writes, StableHlo.nullary_writes, StableHlo.reshape_writes]; decide) (by decide)
theorem V_arg1 (c : Dev nD) : V m c main_arg1 = m ((c : Thread nD τ).loc main_arg1) :=
  StableHlo.after_of_writes_sub (W := [main_v0, main_cst, main_v1, main_v2, main_v3, main_v4, main_v5]) hostOps0 _
    (by simp only [List.Forall, StableHlo.binary_writes, StableHlo.nullary_writes, StableHlo.reshape_writes]; decide) (by decide)

/-! ## The arrays at the region's entry: the embeddings' array split between its two windows -/

theorem arrImage_eq : (Finset.univ.image (Pipeline.arrRef spec0)) = ([main_arg0, main_v2, main_v3, main_v4, main_v5, main_v6] : List (Ref sig .tc)).toFinset := by decide

theorem arr_pt (c : Dev nD) (w : Fin cfg0.W) (n : ℕ) :
    ((cfg0.win w).arr.view.loc (c.tc : Thread nD τ) ↦[(cfg0.win w).arr.view.set]{(dats m 0 c).share w} (dats m 0 c).arrAt w n : sProp 𝕄)
      = (((c : Thread nD τ).loc (Pipeline.arrRef spec0 w)) ↦{(dats m 0 c).share w} (dats m 0 c).arrAt w n) := by
  rw [(arr_whole0 w).set_eq_univ]

theorem arrBufs_eq (c : Dev nD) :
    (Pipeline.arrBufs spec0 c (V m c) : sProp 𝕄)
      = iprop((((c : Thread nD τ).loc main_arg0) ↦{fullShare} V m c main_arg0) ∗ (((c : Thread nD τ).loc main_v2) ↦{fullShare} V m c main_v2)
        ∗ (((c : Thread nD τ).loc main_v3) ↦{fullShare} V m c main_v3) ∗ (((c : Thread nD τ).loc main_v4) ↦{fullShare} V m c main_v4)
        ∗ (((c : Thread nD τ).loc main_v5) ↦{fullShare} V m c main_v5) ∗ (((c : Thread nD τ).loc main_v6) ↦{fullShare} V m c main_v6)) := by
  unfold Pipeline.arrBufs
  rw [bigSep_eq_bigSepL_of_eq _ arrImage_eq (by decide)]
  rfl

theorem arrAt_zero (c : Dev nD) (w : Fin cfg0.W) : (dats m 0 c).arrAt w 0 = V m c (Pipeline.arrRef spec0 w) := by
  show (dats m 0 c).A w = _
  exact A_eq m c w

theorem share0 (c : Dev nD) : (dats m 0 c).share 0 = fullShare.left := by unfold Dat.share; dsimp only [dats]; rfl
theorem share1 (c : Dev nD) : (dats m 0 c).share 1 = fullShare.right := by unfold Dat.share; dsimp only [dats]; rfl
theorem share2 (c : Dev nD) : (dats m 0 c).share 2 = fullShare := by unfold Dat.share; dsimp only [dats]; rfl
theorem share3 (c : Dev nD) : (dats m 0 c).share 3 = fullShare := by unfold Dat.share; dsimp only [dats]; rfl
theorem share4 (c : Dev nD) : (dats m 0 c).share 4 = fullShare := by unfold Dat.share; dsimp only [dats]; rfl
theorem share5 (c : Dev nD) : (dats m 0 c).share 5 = fullShare := by unfold Dat.share; dsimp only [dats]; rfl
theorem share6 (c : Dev nD) : (dats m 0 c).share 6 = fullShare := by unfold Dat.share; dsimp only [dats]; rfl

theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  simp only [Memref.view_whole, View.set_whole, arrAt_zero, share0, share1, share2, share3, share4, share5, share6]
  iintro ⟨H0, H2, H3, H4, H5, H6⟩
  ihave H01 := (pointsTo_share (PosShare.mem_left_op_right fullShare)).1 $$ H0
  icases H01 with ⟨H0l, H0r⟩
  isplitl [H0l]; · iexact H0l
  isplitl [H0r]; · iexact H0r
  isplitl [H2]; · iexact H2
  isplitl [H3]; · iexact H3
  isplitl [H4]; · iexact H4
  isplitl [H5]; · iexact H5
  iexact H6

/-! ## The host operations after the region -/

/-- The buffers the later host operations touch. -/
abbrev tailL : List (Ref sig .tc) := [main_cst_0, main_v6, main_v7, main_cst_1, main_v8, main_v9]
abbrev tailS : Finset (DevRef τ sig) := (tailL.map (Proc.devRef (τ := τ) .tc)).toFinset

theorem tailL_nodup : (tailL.map (Proc.devRef (τ := τ) .tc)).Nodup :=
  List.Nodup.map (Proc.devRef_injective _) (by decide)

theorem tail_sub : ∀ op ∈ (hostOps1 : List (HloOp τ sig (Elt F))), op.bufs ⊆ tailS := by
  intro op hop
  simp only [hostOps1, List.mem_cons, List.mem_nil_iff, or_false] at hop
  rcases hop with rfl | rfl | rfl | rfl | rfl
  all_goals
    intro b hb
    simp only [StableHlo.nullary_bufs, StableHlo.binary_bufs, StableHlo.reshape_bufs, Finset.mem_insert, Finset.mem_singleton] at hb
    simp only [tailS, tailL, List.map_cons, List.map_nil, List.toFinset_cons, List.toFinset_nil, Finset.mem_insert, Finset.mem_singleton, insert_empty_eq]
    rcases hb with rfl | rfl | rfl <;> simp

/-- The buffers as the later host operations find them: the kernel's output array at what the region left in it. -/
def V1 (c : Dev nD) : Valuation τ sig (Elt F) :=
  Function.update (V0 m c) (Proc.devRef .tc main_v6) ((dats m 0 c).arrAt 6 cfg0.N)

/-- What the program's one result ends at. -/
def result (c : Dev nD) : Buf (Elt F) ((c : Thread nD τ).loc main_v9) := StableHlo.after hostOps1 (V1 m c) (Proc.devRef .tc main_v9)

theorem V1_v6 (c : Dev nD) : V1 m c (Proc.devRef .tc main_v6) = (dats m 0 c).arrAt 6 cfg0.N := by
  unfold V1; exact Function.update_self ..
theorem V1_ne (c : Dev nD) (b : Ref sig .tc) (h : b ≠ main_v6) : V1 m c (Proc.devRef .tc b) = V m c b := by
  unfold V1; exact Function.update_of_ne (StableHlo.devRef_ne_of_ne h) ..

theorem after_v6 (c : Dev nD) : StableHlo.after hostOps1 (V1 m c) (Proc.devRef .tc main_v6) = (dats m 0 c).arrAt 6 cfg0.N :=
  (StableHlo.after_of_writes_sub (W := [main_cst_0, main_v7, main_cst_1, main_v8, main_v9]) hostOps1 _
    (by simp only [List.Forall, StableHlo.binary_writes, StableHlo.nullary_writes, StableHlo.reshape_writes]; decide) (by decide)).trans (V1_v6 m c)

theorem held_tail (c : Dev nD) (W : Valuation τ sig (Elt F)) :
    (StableHlo.held (c.tc : Thread nD τ) tailS W : sProp 𝕄)
      = iprop((((c : Thread nD τ).loc main_cst_0) ↦{fullShare} W (Proc.devRef .tc main_cst_0)) ∗ (((c : Thread nD τ).loc main_v6) ↦{fullShare} W (Proc.devRef .tc main_v6))
        ∗ (((c : Thread nD τ).loc main_v7) ↦{fullShare} W (Proc.devRef .tc main_v7)) ∗ (((c : Thread nD τ).loc main_cst_1) ↦{fullShare} W (Proc.devRef .tc main_cst_1))
        ∗ (((c : Thread nD τ).loc main_v8) ↦{fullShare} W (Proc.devRef .tc main_v8)) ∗ (((c : Thread nD τ).loc main_v9) ↦{fullShare} W (Proc.devRef .tc main_v9))) := by
  unfold StableHlo.held
  rw [bigSep_eq_bigSepL_of_eq _ rfl tailL_nodup]
  rfl

/-- What bypasses the region, and what the end reads: the labels' array and the result. -/
abbrev Zc (c : Dev nD) : sProp 𝕄 := Pipeline.unscopedRestP (Ix := Unit) (Name := ℕ) (U := UR sig nD τ) (Lvl := ℕ) Pipeline.Prefetch.none spec0 c (V m c)
abbrev Zc' (c : Dev nD) : sProp 𝕄 :=
  iprop((((c : Thread nD τ).loc main_arg1) ↦{fullShare} V m c main_arg1) ∗ (((c : Thread nD τ).loc main_v9) ↦{fullShare} result m c))

set_option backward.isDefEq.respectTransparency.types false in
theorem htail (c : Dev nD) (Q' : PUnit → sProp 𝕄) :
    iprop((iprop((dats m 0 c).arrays ((dats m 0 c).arrAt · cfg0.N) ∗ Zc' m c) -∗ Q' ⟨⟩)
        ∗ boundary (c.tc : Thread nD τ) ∗ (dats m 0 c).arrays ((dats m 0 c).arrAt · cfg0.N) ∗ Zc m c)
      ⊢ wp frame (wpE (defs (F := F)) (Variants.lift Variants.none) (c.tc : Thread nD τ) none) Set.univ (Pipeline.chain [StableHlo.seq hostOps1]) Q' := by
  unfold Zc Zc'
  rw [Pipeline.unscopedRestP_none, unscopedRest0_eq]
  unfold Dat.arrays
  rw [bigSep_W0]
  simp only [Memref.view_whole, View.set_whole, share0, share1, share2, share3, share4, share5, share6]
  rw [Pipeline.chain_cons, Pipeline.chain_nil]
  iintro ⟨Hk, Hbd, ⟨A0, A1, A2, A3, A4, A5, A6⟩, ⟨R1, -, -, -, Rc0, Rv7, Rc1, Rv8, Rv9⟩⟩
  have hseq := StableHlo.wp_seq (defs := defs (F := F)) (Variants.lift Variants.none) none Set.univ c tailS (fun _ => Prog.ret ⟨⟩) (K := Q') hostOps1 tail_sub
    (fun op h => (List.forall_iff_forall_mem.mp hostOps1_fresh) op h) (V1 m c)
  iapply hseq $$ [Hbd Rc0 A6 Rv7 Rc1 Rv8 Rv9]
  · rw [held_tail, V1_v6, V1_ne m c main_cst_0 (by decide), V1_ne m c main_v7 (by decide), V1_ne m c main_cst_1 (by decide), V1_ne m c main_v8 (by decide), V1_ne m c main_v9 (by decide)]
    isplitl [Hbd]; · iexact Hbd
    isplitl [Rc0]; · iexact Rc0
    isplitl [A6]; · iexact A6
    isplitl [Rv7]; · iexact Rv7
    isplitl [Rc1]; · iexact Rc1
    isplitl [Rv8]; · iexact Rv8
    iexact Rv9
  rw [held_tail, after_v6]
  iintro ⟨Hbd, -, A6, -, -, -, Rv9⟩
  rw [wp_ret]; imodintro
  iapply Hk
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [R1]; · iexact R1
  iexact Rv9

/-! ## The run -/

/-- What every final state satisfies: the result at its value, both arguments as launched. -/
def QC : PUnit × MemSt nD τ sig (Elt F) → Prop := fun r =>
  ∀ c : Dev nD, r.2.mem ((c : Thread nD τ).loc main_v9) = result m c
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
set_option maxHeartbeats 1600000 in
/-- At the compiled mesh, from any memory with zero counters: every weakly fair execution of @main terminates, nothing
    faulting, with the result buffer at `result` and the two arguments unchanged. -/
theorem run_main : θ_run defs (onTc (τ := τ) (main (F := F))) ⟨m, fun _ => 0, ρ⟩ (QC m) := by
  classical
  exact Pipeline.θ_run_region_pf_tail (pcfgs (F := F)) (fun p => (cfgs p).toPCfg_adm) (dats m) () cellOf_inj 0 winFacts₀0
    (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmainK m) (hsplit := hsplit m) (hpf := fun _ k => k.elim0)
    (X := fun c => iprop(∃ r, prngReg c r)) (Y := fun c => iprop(∃ r, prngReg c r)) (Z := Zc m) (Z' := Zc' m)
    (hX := fun c => by
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin m c))
    (hout := fun c => (hout m c).trans (by
        rw [Pipeline.ownSems0_none]; unfold Pipeline.ΦA
        iintro ⟨Hr, Hp⟩
        isplitl [Hp]; · iexact Hp
        isplitr; · iempintro
        iexact Hr))
    (htail := htail m)
    (QY := fun c s => s.mem ((c : Thread nD τ).loc main_arg1) = m ((c : Thread nD τ).loc main_arg1) ∧ s.mem ((c : Thread nD τ).loc main_v9) = result m c)
    (hY := fun c s' => by
      unfold Zc'; rw [V_arg1]
      iintro ⟨-, ⟨H1, H9⟩, HSI⟩
      icombine HSI H1 gives %h1
      icombine HSI H9 gives %h9
      imodintro
      isplitr; · ipureintro; exact ⟨Buf.eq_of_forall_mem_univ h1, Buf.eq_of_forall_mem_univ h9⟩
      iexact HSI)
    (hQ := fun s h c => ⟨(h c).2.2.2, ((h c).1 0).trans (((dats m 0 c).arrAt_in 0 rfl _).trans ((A_eq m c 0).trans (V_arg0 m c))), (h c).2.2.1⟩)

/-- THE FRAME: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Fr

end
-- ==== Proof.Spec.lean ====
/-
  The mathematics both programs compute, as one extended-real function of the embeddings and the labels.

  For N = 8192 points with D = 128 coordinates each, the squared distance of a pair is recovered from one product,
  d²(a,b) = max(‖a‖² + ‖b‖² − 2·⟨a,b⟩, 0); a pair with equal labels contributes its squared distance, a pair with
  different labels the squared hinge max(1 − √d², 0)²; the loss is the sum of the contributions of the pairs a < b,
  divided by the number of such pairs N(N−1)/2 (the literal `den`, kept as its binary word).
-/
import Idealize.ShloMosaic.PureOps.Ideal

noncomputable section

namespace Cert.Spec

open Idealize.ShloMosaic

/-- The literal 1.0, 2.0 and N(N−1)/2 = 33550336.0 as the programs spell them. -/
abbrev one : EReal := Ideal.ofBits .f32 0x3F800000#32
abbrev two : EReal := Ideal.ofBits .f32 0x40000000#32
abbrev den : EReal := Ideal.ofBits .f32 0x4BFFF800#32

/-- Row `g` of block `t`: the global index 1024·t + g. -/
def cat (t : Fin 8) (g : Fin 1024) : Fin 8192 := ⟨1024 * t.val + g.val, by omega⟩

variable (X : Fin 8192 → Fin 128 → EReal) (Lb : Fin 8192 → BitVec 32)

/-- The squared norm of point `a`. -/
def sq (a : Fin 8192) : EReal := ∑ k : Fin 128, X a k * X a k
/-- The inner product of points `a` and `b`. -/
def dot (a b : Fin 8192) : EReal := ∑ k : Fin 128, X a k * X b k
/-- The squared distance of a pair, clipped at zero. -/
def d2 (a b : Fin 8192) : EReal := max (sq X a + sq X b - two * dot X a b) 0
/-- A pair's contribution: its squared distance when the labels agree, the squared hinge otherwise. -/
def tmU (a b : Fin 8192) : EReal :=
  if Lb a = Lb b then one * d2 X a b else max (one - Ideal.sqrt (d2 X a b)) 0 * max (one - Ideal.sqrt (d2 X a b)) 0
/-- The contribution counted once per unordered pair: only a < b. -/
def F (a b : Fin 8192) : EReal := if a < b then tmU X Lb a b else 0
/-- The loss: the mean contribution over the pairs a < b. -/
def loss : EReal := Ideal.div (∑ a : Fin 8192, ∑ b : Fin 8192, F X Lb a b) den

/-- The same total, tile by tile: row tile `i` gathers, row by row, the tiles `j ≥ i` of its row of tiles. -/
def tiled : EReal :=
  ∑ i : Fin 8, ∑ r : Fin 1024, ∑ j : Fin 8, if i ≤ j then ∑ l : Fin 1024, F X Lb (cat i r) (cat j l) else 0

end Cert.Spec

end
-- ==== Proof.KIBlocks.lean ====
/-
  Where the windows' blocks sit in their arrays. At grid point t = 8·i + j the row windows (the embeddings' row tile,
  the squared norms' column, the labels' column) read rows 1024·i … 1024·i + 1023 of their arrays, the column windows
  (the embeddings' column tile, the squared norms' row, the labels' row) read places 1024·j … 1024·j + 1023, and the
  output window is element i of the eight per-row-tile totals.
-/
import proofs.«129345_j9990093931268_2_alg».proof.Proof.KISetup
import proofs.«129345_j9990093931268_2_alg».proof.Proof.Spec
import Idealize.ShloMosaic.Lib.ValueIdx
import Idealize.ShloMosaic.Lib.Pipeline.Value

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)
open Cert.Spec

variable {F : FTy → Type} [FloatOps F]
variable (m : (ℓ : Loc nD τ sig) → Buf (Elt F) ℓ)

/-- The printed index maps, decided over the grid. -/
theorem idxf : ∀ t : Fin cfg0.N,
    win0_0.index t (0 : Fin 2) = t.val / 8 ∧ win0_0.index t (1 : Fin 2) = 0
  ∧ win0_1.index t (0 : Fin 2) = t.val % 8 ∧ win0_1.index t (1 : Fin 2) = 0
  ∧ win0_2.index t (0 : Fin 2) = t.val / 8 ∧ win0_2.index t (1 : Fin 2) = 0
  ∧ win0_3.index t (0 : Fin 2) = 0 ∧ win0_3.index t (1 : Fin 2) = t.val % 8
  ∧ win0_4.index t (0 : Fin 2) = t.val / 8 ∧ win0_4.index t (1 : Fin 2) = 0
  ∧ win0_5.index t (0 : Fin 2) = 0 ∧ win0_5.index t (1 : Fin 2) = t.val % 8
  ∧ win0_6.index t (0 : Fin 3) = t.val / 8 ∧ win0_6.index t (1 : Fin 3) = 0 ∧ win0_6.index t (2 : Fin 3) = 0 :=
  (by decide +kernel : ∀ t : Fin grid0.N, _)

/-- The row tile and the column tile of point t. -/
def ti (t : Fin cfg0.N) : Fin 8 := ⟨t.val / 8, by have h := t.isLt; have e : cfg0.N = 64 := N_0; omega⟩
def tj (t : Fin cfg0.N) : Fin 8 := ⟨t.val % 8, by omega⟩

theorem iblk0_apply (c : Dev nD) (t : Fin cfg0.N) (r : Fin 1024) (k : Fin 128) :
    iblk m c 0 t (ix2 r k) = V m c main_arg0 (ix2 (cat (ti t) r) k) := by
  unfold iblk
  show V m c main_arg0 (((cfg0.win 0).blk t).view.emb (ix2 r k)) = V m c main_arg0 _
  refine congrArg _ (funext fun a => Fin.ext ?_)
  obtain ⟨e0, e1, -⟩ := idxf t
  match a with
  | ⟨0, _⟩ => show win0_0.index t (0 : Fin 2) * 1024 + 1 * r.val = 1024 * (t.val / 8) + r.val; omega
  | ⟨1, _⟩ => show win0_0.index t (1 : Fin 2) * 128 + 1 * k.val = k.val; omega

theorem iblk1_apply (c : Dev nD) (t : Fin cfg0.N) (l : Fin 1024) (k : Fin 128) :
    iblk m c 1 t (ix2 l k) = V m c main_arg0 (ix2 (cat (tj t) l) k) := by
  unfold iblk
  show V m c main_arg0 (((cfg0.win 1).blk t).view.emb (ix2 l k)) = V m c main_arg0 _
  refine congrArg _ (funext fun a => Fin.ext ?_)
  obtain ⟨-, -, e0, e1, -⟩ := idxf t
  match a with
  | ⟨0, _⟩ => show win0_1.index t (0 : Fin 2) * 1024 + 1 * l.val = 1024 * (t.val % 8) + l.val; omega
  | ⟨1, _⟩ => show win0_1.index t (1 : Fin 2) * 128 + 1 * k.val = k.val; omega

theorem iblk2_apply (c : Dev nD) (t : Fin cfg0.N) (r : Fin 1024) :
    iblk m c 2 t (ix2 r (0 : Fin 1)) = V m c main_v2 (ix2 (cat (ti t) r) (0 : Fin 1)) := by
  unfold iblk
  show V m c main_v2 (((cfg0.win 2).blk t).view.emb (ix2 r (0 : Fin 1))) = V m c main_v2 _
  refine congrArg _ (funext fun a => Fin.ext ?_)
  obtain ⟨-, -, -, -, e0, e1, -⟩ := idxf t
  match a with
  | ⟨0, _⟩ => show win0_2.index t (0 : Fin 2) * 1024 + 1 * r.val = 1024 * (t.val / 8) + r.val; omega
  | ⟨1, _⟩ => show win0_2.index t (1 : Fin 2) * 1 + 1 * 0 = 0; omega

theorem iblk3_apply (c : Dev nD) (t : Fin cfg0.N) (l : Fin 1024) :
    iblk m c 3 t (ix2 (0 : Fin 1) l) = V m c main_v3 (ix2 (0 : Fin 1) (cat (tj t) l)) := by
  unfold iblk
  show V m c main_v3 (((cfg0.win 3).blk t).view.emb (ix2 (0 : Fin 1) l)) = V m c main_v3 _
  refine congrArg _ (funext fun a => Fin.ext ?_)
  obtain ⟨-, -, -, -, -, -, e0, e1, -⟩ := idxf t
  match a with
  | ⟨0, _⟩ => show win0_3.index t (0 : Fin 2) * 1 + 1 * 0 = 0; omega
  | ⟨1, _⟩ => show win0_3.index t (1 : Fin 2) * 1024 + 1 * l.val = 1024 * (t.val % 8) + l.val; omega

theorem iblk4_apply (c : Dev nD) (t : Fin cfg0.N) (r : Fin 1024) :
    iblk m c 4 t (ix2 r (0 : Fin 1)) = V m c main_v4 (ix2 (cat (ti t) r) (0 : Fin 1)) := by
  unfold iblk
  show V m c main_v4 (((cfg0.win 4).blk t).view.emb (ix2 r (0 : Fin 1))) = V m c main_v4 _
  refine congrArg _ (funext fun a => Fin.ext ?_)
  obtain ⟨-, -, -, -, -, -, -, -, e0, e1, -⟩ := idxf t
  match a with
  | ⟨0, _⟩ => show win0_4.index t (0 : Fin 2) * 1024 + 1 * r.val = 1024 * (t.val / 8) + r.val; omega
  | ⟨1, _⟩ => show win0_4.index t (1 : Fin 2) * 1 + 1 * 0 = 0; omega

theorem iblk5_apply (c : Dev nD) (t : Fin cfg0.N) (l : Fin 1024) :
    iblk m c 5 t (ix2 (0 : Fin 1) l) = V m c main_v5 (ix2 (0 : Fin 1) (cat (tj t) l)) := by
  unfold iblk
  show V m c main_v5 (((cfg0.win 5).blk t).view.emb (ix2 (0 : Fin 1) l)) = V m c main_v5 _
  refine congrArg _ (funext fun a => Fin.ext ?_)
  obtain ⟨-, -, -, -, -, -, -, -, -, -, e0, e1, -⟩ := idxf t
  match a with
  | ⟨0, _⟩ => show win0_5.index t (0 : Fin 2) * 1 + 1 * 0 = 0; omega
  | ⟨1, _⟩ => show win0_5.index t (1 : Fin 2) * 1024 + 1 * l.val = 1024 * (t.val % 8) + l.val; omega

end Cert.KernelIdeal.Blk

end
-- ==== Proof.KIPay.lean ====
/-
  The kernel's arithmetic read at an index, over the extended reals.

  One grid step holds a row tile (1024 points, coordinates x0, squared norms x2, labels x4, each as a column) and a column
  tile (coordinates x1, squared norms x3, labels x5, each as a row).  For row r and column l of the tile pair,
  dd r l = max(‖r‖² + ‖l‖² − 2⟨r, l⟩, 0) is the clipped squared distance — the inner product is the matrix product's
  contraction over the 128 coordinates, accumulated from zero — and tt r l the pair's contribution: the squared distance when the
  labels agree, the squared hinge max(1 − √dd, 0)² otherwise.  An off-diagonal tile adds each row's sum of tt to the
  running column of row totals; the diagonal tile first multiplies by the strict-upper-triangle mask, whose 1 and 0 act as
  x·1 = x and x·0 = 0 on every extended real, and where the mask is 1 the guarded root argument is dd itself.  The last
  step adds the 1024 row totals up.  Sums started at the zero word are the plain sums (0 + s = s).
-/
import proofs.«129345_j9990093931268_2_alg».proof.Proof.Gen.KernelIdeal.Skeleton
import proofs.«129345_j9990093931268_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KIPay

open Cert.KernelIdeal Cert.KernelIdeal.Gen Idealize.ShloMosaic Idealize.ShloMosaic.ValueIdx

/-! ## Layout operations at an index -/

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the rows of a 1024 × 1024 matrix, started at the zero word, at row `r`. -/
theorem laneSum_apply (src : FVec Ideal S1024x1024 .f32) (hφ : FKind.Formats .f32)
    (hacc : (0x00000000#32 : BitVec 32) = 0x00000000#32) (r : Fin 1024) :
    multiReduction (F := Ideal) .add [1] S1024 src 0x00000000#32 reduces_S1024x1024_S1024 hφ hacc (ix1 r)
      = ∑ l : Fin 1024, src (ix2 r l) := by
  refine (Ideal.multiReduction_add_single src 0x00000000#32 reduces_S1024x1024_S1024 hφ hacc (ix1 r)).trans ?_
  refine Finset.sum_congr rfl fun l _ => congrArg src ?_
  funext c
  apply Fin.ext
  match c with
  | ⟨0, _⟩ => rfl
  | ⟨1, _⟩ => rfl

/-- The one-element shape has one index. -/
theorem idx_S1_eq (x y : S1.Idx) : x = y := funext fun a => Fin.ext (by
  match a with
  | ⟨0, _⟩ =>
    have h1 : (x ⟨0, Nat.one_pos⟩).val < 1 := (x ⟨0, Nat.one_pos⟩).isLt
    have h2 : (y ⟨0, Nat.one_pos⟩).val < 1 := (y ⟨0, Nat.one_pos⟩).isLt
    omega)

/-- The sum of a `[1, 1024, 1]` array over its last two axes is the sum of all its elements. -/
theorem totalSum_apply (src : FVec Ideal S1x1024x1 .f32) (hφ : FKind.Formats .f32)
    (hacc : (0x00000000#32 : BitVec 32) = 0x00000000#32) (j : S1.Idx) :
    multiReduction (F := Ideal) .add [1, 2] S1 src 0x00000000#32 reduces_S1x1024x1_S1 hφ hacc j
      = ∑ i : S1x1024x1.Idx, src i := by
  show Ideal.reduceAdd reduces_S1x1024x1_S1 src j = _
  unfold Ideal.reduceAdd
  rw [Finset.filter_true_of_mem fun i _ => idx_S1_eq _ _]

/-! ## The small payloads -/

/-- The running column of row totals starts at zero. -/
theorem pay1_apply (r : Fin 1024) : k0_pay1 (F := Ideal) (ix2 r (0 : Fin 1)) = 0 := by
  unfold k0_pay1
  show Ideal.ofBits .f32 0x00000000#32 = 0
  exact Ideal.ofBits_zero_f32

/-- An off-diagonal tile adds its row sums to the running column. -/
theorem pay3_apply (v46 v48 : FVec Ideal S1024x1 .f32) (r : Fin 1024) :
    k0_pay3 (F := Ideal) v46 v48 (ix2 r (0 : Fin 1)) = v46 (ix2 r (0 : Fin 1)) + v48 (ix2 r (0 : Fin 1)) := by
  unfold k0_pay3
  show shapeCast S1024x1 (addf v46 v48) shapeCasts_S1024x1_S1024x1 (ix2 r (0 : Fin 1)) = _
  rw [shapeCast_self]
  rfl

/-- The last step's one value is the sum of the 1024 row totals. -/
theorem pay4_apply (v12 : FVec Ideal S1024x1 .f32) (y : S1x1x1.Idx) :
    k0_pay4 (F := Ideal) v12 y = ∑ r : Fin 1024, v12 (ix2 r (0 : Fin 1)) := by
  unfold k0_pay4
  show multiReduction (F := Ideal) .add [1, 2] S1 (shapeCast S1x1024x1 v12 shapeCasts_S1024x1_S1x1024x1) 0x00000000#32
      reduces_S1x1024x1_S1 (.inl rfl) rfl _ = _
  rw [totalSum_apply]
  show ∑ i : S1x1024x1.Idx, v12 (Shape.reshapeEquiv shapeCasts_S1024x1_S1x1024x1 i) = _
  rw [Equiv.sum_comp (Shape.reshapeEquiv shapeCasts_S1024x1_S1x1024x1) v12, sum_idx2]
  exact Finset.sum_congr rfl fun r _ => Fin.sum_univ_one _

/-! ## Pointwise operations at an index that the library does not list -/

theorem cmpi_apply {s : Shape} {w : ℕ} (p : CmpIPredicate) (a b : IVec s w) (i : s.Idx) :
    cmpi p a b i = IntOp.cmpi p (a i) (b i) := rfl
theorem xori_apply {s : Shape} {w : ℕ} (a b : IVec s w) (i : s.Idx) : xori a b i = IntOp.xori (a i) (b i) := rfl
theorem andi_apply {s : Shape} {w : ℕ} (a b : IVec s w) (i : s.Idx) : andi a b i = IntOp.andi (a i) (b i) := rfl
theorem sqrt_apply {s : Shape} {φ : FTy} (a : FVec Ideal s φ) (i : s.Idx) : sqrt a i = Ideal.sqrt (a i) := rfl

/-- An equality test's bit. -/
theorem cmpi_eq_word (a b : BitVec 32) : IntOp.cmpi .eq a b = if a = b then 1#1 else 0#1 := by
  show BitVec.ofBool (a == b) = _
  by_cases h : a = b
  · rw [if_pos h, h, beq_self_eq_true]; rfl
  · rw [if_neg h, beq_false_of_ne h]; rfl

/-! ## The matrix product at an index -/

/-- The product's dimension numbers: both operands contract their coordinate axis. -/
abbrev DD : DotDims S1024x128 S1024x128 S1024x1024 := dot_S1024x128_S1024x128_S1024x1024_1_1_0_0_n_n

theorem lhs0 (i : S1024x1024.Idx) (q : DD.contr.Idx) : (DD.lhsIdx i q 0).val = (i 0).val := by
  unfold DotDims.lhsIdx
  rw [dif_neg (show ¬(0 : Fin S1024x128.rank) ∈ DD.lhsBatch by decide),
    dif_pos (show (0 : Fin S1024x128.rank) ∈ DD.lhsNonContracting by decide)]
  rfl
theorem rhs0 (i : S1024x1024.Idx) (q : DD.contr.Idx) : (DD.rhsIdx i q 0).val = (i 1).val := by
  unfold DotDims.rhsIdx
  rw [dif_neg (show ¬(0 : Fin S1024x128.rank) ∈ DD.rhsBatch by decide),
    dif_pos (show (0 : Fin S1024x128.rank) ∈ DD.rhsNonContracting by decide)]
  rfl

/-- Entry (r, l) of the product accumulated from zero is the inner product of row r of the first operand and row l of
    the second. -/
theorem matmul_apply_rl (x0 x1 : FVec Ideal S1024x128 .f32) (r l : Fin 1024) :
    matmul (F := Ideal) DD none x0 x1 (constant (F := Ideal) S1024x1024 .f32 0x00000000#32) (ix2 r l)
      = ∑ k : Fin 128, x0 (ix2 r k) * x1 (ix2 l k) := by
  show FloatOps.matmul DD none x0 x1 (constant S1024x1024 .f32 0x00000000#32) (ix2 r l) = _
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 r l) ((contrEquiv1 DD 128 rfl rfl).symm k) = ix2 r k := funext fun a => Fin.ext (by
    match a with
    | ⟨0, _⟩ => exact lhs0 _ _
    | ⟨1, _⟩ => exact (DD.lhsIdx_val_of_single rfl _ _).trans hk)
  have er : DD.rhsIdx (ix2 r l) ((contrEquiv1 DD 128 rfl rfl).symm k) = ix2 l k := funext fun a => Fin.ext (by
    match a with
    | ⟨0, _⟩ => exact rhs0 _ _
    | ⟨1, _⟩ => exact (DD.rhsIdx_val_of_single rfl _ _).trans hk)
  rw [el, er]

/-! ## A pair's contribution inside a tile pair -/

section Tile
variable (x0 x1 : FVec Ideal S1024x128 .f32) (x2 : FVec Ideal S1024x1 .f32) (x3 : FVec Ideal S1x1024 .f32)
  (x4 : IVec S1024x1 32) (x5 : IVec S1x1024 32)

/-- The clipped squared distance of row `r` of the row tile and column `l` of the column tile. -/
def dd (r l : Fin 1024) : EReal :=
  max (x2 (ix2 r (0 : Fin 1)) + x3 (ix2 (0 : Fin 1) l) - Cert.Spec.two * ∑ k : Fin 128, x0 (ix2 r k) * x1 (ix2 l k)) 0
/-- The pair's contribution. -/
def tt (r l : Fin 1024) : EReal :=
  if x4 (ix2 r (0 : Fin 1)) = x5 (ix2 (0 : Fin 1) l) then Cert.Spec.one * dd x0 x1 x2 x3 r l
  else max (Cert.Spec.one - Ideal.sqrt (dd x0 x1 x2 x3 r l)) 0 * max (Cert.Spec.one - Ideal.sqrt (dd x0 x1 x2 x3 r l)) 0

/-- An off-diagonal tile's row sums. -/
theorem pay8_apply (r : Fin 1024) :
    k0_pay8 (F := Ideal) x0 x1 x2 x3 x4 x5 (ix2 r (0 : Fin 1)) = ∑ l : Fin 1024, tt x0 x1 x2 x3 x4 x5 r l := by
  unfold k0_pay8
  refine (shapeCast_a_a1_apply _ _ r 0).trans ?_
  refine (laneSum_apply _ _ _ r).trans ?_
  refine Finset.sum_congr rfl fun l _ => ?_
  simp only [select_apply, cmpi_apply, xori_apply, mulf_apply, subf_apply, addf_apply, maximumf_apply, sqrt_apply,
    broadcast_apply, constantI_apply, shapeCast_self, broadcastTo_a1_ab_apply, broadcastTo_1b_ab_apply]
  rw [matmul_apply_rl x0 x1 r l]
  simp only [Ideal.ofBits_def, Ideal.ofBits_zero_f32, cmpi_eq_word]
  unfold tt dd
  by_cases hs : x4 (ix2 r (0 : Fin 1)) = x5 (ix2 (0 : Fin 1) l)
  · simp only [if_pos hs, select_one]
  · have hx : IntOp.xori (0#1 : BitVec 1) 1#1 = 1#1 := by decide
    simp only [if_neg hs, select_zero, hx, select_one]

/-! ## The diagonal tile -/

/-- A number below 1024, as a 32-bit word read signed, is itself. -/
theorem toInt_ofNat_lt (n : Nat) (h : n < 1024) : (BitVec.ofNat 32 n).toInt = (n : Int) := by
  have e := BitVec.toInt_eq_toNat_cond (BitVec.ofNat 32 n)
  have hn : (BitVec.ofNat 32 n).toNat = n := by
    rw [BitVec.toNat_ofNat]; exact Nat.mod_eq_of_lt (by omega)
  rw [hn] at e
  omega

/-- The strict upper triangle inside a tile: the bit of "row number below column number". -/
theorem pay5_apply (r l : Fin 1024) : k0_pay5 (ix2 r l) = if r < l then 1#1 else 0#1 := by
  unfold k0_pay5
  refine (cmpi_apply _ _ _ (ix2 r l)).trans ?_
  rw [iota_single_apply, iota_single_apply]
  show BitVec.ofBool ((BitVec.ofNat 32 r.val).slt (BitVec.ofNat 32 l.val)) = _
  by_cases h : r < l
  · rw [if_pos h]
    have ht : (BitVec.ofNat 32 r.val).slt (BitVec.ofNat 32 l.val) = true := by
      rw [BitVec.slt_iff_toInt_lt, toInt_ofNat_lt _ r.isLt, toInt_ofNat_lt _ l.isLt]
      have := Fin.lt_def.mp h
      omega
    rw [ht]; rfl
  · rw [if_neg h]
    have hf : (BitVec.ofNat 32 r.val).slt (BitVec.ofNat 32 l.val) = false := by
      rw [Bool.eq_false_iff]
      intro hc
      rw [BitVec.slt_iff_toInt_lt, toInt_ofNat_lt _ r.isLt, toInt_ofNat_lt _ l.isLt] at hc
      have := Fin.lt_def.not.mp h
      omega
    rw [hf]; rfl

/-- The mask as a number: 1 on the strict upper triangle, 0 elsewhere. -/
theorem pay7_apply (r l : Fin 1024) : k0_pay7 (F := Ideal) (ix2 r l) = if r < l then (1 : EReal) else 0 := by
  unfold k0_pay7
  show ((((k0_pay5 (ix2 r l)).setWidth 32).toInt : ℝ) : EReal) = _
  rw [pay5_apply]
  by_cases h : r < l
  · rw [if_pos h, if_pos h]
    have e : ((1#1 : BitVec 1).setWidth 32).toInt = 1 := by decide
    rw [e, Int.cast_one, EReal.coe_one]
  · rw [if_neg h, if_neg h]
    have e : ((0#1 : BitVec 1).setWidth 32).toInt = 0 := by decide
    rw [e, Int.cast_zero, EReal.coe_zero]

/-- The squared hinge of a value taken as a squared distance. -/
def hinge (g : EReal) : EReal := max (Cert.Spec.one - Ideal.sqrt g) 0 * max (Cert.Spec.one - Ideal.sqrt g) 0

/-- The diagonal tile's unmasked term: under the root it has the squared distance only on the strict upper triangle
    (and different labels), the literal 1 elsewhere. -/
theorem pay6_apply (r l : Fin 1024) :
    k0_pay6 (F := Ideal) x0 x1 x2 x3 x4 x5 (ix2 r l)
      = if x4 (ix2 r (0 : Fin 1)) = x5 (ix2 (0 : Fin 1) l) then Cert.Spec.one * dd x0 x1 x2 x3 r l
        else if r < l then hinge (dd x0 x1 x2 x3 r l) else hinge Cert.Spec.one := by
  unfold k0_pay6
  refine (select_apply _ _ _ (ix2 r l)).trans ?_
  simp only [select_apply, cmpi_apply, xori_apply, andi_apply, mulf_apply, subf_apply, addf_apply, maximumf_apply,
    sqrt_apply, broadcast_apply, constantI_apply, shapeCast_self, broadcastTo_a1_ab_apply, broadcastTo_1b_ab_apply]
  rw [matmul_apply_rl x0 x1 r l]
  simp only [Ideal.ofBits_def, Ideal.ofBits_zero_f32, cmpi_eq_word, pay5_apply]
  unfold hinge dd
  by_cases hs : x4 (ix2 r (0 : Fin 1)) = x5 (ix2 (0 : Fin 1) l)
  · simp only [if_pos hs, select_one]
  · have hx : IntOp.xori (0#1 : BitVec 1) 1#1 = 1#1 := by decide
    have h11 : IntOp.andi (1#1 : BitVec 1) 1#1 = 1#1 := by decide
    have h01 : IntOp.andi (0#1 : BitVec 1) 1#1 = 0#1 := by decide
    by_cases h : r < l
    · simp only [if_neg hs, if_pos h, select_zero, hx, h11, select_one]
    · simp only [if_neg hs, if_neg h, select_zero, hx, h01]

/-- The diagonal tile adds, to the running column, each row's sum of the contributions of the pairs on the strict upper
    triangle. -/
theorem pay2_apply (v53 : FVec Ideal S1024x1 .f32) (r : Fin 1024) :
    k0_pay2 (F := Ideal) (k0_pay6 (F := Ideal) x0 x1 x2 x3 x4 x5) (k0_pay7 (F := Ideal)) v53 (ix2 r (0 : Fin 1))
      = v53 (ix2 r (0 : Fin 1)) + ∑ l : Fin 1024, (if r < l then tt x0 x1 x2 x3 x4 x5 r l else 0) := by
  unfold k0_pay2
  refine (congrFun (shapeCast_self _ _) _).trans ?_
  refine (addf_apply _ _ _).trans ?_
  refine congrArg (v53 (ix2 r (0 : Fin 1)) + ·) ?_
  refine (shapeCast_a_a1_apply _ _ r 0).trans ?_
  refine (laneSum_apply _ _ _ r).trans ?_
  refine Finset.sum_congr rfl fun l _ => ?_
  rw [mulf_apply, pay6_apply, pay7_apply]
  by_cases h : r < l
  · simp only [if_pos h, mul_one]
    unfold tt hinge
    rfl
  · simp only [if_neg h, mul_zero]

end Tile

end Cert.KIPay

end
-- ==== Proof.KIHost.lean ====
/-
  The host operations around the kernel region, read at an index, over the extended reals.

  Before the region the host squares the embeddings, sums each row of squares from the zero word — the squared norms —
  and lays the norms and the labels out once as a column and once as a row; a reshape keeps the row-major order, so entry
  (a, 0) of a column and entry (0, a) of a row are entry a of the vector.  No operation writes an argument array.  After
  the region the host adds the eight per-row-tile partial totals from the zero word (0 + s = s), divides by the literal
  pair count and reshapes the one value.
-/
import proofs.«129345_j9990093931268_2_alg».proof.Proof.KISetup
import proofs.«129345_j9990093931268_2_alg».proof.Proof.Spec
import proofs.«129345_j9990093931268_2_alg».proof.Proof.KIPay
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KIHost

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (c : Dev nD)

/-- The embeddings by coordinates, as core `c`'s launch memory holds them. -/
abbrev X : Fin 8192 → Fin 128 → EReal :=
  fun a k => (m ((c : Thread nD τ).loc main_arg0) : S8192x128.Idx → EReal) (ix2 a k)
/-- The labels by coordinate. -/
abbrev Lb : Fin 8192 → BitVec 32 :=
  fun a => (m ((c : Thread nD τ).loc main_arg1) : S8192.Idx → BitVec 32) (ix1 a)

/-! ## The arguments are not written -/

theorem V_arg0 : (V m c main_arg0 : S8192x128.Idx → EReal) = m ((c : Thread nD τ).loc main_arg0) := by
  dsimp only [V, V0, hostOps0]
  after_results

theorem V_arg1 : (V m c main_arg1 : S8192.Idx → BitVec 32) = m ((c : Thread nD τ).loc main_arg1) := by
  dsimp only [V, V0, hostOps0]
  after_results

theorem V_arg0_apply (a : Fin 8192) (k : Fin 128) :
    (V m c main_arg0 : S8192x128.Idx → EReal) (ix2 a k) = X m c a k := by
  rw [V_arg0]

/-! ## The squared norms and the labels, as a column and as a row -/

/-- A row sum from an initial value, at row `a`: the initial value plus the sum of the row's 128 entries. -/
theorem rowSum_apply (y0 : FVec Ideal S8192x128 .f32) (z : FVec Ideal S_ .f32) (a : Fin 8192) :
    Host.reduceAdd (F := Ideal) y0 z reducesTo_S8192x128_S8192_d1 h_S_ (ix1 a)
      = z (Shape.Idx.first h_S_) + ∑ k : Fin 128, y0 (ix2 a k) := by
  simp only [Host.reduceAdd, Ideal.hostReduceAdd_def]
  rw [Ideal.hostReduceAdd_single reducesTo_S8192x128_S8192_d1 (by decide)]
  refine congrArg (_ + ·) (Finset.sum_congr rfl fun k _ => ?_)
  exact congrArg y0 (funext fun d => Fin.ext (by match d with | ⟨0, _⟩ => rfl | ⟨1, _⟩ => rfl))

/-- The vector of squared norms the host computes, at point `a`. -/
theorem norms_apply (a : Fin 8192) :
    Host.reduceAdd (F := Ideal)
        (mulf (m ((c : Thread nD τ).loc main_arg0) : FVec Ideal S8192x128 .f32) (m ((c : Thread nD τ).loc main_arg0)))
        (constant (F := Ideal) S_ .f32 0x00000000#32) reducesTo_S8192x128_S8192_d1 h_S_ (ix1 a)
      = Cert.Spec.sq (X m c) a := by
  rw [rowSum_apply, constant_apply, Ideal.ofBits_zero_f32, zero_add]
  rfl

theorem V_v2 : (V m c main_v2 : S8192x1.Idx → EReal)
    = shapeCast S8192x1 (Host.reduceAdd (F := Ideal)
        (mulf (m ((c : Thread nD τ).loc main_arg0) : FVec Ideal S8192x128 .f32) (m ((c : Thread nD τ).loc main_arg0)))
        (constant (F := Ideal) S_ .f32 0x00000000#32) reducesTo_S8192x128_S8192_d1 h_S_) shapeCasts_S8192_S8192x1 := by
  dsimp only [V, V0, hostOps0]
  after_results
  rfl

theorem V_v3 : (V m c main_v3 : S1x8192.Idx → EReal)
    = shapeCast S1x8192 (Host.reduceAdd (F := Ideal)
        (mulf (m ((c : Thread nD τ).loc main_arg0) : FVec Ideal S8192x128 .f32) (m ((c : Thread nD τ).loc main_arg0)))
        (constant (F := Ideal) S_ .f32 0x00000000#32) reducesTo_S8192x128_S8192_d1 h_S_) shapeCasts_S8192_S1x8192 := by
  dsimp only [V, V0, hostOps0]
  after_results
  rfl

theorem V_v4 : (V m c main_v4 : S8192x1.Idx → BitVec 32)
    = shapeCast S8192x1 (m ((c : Thread nD τ).loc main_arg1) : S8192.Idx → BitVec 32) shapeCasts_S8192_S8192x1 := by
  dsimp only [V, V0, hostOps0]
  after_results
  rfl

theorem V_v5 : (V m c main_v5 : S1x8192.Idx → BitVec 32)
    = shapeCast S1x8192 (m ((c : Thread nD τ).loc main_arg1) : S8192.Idx → BitVec 32) shapeCasts_S8192_S1x8192 := by
  dsimp only [V, V0, hostOps0]
  after_results
  rfl

/-- The column of squared norms. -/
theorem V_v2_apply (a : Fin 8192) :
    (V m c main_v2 : S8192x1.Idx → EReal) (ix2 a (0 : Fin 1)) = Cert.Spec.sq (X m c) a := by
  rw [V_v2, Cert.KIPay.shapeCast_a_a1_apply, norms_apply]
/-- The row of squared norms. -/
theorem V_v3_apply (a : Fin 8192) :
    (V m c main_v3 : S1x8192.Idx → EReal) (ix2 (0 : Fin 1) a) = Cert.Spec.sq (X m c) a := by
  rw [V_v3, shapeCast_a_1a_apply, norms_apply]
/-- The column of labels. -/
theorem V_v4_apply (a : Fin 8192) :
    (V m c main_v4 : S8192x1.Idx → BitVec 32) (ix2 a (0 : Fin 1)) = Lb m c a := by
  rw [V_v4, Cert.KIPay.shapeCast_a_a1_apply]
/-- The row of labels. -/
theorem V_v5_apply (a : Fin 8192) :
    (V m c main_v5 : S1x8192.Idx → BitVec 32) (ix2 (0 : Fin 1) a) = Lb m c a := by
  rw [V_v5, shapeCast_a_1a_apply]

/-! ## The tail: the partial totals added up, divided, reshaped -/

/-- An index of the `[8, 1, 1]` array of partial totals is its first coordinate. -/
def idxEquiv8 : S8x1x1.Idx ≃ Fin 8 where
  toFun i := ⟨(i 0).val, (i 0).isLt⟩
  invFun a := ix3 a (0 : Fin 1) (0 : Fin 1)
  left_inv i := funext fun d => Fin.ext (by
    match d with
    | ⟨0, _⟩ => rfl
    | ⟨1, h1⟩ =>
      have h : (i ⟨1, h1⟩).val < 1 := (i ⟨1, h1⟩).isLt
      show 0 = (i ⟨1, h1⟩).val
      omega
    | ⟨2, h2⟩ =>
      have h : (i ⟨2, h2⟩).val < 1 := (i ⟨2, h2⟩).isLt
      show 0 = (i ⟨2, h2⟩).val
      omega)
  right_inv _ := rfl

/-- The sum of the partial totals from the zero word is their plain sum. -/
theorem total8_apply (y : FVec Ideal S8x1x1 .f32) (i : S_.Idx) :
    Host.reduceAdd (F := Ideal) y (constant (F := Ideal) S_ .f32 0x00000000#32) reducesTo_S8x1x1_S_d0_1_2 h_S_ i
      = ∑ a : Fin 8, y (ix3 a (0 : Fin 1) (0 : Fin 1)) := by
  simp only [Host.reduceAdd, Ideal.hostReduceAdd_def]
  rw [Ideal.hostReduceAdd_total reducesTo_S8x1x1_S_d0_1_2 (fun b => b.elim0), constant_apply, Ideal.ofBits_zero_f32,
    zero_add]
  exact (Equiv.sum_comp idxEquiv8.symm y).symm

/-- After the host's last five operations the result's one element is the sum of the eight partial totals, as the
    valuation holds them, divided by the pair count. -/
theorem tail_apply (W : Valuation τ sig (Elt Ideal)) :
    (StableHlo.after hostOps1 W (Proc.devRef .tc main_v9) : S1.Idx → EReal)
      = fun _ => Ideal.div
          (∑ i : Fin 8, (W (Proc.devRef .tc main_v6) : S8x1x1.Idx → EReal) (ix3 i (0 : Fin 1) (0 : Fin 1)))
          Cert.Spec.den := by
  have e : (StableHlo.after hostOps1 W (Proc.devRef .tc main_v9) : S1.Idx → EReal)
      = shapeCast S1 (Host.divf (F := Ideal)
          (Host.reduceAdd (F := Ideal) (W (Proc.devRef .tc main_v6) : FVec Ideal S8x1x1 .f32)
            (constant (F := Ideal) S_ .f32 0x00000000#32) reducesTo_S8x1x1_S_d0_1_2 h_S_)
          (constant (F := Ideal) S_ .f32 0x4BFFF800#32)) shapeCasts_S_S1 := by
    dsimp only [hostOps1]
    after_results
    rfl
  rw [e]
  funext j
  show Ideal.div (Host.reduceAdd (F := Ideal) (W (Proc.devRef .tc main_v6) : FVec Ideal S8x1x1 .f32)
      (constant (F := Ideal) S_ .f32 0x00000000#32) reducesTo_S8x1x1_S_d0_1_2 h_S_ _) (Ideal.ofBits .f32 0x4BFFF800#32) = _
  rw [total8_apply]

end Cert.KIHost

end
-- ==== Proof.LibBlockSum.lean ====
/-
  A finite sum over n = a · b consecutive naturals, taken block by block: the outer sum runs over the a blocks,
  the inner one over the b places inside a block, the k-th summand being the one at place k mod b of block k / b.
  Only commutativity and associativity of the addition are used, so it holds in any commutative additive monoid —
  the extended reals with their addition among them.
-/
import Mathlib

namespace LibBlockSum

/-- The sum over `Fin n`, `n = a * b`, is the sum over the `a` blocks of the sums over each block's `b` places. -/
theorem sum_blocks {M : Type*} [AddCommMonoid M] {n : ℕ} (a b : ℕ) (h : n = a * b) (f : Fin n → M) :
    ∑ k : Fin n, f k
      = ∑ t : Fin a, ∑ q : Fin b, f ⟨b * t.val + q.val, by
          have := t.isLt; have := q.isLt
          calc b * t.val + q.val < b * t.val + b := by omega
            _ = b * (t.val + 1) := by ring
            _ ≤ b * a := Nat.mul_le_mul_left _ (by omega)
            _ = n := by rw [h, Nat.mul_comm]⟩ := by
  subst h
  rw [← (finProdFinEquiv (m := a) (n := b)).sum_comp, Fintype.sum_prod_type]
  refine Finset.sum_congr rfl fun t _ => Finset.sum_congr rfl fun q _ => ?_
  refine congrArg f (Fin.ext ?_)
  show q.val + b * t.val = b * t.val + q.val
  omega

end LibBlockSum
-- ==== Proof.TileSum.lean ====
/-
  The total of the pair contributions, regrouped tile by tile.

  Each index below 8192 = 8 · 1024 is written 1024·t + g with a tile number t < 8 and a place g < 1024, so a sum over
  all 8192 indices is the sum over the 8 tiles of the sums over each tile's 1024 places.  Doing this to both indices of
  the double sum gives a sum over row tiles i, rows r, column tiles j and columns l.  A column tile strictly before the
  row tile (j < i) holds only pairs with 1024·j + l < 1024·i + r, whose contribution is 0 by definition, so the whole
  tile adds 0 — which is what leaving it out adds.  Only associativity and commutativity of the addition of the
  extended reals are used; nothing needs to be finite.
-/
import Mathlib
import proofs.«129345_j9990093931268_2_alg».proof.Proof.Spec
import proofs.«129345_j9990093931268_2_alg».proof.Proof.LibBlockSum

noncomputable section

namespace Cert.TileSum

open Cert.Spec

/-- A sum over the 8192 indices, taken tile by tile: index 1024·t + g is place g of tile t. -/
theorem sum_cat {M : Type*} [AddCommMonoid M] (f : Fin 8192 → M) :
    ∑ a : Fin 8192, f a = ∑ t : Fin 8, ∑ g : Fin 1024, f (cat t g) := by
  rw [LibBlockSum.sum_blocks 8 1024 (by norm_num) f]
  rfl

/-- A pair whose column tile comes strictly before its row tile has its second index below its first. -/
theorem not_lt_of_tile_lt {i j : Fin 8} (h : ¬ i ≤ j) (r l : Fin 1024) : ¬ cat i r < cat j l := by
  have hji : j.val < i.val := by
    have := Fin.le_def.not.mp h
    omega
  have hr := r.isLt
  have hl := l.isLt
  rw [Fin.lt_def]
  show ¬ 1024 * i.val + r.val < 1024 * j.val + l.val
  omega

/-- The tiled total is the total over all pairs. -/
theorem tiled_eq (X : Fin 8192 → Fin 128 → EReal) (Lb : Fin 8192 → BitVec 32) :
    Cert.Spec.tiled X Lb = ∑ a : Fin 8192, ∑ b : Fin 8192, Cert.Spec.F X Lb a b := by
  unfold Cert.Spec.tiled
  rw [sum_cat (fun a => ∑ b : Fin 8192, Cert.Spec.F X Lb a b)]
  refine Finset.sum_congr rfl fun i _ => Finset.sum_congr rfl fun r _ => ?_
  rw [sum_cat (fun b => Cert.Spec.F X Lb (cat i r) b)]
  refine Finset.sum_congr rfl fun j _ => ?_
  by_cases hij : i ≤ j
  · rw [if_pos hij]
  · rw [if_neg hij]
    refine (Finset.sum_eq_zero fun l _ => ?_).symm
    unfold Cert.Spec.F
    rw [if_neg (not_lt_of_tile_lt hij r l)]

end Cert.TileSum

end
-- ==== Proof.KIAcc.lean ====
/-
  The row accumulator over one row of tiles, and the total.

  At grid point t = 8·i + j the kernel's blocks are rows 1024·i … of the row arrays and places 1024·j … of the column
  arrays, so a pair's contribution computed from the blocks is the specification's contribution of the points
  1024·i + r and 1024·j + l.  Within a diagonal tile 1024·i + r < 1024·i + l exactly when r < l; in a tile above the
  diagonal every pair has its first index below its second; below the diagonal nothing is added.  The accumulator of row
  tile i after column tile j is the sum of the tiles' row sums so far, and after the last column tile it is the
  specification's tiled row sum; added over rows and row tiles that is the total over all pairs.
-/
import proofs.«129345_j9990093931268_2_alg».proof.Proof.KIBlocks
import proofs.«129345_j9990093931268_2_alg».proof.Proof.KIPay
import proofs.«129345_j9990093931268_2_alg».proof.Proof.KIHost
import proofs.«129345_j9990093931268_2_alg».proof.Proof.Spec
import proofs.«129345_j9990093931268_2_alg».proof.Proof.TileSum

set_option maxRecDepth 16384

noncomputable section

namespace Cert.KIAcc

open Cert.KernelIdeal Cert.KernelIdeal.Gen Cert.KernelIdeal.Fr Cert.KernelIdeal.Blk
open Idealize.ShloMosaic Idealize.ShloMosaic.TcCoe Idealize.ShloMosaic.ValueIdx Idealize.SL.Sem
open Cert.Spec Cert.KIHost

variable (m : (ℓ : Loc nD τ sig) → Buf (Elt Ideal) ℓ) (c : Dev nD)

/-! ## The blocks' contribution is the specification's -/

/-- The clipped squared distance computed from the blocks of point `t` is that of the two points in the arrays. -/
theorem dd_blocks (t : Fin cfg0.N) (r l : Fin 1024) :
    Cert.KIPay.dd (iblk m c 0 t) (iblk m c 1 t) (iblk m c 2 t) (iblk m c 3 t) r l
      = d2 (X m c) (cat (ti t) r) (cat (tj t) l) := by
  unfold Cert.KIPay.dd Cert.Spec.d2 Cert.Spec.dot
  simp only [iblk0_apply, iblk1_apply, iblk2_apply, iblk3_apply]
  rw [V_v2_apply, V_v3_apply, V_arg0]

/-- The contribution computed from the blocks of point `t` is the specification's. -/
theorem tt_blocks (t : Fin cfg0.N) (r l : Fin 1024) :
    Cert.KIPay.tt (iblk m c 0 t) (iblk m c 1 t) (iblk m c 2 t) (iblk m c 3 t) (iblk m c 4 t) (iblk m c 5 t) r l
      = tmU (X m c) (Lb m c) (cat (ti t) r) (cat (tj t) l) := by
  unfold Cert.KIPay.tt Cert.Spec.tmU
  rw [dd_blocks]
  simp only [iblk4_apply, iblk5_apply]
  rw [V_v4_apply, V_v5_apply]

/-! ## Order of the global indices -/

theorem cat_lt_cat_same (i : Fin 8) (r l : Fin 1024) : cat i r < cat i l ↔ r < l := by
  rw [Fin.lt_def, Fin.lt_def]
  show 1024 * i.val + r.val < 1024 * i.val + l.val ↔ r.val < l.val
  omega

theorem cat_lt_of_tile_lt {i j : Fin 8} (h : i < j) (r l : Fin 1024) : cat i r < cat j l := by
  have h1 := Fin.lt_def.mp h
  have h2 := r.isLt
  have h3 := l.isLt
  rw [Fin.lt_def]
  show 1024 * i.val + r.val < 1024 * j.val + l.val
  omega

/-! ## The accumulator -/

/-- What column tile `j` adds to row `r` of row tile `i`: the tile's row sum if the tile is on or above the diagonal. -/
def T (i : Fin 8) (j : ℕ) (r : Fin 1024) : EReal :=
  if h : j < 8 then
    (if i ≤ ⟨j, h⟩ then ∑ l : Fin 1024, Cert.Spec.F (X m c) (Lb m c) (cat i r) (cat ⟨j, h⟩ l) else 0)
  else 0

/-- Row `r` of row tile `i`'s accumulator after column tile `j`. -/
def accR (i : Fin 8) : ℕ → Fin 1024 → EReal
  | 0, r => T m c i 0 r
  | j + 1, r => accR i j r + T m c i (j + 1) r

theorem accR_zero (i : Fin 8) (r : Fin 1024) : accR m c i 0 r = T m c i 0 r := rfl
theorem accR_succ (i : Fin 8) (j : ℕ) (r : Fin 1024) : accR m c i (j + 1) r = accR m c i j r + T m c i (j + 1) r := rfl

theorem T_lt (i : Fin 8) (j : ℕ) (h : j < 8) (r : Fin 1024) :
    T m c i j r = if i ≤ ⟨j, h⟩ then ∑ l : Fin 1024, Cert.Spec.F (X m c) (Lb m c) (cat i r) (cat ⟨j, h⟩ l) else 0 := by
  unfold T
  rw [dif_pos h]

/-- After the last column tile the accumulator holds the tiled row sum. -/
theorem accR_seven (i : Fin 8) (r : Fin 1024) :
    accR m c i 7 r
      = ∑ j : Fin 8, (if i ≤ j then ∑ l : Fin 1024, Cert.Spec.F (X m c) (Lb m c) (cat i r) (cat j l) else 0) := by
  rw [Fin.sum_univ_eight, accR_succ, accR_succ, accR_succ, accR_succ, accR_succ, accR_succ, accR_succ, accR_zero,
    T_lt m c i 0 (by decide), T_lt m c i 1 (by decide), T_lt m c i 2 (by decide), T_lt m c i 3 (by decide),
    T_lt m c i 4 (by decide), T_lt m c i 5 (by decide), T_lt m c i 6 (by decide), T_lt m c i 7 (by decide)]
  rfl

/-- A diagonal tile adds the row sums over its strict upper triangle. -/
theorem T_diag (t : Fin cfg0.N) (h : t.val / 8 = t.val % 8) (r : Fin 1024) :
    T m c (ti t) (t.val % 8) r
      = ∑ l : Fin 1024, (if r < l then
          Cert.KIPay.tt (iblk m c 0 t) (iblk m c 1 t) (iblk m c 2 t) (iblk m c 3 t) (iblk m c 4 t) (iblk m c 5 t) r l
        else 0) := by
  have hj : t.val % 8 < 8 := by omega
  have hle : ti t ≤ ⟨t.val % 8, hj⟩ := by
    rw [Fin.le_def]; show t.val / 8 ≤ t.val % 8; omega
  rw [T_lt m c (ti t) _ hj, if_pos hle]
  refine Finset.sum_congr rfl fun l _ => ?_
  rw [tt_blocks]
  unfold Cert.Spec.F
  have hc : cat (ti t) r < cat (tj t) l ↔ r < l := by
    rw [Fin.lt_def, Fin.lt_def]
    show 1024 * (t.val / 8) + r.val < 1024 * (t.val % 8) + l.val ↔ r.val < l.val
    omega
  show (if cat (ti t) r < cat (tj t) l then _ else 0) = _
  by_cases hrl : r < l
  · rw [if_pos hrl, if_pos (hc.mpr hrl)]
    rfl
  · rw [if_neg hrl, if_neg fun h' => hrl (hc.mp h')]

/-- A tile above the diagonal adds its full row sums. -/
theorem T_upper (t : Fin cfg0.N) (h : t.val / 8 < t.val % 8) (r : Fin 1024) :
    T m c (ti t) (t.val % 8) r
      = ∑ l : Fin 1024,
          Cert.KIPay.tt (iblk m c 0 t) (iblk m c 1 t) (iblk m c 2 t) (iblk m c 3 t) (iblk m c 4 t) (iblk m c 5 t) r l := by
  have hj : t.val % 8 < 8 := by omega
  have hle : ti t ≤ ⟨t.val % 8, hj⟩ := by
    rw [Fin.le_def]; show t.val / 8 ≤ t.val % 8; omega
  have hlt : ti t < tj t := by
    rw [Fin.lt_def]; exact h
  rw [T_lt m c (ti t) _ hj, if_pos hle]
  refine Finset.sum_congr rfl fun l _ => ?_
  rw [tt_blocks]
  unfold Cert.Spec.F
  show (if cat (ti t) r < cat (tj t) l then _ else 0) = _
  rw [if_pos (cat_lt_of_tile_lt hlt r l)]
  rfl

/-- A tile below the diagonal adds nothing. -/
theorem T_lower (t : Fin cfg0.N) (h : ¬ t.val / 8 ≤ t.val % 8) (r : Fin 1024) :
    T m c (ti t) (t.val % 8) r = 0 := by
  have hj : t.val % 8 < 8 := by omega
  have hle : ¬ ti t ≤ ⟨t.val % 8, hj⟩ := by
    rw [Fin.le_def]; exact h
  rw [T_lt m c (ti t) _ hj, if_neg hle]

/-! ## The total -/

/-- The accumulators' final contents, added over rows and row tiles, are the total over all pairs. -/
theorem total_eq :
    ∑ i : Fin 8, ∑ r : Fin 1024, accR m c i 7 r
      = ∑ a : Fin 8192, ∑ b : Fin 8192, Cert.Spec.F (X m c) (Lb m c) a b := by
  rw [← Cert.TileSum.tiled_eq]
  unfold Cert.Spec.tiled
  exact Finset.sum_congr rfl fun i _ => Finset.sum_congr rfl fun r _ => accR_seven m c i r

end Cert.KIAcc

end
-- ==== Proof.KIValue.lean ====
/-
  The kernel's result, as a value. By induction on the grid point the row accumulator holds, after point 8·i + j, the
  row sums of the pair contributions over the tiles i … j of the row of tiles i (tiles before the diagonal add nothing,
  the diagonal tile adds its strict upper triangle, the later tiles add all their pairs); the output element i is the
  total of the accumulator after the last tile; the host adds the eight totals and divides by the number of pairs.
  Regrouped pair by pair that is the loss of the specification.
-/
import proofs.«129345_j9990093931268_2_alg».proof.Proof.KIPieces
import proofs.«129345_j9990093931268_2_alg».proof.Proof.KILaunch
import proofs.«129345_j9990093931268_2_alg».proof.Proof.KIAcc

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)
open Cert.Spec

open Cert.KernelIdeal.Blk Cert.KIAcc Cert.KIPay Cert.KIHost

variable (m : (ℓ : Loc nD τ sig) → Buf (Elt Ideal) ℓ) (ρ : Dev nD → PrngReg)

theorem outsAt_congr (c : Dev nD) {a b : ℕ} (e : a = b) (ha : a < cfg0.N) (hb : b < cfg0.N) :
    outsAt m c a ha = outsAt m c b hb := by subst e; rfl

/-- At the last tile of a row of tiles the output's buffer holds the sum of the accumulator's entries. -/
theorem out_is_pay4 (c : Dev nD) (t : Fin cfg0.N) (g4 : t.val % 8 = 7) :
    (outsAt m c t.val t.isLt).1 = k0_pay4 (outsAt m c t.val t.isLt).2 := by
  have hN : t.val < 64 := lt_of_lt_of_eq t.isLt (show cfg0.N = 64 from N_0)
  have hz : t.val ≠ 0 := by omega
  have g1 : ¬ t.val % 8 = 0 := by omega
  by_cases h2 : t.val / 8 = t.val % 8
  · have g3 : ¬ t.val / 8 < t.val % 8 := by omega
    rw [outsAt_G m c t hz g1 h2 g3 g4]; dsimp only
    rw [out_G_6_eq, sout_G_eq]
  · have h3 : t.val / 8 < t.val % 8 := by omega
    rw [outsAt_C m c t hz g1 h2 h3 g4]; dsimp only
    rw [out_C_6_eq, sout_C_eq]

/-- THE INVARIANT: after point t the accumulator's row r holds the contributions of row 1024·i + r over the tiles up to j. -/
theorem scr_eq (c : Dev nD) : ∀ (n : ℕ) (t : Fin cfg0.N), t.val = n → ∀ r : Fin 1024,
    (outsAt m c t.val t.isLt).2 (ix2 r (0 : Fin 1)) = accR m c (ti t) (t.val % 8) r
  | 0, t, ht, r => by
    have g1 : t.val % 8 = 0 := by omega
    have g2 : t.val / 8 = t.val % 8 := by omega
    have g3 : ¬ t.val / 8 < t.val % 8 := by omega
    have g4 : ¬ t.val % 8 = 7 := by omega
    rw [outsAt_A m c t ht g1 g2 g3 g4]; dsimp only
    rw [sout_A_eq, pay2_apply, pay1_apply, zero_add, g1, accR_zero]
    have hT := T_diag m c t g2 r
    rw [g1] at hT
    exact hT.symm
  | n + 1, t, ht, r => by
    have hN : t.val < 64 := lt_of_lt_of_eq t.isLt (show cfg0.N = 64 from N_0)
    have hz : t.val ≠ 0 := by omega
    have hp : t.val - 1 < cfg0.N := Nat.lt_of_le_of_lt (Nat.sub_le _ _) t.isLt
    have ih := scr_eq c n ⟨t.val - 1, hp⟩ (by show t.val - 1 = n; omega) r
    by_cases h1 : t.val % 8 = 0
    · have g2 : ¬ t.val / 8 = t.val % 8 := by omega
      have g3 : ¬ t.val / 8 < t.val % 8 := by omega
      have g4 : ¬ t.val % 8 = 7 := by omega
      rw [outsAt_D m c t hz h1 g2 g3 g4]; dsimp only
      rw [sout_D_eq, pay1_apply]
      have hT := T_lower m c t (by omega) r
      rw [h1] at hT ⊢
      exact hT.symm
    · have ei : ti ⟨t.val - 1, hp⟩ = ti t := Fin.ext (by show (t.val - 1) / 8 = t.val / 8; omega)
      have ej : t.val % 8 = (t.val - 1) % 8 + 1 := by omega
      have ih' : (outsAt m c (t.val - 1) hp).2 (ix2 r (0 : Fin 1)) = accR m c (ti t) ((t.val - 1) % 8) r := by
        rw [← ei]; exact ih
      by_cases h2 : t.val / 8 = t.val % 8
      · have g3 : ¬ t.val / 8 < t.val % 8 := by omega
        have hT := T_diag m c t h2 r
        rw [ej] at hT ⊢
        rw [accR_succ, hT, ← ih']
        by_cases h4 : t.val % 8 = 7
        · rw [outsAt_G m c t hz h1 h2 g3 h4]; dsimp only
          rw [sout_G_eq, pay2_apply]
        · rw [outsAt_E m c t hz h1 h2 g3 h4]; dsimp only
          rw [sout_E_eq, pay2_apply]
      · by_cases h3 : t.val / 8 < t.val % 8
        · have hT := T_upper m c t h3 r
          rw [ej] at hT ⊢
          rw [accR_succ, hT, ← ih']
          by_cases h4 : t.val % 8 = 7
          · rw [outsAt_C m c t hz h1 h2 h3 h4]; dsimp only
            rw [sout_C_eq, pay3_apply, pay8_apply]
          · rw [outsAt_B m c t hz h1 h2 h3 h4]; dsimp only
            rw [sout_B_eq, pay3_apply, pay8_apply]
        · have g4 : ¬ t.val % 8 = 7 := by omega
          have hT := T_lower m c t (by omega) r
          rw [ej] at hT ⊢
          rw [accR_succ, hT, add_zero, ← ih']
          rw [outsAt_H m c t hz h1 h2 h3 g4]

/-! ## The output array after the run -/

/-- The per-row-tile totals. -/
def G6 (c : Dev nD) : S8x1x1.Idx → EReal := fun idx => ∑ r : Fin 1024, accR m c (idx 0) 7 r

theorem flushed_eq (c : Dev nD) (t : Fin cfg0.N) (hf : (cfg0.win 6).flush t = true) :
    (dats m 0 c).flushed 6 t = ((cfg0.win 6).blk t).view.read (Elt Ideal) (G6 m c) := by
  have g4 : t.val % 8 = 7 := (flush0_6 t).mp hf
  show (cfg0.win 6).cut (grid0.coords t) ((dats m 0 c).after 6 t) = _
  rw [after6, out_is_pay4 m c t g4]
  funext y
  show k0_pay4 (outsAt m c t.val t.isLt).2 y = G6 m c (((cfg0.win 6).blk t).view.emb y)
  rw [pay4_apply]
  unfold G6
  have e0 : (((cfg0.win 6).blk t).view.emb y) 0 = ti t := Fin.ext (by
    obtain ⟨-, -, -, -, -, -, -, -, -, -, -, -, e0, -⟩ := idxf t
    have hy : (y 0).val < 1 := (y 0).isLt
    show win0_6.index t (0 : Fin 3) * 1 + 1 * (y 0).val = t.val / 8
    omega)
  rw [e0]
  refine Finset.sum_congr rfl fun r _ => ?_
  rw [scr_eq m c t.val t rfl r, g4]

theorem final6 (c : Dev nD) : (dats m 0 c).arrAt 6 cfg0.N = G6 m c :=
  (dats m 0 c).arrAt_eq_of_cover 6 (G6 m c) (flushed_eq m c) fun i => by
    have hi : (i 0).val < 8 := (i 0).isLt
    have hN : cfg0.N = 64 := N_0
    obtain ⟨t, ht⟩ : ∃ t : Fin cfg0.N, t.val = 8 * (i 0).val + 7 := ⟨⟨8 * (i 0).val + 7, by omega⟩, rfl⟩
    refine ⟨t, (flush0_6 t).mpr (by omega), ?_⟩
    show i ∈ ((View.whole main_v6).slice (win0_6.rect t)).set
    rw [View.set_slice_whole, Rect.mem_set_unit]
    obtain ⟨-, -, -, -, -, -, -, -, -, -, -, -, e0, e1, e2⟩ := idxf t
    have h1 : (i 1).val < 1 := (i 1).isLt
    have h2 : (i 2).val < 1 := (i 2).isLt
    intro a
    match a with
    | ⟨0, _⟩ => show win0_6.index t (0 : Fin 3) * 1 ≤ (i 0).val ∧ (i 0).val < win0_6.index t (0 : Fin 3) * 1 + 1
                omega
    | ⟨1, _⟩ => show win0_6.index t (1 : Fin 3) * 1 ≤ (i 1).val ∧ (i 1).val < win0_6.index t (1 : Fin 3) * 1 + 1
                omega
    | ⟨2, _⟩ => show win0_6.index t (2 : Fin 3) * 1 ≤ (i 2).val ∧ (i 2).val < win0_6.index t (2 : Fin 3) * 1 + 1
                omega

/-! ## The result -/

/-- The program's result is the specification's loss of its two arguments. -/
theorem result_eq (c : Dev nD) : (result m c : S1.Idx → EReal) = fun _ => Cert.Spec.loss (X m c) (Lb m c) := by
  unfold result
  rw [tail_apply]
  funext _
  unfold Cert.Spec.loss
  rw [← total_eq m c]
  refine congrArg (fun s => Ideal.div s Cert.Spec.den) (Finset.sum_congr rfl fun i _ => ?_)
  rw [V1_v6, final6]
  rfl

end Cert.KernelIdeal.Val

end
-- ==== Proof.RefLoss.lean ====
/-
  The reference is the specification: read one operation at a time, the reference program's single result is the loss of
  Spec.lean, taken of its two argument arrays read by coordinates.

  Element (a, b) of the pair matrix: the squared norms come from a sum started at the zero word (0 + s = s), the product
  matrix is the inner product of rows a and b (the second operand is the transpose of the first), so the clipped matrix
  holds d²(a, b).  The strict upper triangle is "not (row ≥ column)", i.e. a < b, because both coordinates are below 2³¹
  and so compare as signed words the way they do as numbers.  Under the root the reference puts d² where the labels differ
  and a < b, and the literal 1 elsewhere; where the labels differ and a < b its hinge is therefore the specification's, and
  elsewhere the hinge is not looked at: equal labels select the other branch, and for a ≥ b the term is multiplied by the
  mask's 0.  Multiplying by the mask's 1 or 0 is x·1 = x and x·0 = 0, which hold for every extended real.  The total starts
  at the zero word and runs over all index pairs, which is the double sum over the coordinates; the division by the
  literal pair count and the final reshape of the one value change nothing else.
-/
import proofs.«129345_j9990093931268_2_alg».proof.Proof.Gen.ReferenceIdeal.Read
import proofs.«129345_j9990093931268_2_alg».proof.Proof.Spec

noncomputable section

namespace Cert.RefLoss

open Cert.ReferenceIdeal Cert.ReferenceIdeal.Gen Cert.ReferenceIdeal.Read Idealize.ShloMosaic Idealize.ShloMosaic.ValueIdx
open Cert.Spec

/-- The embeddings by coordinates. -/
abbrev X (x0 : (⟨S8192x128, .f32⟩ : BufTy).Contents (Elt Ideal)) : Fin 8192 → Fin 128 → EReal := fun a k => x0 (ix2 a k)
/-- The labels by coordinate. -/
abbrev Lb (x1 : (⟨S8192, .i32⟩ : BufTy).Contents (Elt Ideal)) : Fin 8192 → BitVec 32 := fun a => x1 (ix1 a)

variable (x0 : (⟨S8192x128, .f32⟩ : BufTy).Contents (Elt Ideal)) (x1 : (⟨S8192, .i32⟩ : BufTy).Contents (Elt Ideal))

/-- The row sums of the squares are the squared norms. -/
theorem sq_eq (a : Fin 8192) : val_main_v1 (F := Ideal) x0 (ix1 a) = sq (X x0) a := by
  have e : ∀ k : Fin 128, idx_main_v1 (ix1 a) k = ix2 a k := fun k =>
    funext fun d => Fin.ext (by match d with | ⟨0, _⟩ => rfl | ⟨1, _⟩ => rfl)
  rw [val_main_v1_apply, val_main_cst_apply]
  simp only [val_main_v0_apply, e, Ideal.ofBits_def, Ideal.mulf_def, Ideal.ofBits_zero_f32, zero_add]
  rfl

/-- The product with the transpose holds the inner products. -/
theorem dot_eq (a b : Fin 8192) : val_main_v8 (F := Ideal) x0 (ix2 a b) = dot (X x0) a b := by
  have el : ∀ k : Fin 128, lidx_main_v8 (ix2 a b) k = ix2 a k := fun k =>
    funext fun d => Fin.ext (by match d with | ⟨0, _⟩ => rfl | ⟨1, _⟩ => rfl)
  have er : ∀ k : Fin 128, idx_main_v7 (ridx_main_v8 (ix2 a b) k) = ix2 b k := fun k =>
    funext fun d => Fin.ext (by match d with | ⟨0, _⟩ => rfl | ⟨1, _⟩ => rfl)
  rw [val_main_v8_apply]
  simp only [val_main_v7_apply, el, er]
  rfl

/-- The clipped matrix holds the squared distances. -/
theorem d2_eq (a b : Fin 8192) : val_main_v13 (F := Ideal) x0 (ix2 a b) = d2 (X x0) a b := by
  have e4 : idx_main_v2 (idx_main_v4 (ix2 a b)) = ix1 a :=
    funext fun d => Fin.ext (by match d with | ⟨0, _⟩ => rfl)
  have e5 : idx_main_v3 (idx_main_v5 (ix2 a b)) = ix1 b :=
    funext fun d => Fin.ext (by match d with | ⟨0, _⟩ => rfl)
  rw [val_main_v13_apply, val_main_v11_apply, val_main_v6_apply, val_main_v4_apply, val_main_v2_apply, e4,
    val_main_v5_apply, val_main_v3_apply, e5, val_main_v10_apply, val_main_v9_apply, val_main_cst_0_apply,
    val_main_v12_apply, val_main_cst_1_apply, sq_eq, sq_eq, dot_eq]
  simp only [Ideal.ofBits_def, Ideal.maximumf_def, Ideal.subf_def, Ideal.addf_def, Ideal.mulf_def, Ideal.ofBits_zero_f32]
  rfl

/-- A number below 8192, as a 32-bit word read signed, is itself. -/
theorem toInt_ofNat_lt (n : Nat) (h : n < 8192) : (BitVec.ofNat 32 n).toInt = (n : Int) := by
  have e := BitVec.toInt_eq_toNat_cond (BitVec.ofNat 32 n)
  have hn : (BitVec.ofNat 32 n).toNat = n := by
    rw [BitVec.toNat_ofNat]; exact Nat.mod_eq_of_lt (by omega)
  rw [hn] at e
  omega

/-- "Row number plus zero is at least the column number", as a bit. -/
theorem sge_word (a b : Fin 8192) :
    IntOp.cmpi .sge (IntOp.addi (BitVec.ofNat 32 a.val) 0#32) (BitVec.ofNat 32 b.val) = if a < b then 0#1 else 1#1 := by
  have h0 : IntOp.addi (BitVec.ofNat 32 a.val) 0#32 = BitVec.ofNat 32 a.val := by
    unfold IntOp.addi; exact BitVec.add_zero _
  rw [h0]
  show BitVec.ofBool ((BitVec.ofNat 32 b.val).sle (BitVec.ofNat 32 a.val)) = _
  by_cases h : a < b
  · rw [if_pos h]
    have hf : (BitVec.ofNat 32 b.val).sle (BitVec.ofNat 32 a.val) = false := by
      rw [Bool.eq_false_iff]
      intro hc
      rw [BitVec.sle_iff_toInt_le, toInt_ofNat_lt _ b.isLt, toInt_ofNat_lt _ a.isLt] at hc
      have := Fin.lt_def.mp h
      omega
    rw [hf]; rfl
  · rw [if_neg h]
    have ht : (BitVec.ofNat 32 b.val).sle (BitVec.ofNat 32 a.val) = true := by
      rw [BitVec.sle_iff_toInt_le, toInt_ofNat_lt _ b.isLt, toInt_ofNat_lt _ a.isLt]
      have := Fin.lt_def.not.mp h
      omega
    rw [ht]; rfl

/-- The strict upper triangle: the mask's bit at (a, b) is "a < b". -/
theorem mask_eq (a b : Fin 8192) : val_main_v15 (F := Ideal) (ix2 a b) = if a < b then 1#1 else 0#1 := by
  rw [val_main_v15_apply, val_main_call0_v4_apply, val_main_call0_v2_apply, val_main_call0_v0_apply,
    val_main_call0_v1_apply, val_main_call0_c_apply, val_main_call0_v3_apply, val_main_call0_v5_apply,
    val_main_call0_c_0_apply, val_main_v14_apply, val_main_c_apply]
  show Scalar.select (IntOp.cmpi .sge (IntOp.addi (BitVec.ofNat 32 a.val) 0#32) (BitVec.ofNat 32 b.val)) 0#1 1#1 = _
  rw [sge_word]
  by_cases h : a < b
  · rw [if_pos h, if_pos h, select_zero]
  · rw [if_neg h, if_neg h, select_one]

/-- The label comparison's bit at (a, b) is "the labels are equal". -/
theorem lab_eq (a b : Fin 8192) :
    val_main_v20 (F := Ideal) x1 (ix2 a b) = if Lb x1 a = Lb x1 b then 1#1 else 0#1 := by
  have e18 : idx_main_v16 (idx_main_v18 (ix2 a b)) = ix1 a :=
    funext fun d => Fin.ext (by match d with | ⟨0, _⟩ => rfl)
  have e19 : idx_main_v17 (idx_main_v19 (ix2 a b)) = ix1 b :=
    funext fun d => Fin.ext (by match d with | ⟨0, _⟩ => rfl)
  rw [val_main_v20_apply, val_main_v18_apply, val_main_v16_apply, e18, val_main_v19_apply, val_main_v17_apply, e19]
  show BitVec.ofBool (Lb x1 a == Lb x1 b) = _
  by_cases h : Lb x1 a = Lb x1 b
  · rw [if_pos h, h, beq_self_eq_true]; rfl
  · rw [if_neg h, beq_false_of_ne h]; rfl

/-- The mask's bit 1 converts to the number 1 … -/
theorem uitofp_one : FloatOps.uitofp (F := Ideal) .f32 (1#1 : BitVec 1) = (1 : EReal) := by
  show ((((1#1 : BitVec 1).toNat : ℕ) : ℝ) : EReal) = 1
  have h : (1#1 : BitVec 1).toNat = 1 := rfl
  rw [h, Nat.cast_one, EReal.coe_one]
/-- … and its bit 0 to the number 0. -/
theorem uitofp_zero : FloatOps.uitofp (F := Ideal) .f32 (0#1 : BitVec 1) = (0 : EReal) := by
  show ((((0#1 : BitVec 1).toNat : ℕ) : ℝ) : EReal) = 0
  have h : (0#1 : BitVec 1).toNat = 0 := rfl
  rw [h, Nat.cast_zero, EReal.coe_zero]

/-- The masked term at (a, b) is the specification's contribution of the pair. -/
theorem term_eq (a b : Fin 8192) : val_main_v33 (F := Ideal) x0 x1 (ix2 a b) = F (X x0) (Lb x1) a b := by
  rw [val_main_v33_apply, val_main_v32_apply, val_main_v31_apply, val_main_v22_apply, val_main_v21_apply,
    val_main_cst_2_apply, val_main_v30_apply, val_main_v29_apply, val_main_call2_v1_apply, val_main_call2_v0_apply,
    val_main_cst_5_apply, val_main_v28_apply, val_main_v27_apply, val_main_cst_4_apply, val_main_v26_apply,
    val_main_v25_apply, val_main_v24_apply, val_main_v23_apply, val_main_call1_v1_apply, val_main_call1_v0_apply,
    val_main_cst_3_apply, d2_eq, lab_eq, mask_eq]
  unfold F tmU
  by_cases hab : a < b
  · by_cases hl : Lb x1 a = Lb x1 b
    · simp only [if_pos hab, if_pos hl, select_one, uitofp_one, mul_one, Ideal.ofBits_def, Ideal.mulf_def]
    · have hand : IntOp.andi (1#1 : BitVec 1) (~~~(0#1 : BitVec 1)) = 1#1 := by decide
      simp only [if_pos hab, if_neg hl, hand, select_one, select_zero, uitofp_one, mul_one, Ideal.ofBits_def,
        Ideal.mulf_def, Ideal.subf_def, Ideal.maximumf_def, Ideal.hostUnary_sqrt_def, Ideal.ofBits_zero_f32]
      rw [max_comm (0 : EReal)]
  · simp only [if_neg hab, uitofp_zero, Ideal.mulf_def, mul_zero]

/-- The total over all index pairs is the double sum of the contributions. -/
theorem total_eq (i : S_.Idx) :
    val_main_v34 (F := Ideal) x0 x1 i = ∑ a : Fin 8192, ∑ b : Fin 8192, F (X x0) (Lb x1) a b := by
  rw [val_main_v34_apply, val_main_cst_6_apply, Ideal.ofBits_def, Ideal.ofBits_zero_f32, zero_add, sum_idx2]
  exact Finset.sum_congr rfl fun a _ => Finset.sum_congr rfl fun b _ => term_eq x0 x1 a b

/-- The reference's one result is the loss of its two arrays. -/
theorem ref_eq :
    val_main_v36 (F := Ideal) x0 x1
      = fun _ => Cert.Spec.loss (fun a k => x0 (ix2 a k)) (fun a => x1 (ix1 a)) := by
  funext j
  show val_main_v35 (F := Ideal) x0 x1 _ = _
  rw [val_main_v35_apply, total_eq, val_main_cst_7_apply]
  rfl

end Cert.RefLoss

end
-- ==== Proof.lean ====
/-
  The contrastive loss over all pairs of 8192 embeddings, tiled: the kernel walks an 8 × 8 grid of 1024 × 1024 tiles of
  the pair matrix, skips the tiles below the diagonal, masks the diagonal tiles to their strict upper triangle, keeps the
  row sums of a row of tiles in an accumulator, and writes one total per row of tiles, which the host adds up and divides
  by the number of pairs; the reference forms the whole pair matrix, masks it to its strict upper triangle and takes the
  mean. At the exact extended-real reading both compute the same function of the embeddings and the labels
  (Proof/Spec.lean): a masked-out pair contributes the product with 0, which is 0 for every extended real, and sums may be
  regrouped freely, so no finiteness of the inputs is used.

  The three frames: the kernel (at both readings) by its launch (Proof/KBLaunch.lean, Proof/KILaunch.lean: the host
  operations before the region, the pipelined region with the body's seven control cases, the host operations after it);
  the reference by its straight-line run. The idealization rewrote nothing, so `preserves` is `True`. The value claim:
  the kernel's result is the loss (Proof/KIValue.lean), and so is the reference's (Proof/RefLoss.lean).
-/
import proofs.«129345_j9990093931268_2_alg».proof.Defs
import proofs.«129345_j9990093931268_2_alg».proof.Proof.Gen.Kernel
import proofs.«129345_j9990093931268_2_alg».proof.Proof.Gen.KernelIdeal
import proofs.«129345_j9990093931268_2_alg».proof.Proof.Gen.ReferenceIdeal
import proofs.«129345_j9990093931268_2_alg».proof.Proof.Gen.Pre_finite_inputs
import proofs.«129345_j9990093931268_2_alg».proof.Proof.Gen.ReferenceIdeal.Run
import proofs.«129345_j9990093931268_2_alg».proof.Proof.Gen.ReferenceIdeal.Read
import proofs.«129345_j9990093931268_2_alg».proof.Proof.KBLaunch
import proofs.«129345_j9990093931268_2_alg».proof.Proof.KIValue
import proofs.«129345_j9990093931268_2_alg».proof.Proof.RefLoss
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the loss of the specification, read off arrays that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fr.result m c, Cert.KernelIdeal.Fr.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.RefLoss.ref_eq, (hagree c).1, (hagree c).2]
  exact (Cert.KernelIdeal.Val.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
